-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S1024x4096 : Shape := ⟨2, ![1024, 4096]⟩
abbrev S2048x2048 : Shape := ⟨2, ![2048, 2048]⟩
abbrev S2048 : Shape := ⟨1, ![2048]⟩
abbrev S4096 : Shape := ⟨1, ![4096]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S4096 : S_.BroadcastsInDim S4096 (![] : Fin 0 → Fin S4096.rank)
  reducesTo_S4096_S_d0 : S4096.ReducesTo [0] S_

variable [Facts]

def fn_part4 {F : FTy → Type} [FloatOps F] (main_arg14 : FVec F S4096 .f32) (main_arg15 : FVec F S4096 .f32) (main_v63 : IVec S_ 1) (main_v67 : IVec S_ 1) : IVec S_ 1 :=
  let main_v68 : IVec S_ 1 := andi main_v63 main_v67
  let main_v69 : FVec F S4096 .f32 := Host.absf main_arg14
  let main_cst_26 : FVec F S_ .f32 := constant S_ .f32 0x7F800000#32
  let main_v70 : FVec F S4096 .f32 := broadcastInDim S4096 ![] bcast_S_S4096 main_cst_26
  let main_v71 : IVec S4096 1 := cmpf .olt main_v69 main_v70
  let main_c_27 : IVec S_ 1 := constantI S_ 1 1#1
  let main_v72 : IVec S_ 1 := (fun x v => Host.reduce IntOp.andi x v reducesTo_S4096_S_d0 h_S_) main_v71 main_c_27
  let main_v73 : IVec S_ 1 := andi main_v68 main_v72
  let main_v74 : FVec F S4096 .f32 := Host.absf main_arg15
  let main_cst_28 : FVec F S_ .f32 := constant S_ .f32 0x7F800000#32
  let main_v75 : FVec F S4096 .f32 := broadcastInDim S4096 ![] bcast_S_S4096 main_cst_28
  let main_v76 : IVec S4096 1 := cmpf .olt main_v74 main_v75
  let main_c_29 : IVec S_ 1 := constantI S_ 1 1#1
  let main_v77 : IVec S_ 1 := (fun x v => Host.reduce IntOp.andi x v reducesTo_S4096_S_d0 h_S_) main_v76 main_c_29
  let main_v78 : IVec S_ 1 := andi main_v73 main_v77
  main_v78

def fn_part3 {F : FTy → Type} [FloatOps F] (main_arg11 : FVec F S2048 .f32) (main_arg12 : FVec F S2048x2048 .f32) (main_arg13 : FVec F S2048 .f32) (main_arg14 : FVec F S4096 .f32) (main_arg15 : FVec F S4096 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_arg15 main_v63 main_v67

def fn_part2 {F : FTy → Type} [FloatOps F] (main_arg7 : FVec F S2048 .f32) (main_arg8 : FVec F S2048x2048 .f32) (main_arg9 : FVec F S2048 .f32) (main_arg10 : FVec F S2048x2048 .f32) (main_arg11 : FVec F S2048 .f32) (main_arg12 : FVec F S2048x2048 .f32) (main_arg13 : FVec F S2048 .f32) (main_arg14 : FVec F S4096 .f32) (main_arg15 : FVec F S4096 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_arg15 main_v48 main_v49 main_v50

def fn_part1 {F : FTy → Type} [FloatOps F] (main_arg4 : FVec F S2048x2048 .f32) (main_arg5 : FVec F S2048 .f32) (main_arg6 : FVec F S2048x2048 .f32) (main_arg7 : FVec F S2048 .f32) (main_arg8 : FVec F S2048x2048 .f32) (main_arg9 : FVec F S2048 .f32) (main_arg10 : FVec F S2048x2048 .f32) (main_arg11 : FVec F S2048 .f32) (main_arg12 : FVec F S2048x2048 .f32) (main_arg13 : FVec F S2048 .f32) (main_arg14 : FVec F S4096 .f32) (main_arg15 : FVec F S4096 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S1024x2048 .f32) (main_arg1 : FVec F S1024x4096 .f32) (main_arg2 : FVec F S1024x4096 .f32) (main_arg3 : FVec F S1024x4096 .f32) (main_arg4 : FVec F S2048x2048 .f32) (main_arg5 : FVec F S2048 .f32) (main_arg6 : FVec F S2048x2048 .f32) (main_arg7 : FVec F S2048 .f32) (main_arg8 : FVec F S2048x2048 .f32) (main_arg9 : FVec F S2048 .f32) (main_arg10 : FVec F S2048x2048 .f32) (main_arg11 : FVec F S2048 .f32) (main_arg12 : FVec F S2048x2048 .f32) (main_arg13 : FVec F S2048 .f32) (main_arg14 : FVec F S4096 .f32) (main_arg15 : FVec F S4096 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S1024x2048 : Shape := ⟨2, ![1024, 2048]⟩
abbrev S1024x4096 : Shape := ⟨2, ![1024, 4096]⟩
abbrev S2048x2048 : Shape := ⟨2, ![2048, 2048]⟩
abbrev S2048 : Shape := ⟨1, ![2048]⟩
abbrev S4096 : Shape := ⟨1, ![4096]⟩
abbrev S1x2048 : Shape := ⟨2, ![1, 2048]⟩
abbrev S512x128 : Shape := ⟨2, ![512, 128]⟩
abbrev S2048x128 : Shape := ⟨2, ![2048, 128]⟩
abbrev S512x2048 : Shape := ⟨2, ![512, 2048]⟩
abbrev S_ : Shape := ⟨0, ![]⟩
abbrev S1x4096 : Shape := ⟨2, ![1, 4096]⟩
abbrev S128x4096 : Shape := ⟨2, ![128, 4096]⟩

abbrev nBuf : Space → Nat
  | .hbm => 45
  | .vmem => 38
  | .smem => 0
  | _ => 0

abbrev bufTy : (tb : Table) → Fin (tcTables nBuf tb) → BufTy
  | .hbm, ⟨0, _⟩ => ⟨S1024x2048, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048, .f32⟩
  | .hbm, ⟨14, _⟩ => ⟨S4096, .f32⟩
  | .hbm, ⟨15, _⟩ => ⟨S4096, .f32⟩
  | .hbm, ⟨16, _⟩ => ⟨S2048, .f32⟩
  | .hbm, ⟨17, _⟩ => ⟨S2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S1024x2048, .f32⟩
  | .hbm, ⟨22, _⟩ => ⟨S1024x2048, .f32⟩
  | .hbm, ⟨23, _⟩ => ⟨S1024x4096, .f32⟩
  | .hbm, ⟨24, _⟩ => ⟨S4096, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S1x4096, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S1x4096, .f32⟩
  | .hbm, ⟨42, _⟩ => ⟨S1024x4096, .f32⟩
  | .hbm, ⟨43, _⟩ => ⟨S1024x4096, .f32⟩
  | .hbm, ⟨44, _⟩ => ⟨S1024x4096, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S1x2048, .f32⟩
  | .local _ .vmem, ⟨17, _⟩ => ⟨S1x2048, .f32⟩
  | .local _ .vmem, ⟨18, _⟩ => ⟨S512x2048, .f32⟩
  | .local _ .vmem, ⟨19, _⟩ => ⟨S512x2048, .f32⟩
  | .local _ .vmem, ⟨20, _⟩ => ⟨S512x2048, .f32⟩
  | .local _ .vmem, ⟨21, _⟩ => ⟨S512x2048, .f32⟩
  | .local _ .vmem, ⟨22, _⟩ => ⟨S128x4096, .f32⟩
  | .local _ .vmem, ⟨23, _⟩ => ⟨S128x4096, .f32⟩
  | .local _ .vmem, ⟨24, _⟩ => ⟨S128x4096, .f32⟩
  | .local _ .vmem, ⟨25, _⟩ => ⟨S128x4096, .f32⟩
  | .local _ .vmem, ⟨26, _⟩ => ⟨S128x4096, .f32⟩
  | .local _ .vmem, ⟨27, _⟩ => ⟨S128x4096, .f32⟩
  | .local _ .vmem, ⟨28, _⟩ => ⟨S128x4096, .f32⟩
  | .local _ .vmem, ⟨29, _⟩ => ⟨S128x4096, .f32⟩
  | .local _ .vmem, ⟨30, _⟩ => ⟨S1x4096, .f32⟩
  | .local _ .vmem, ⟨31, _⟩ => ⟨S1x4096, .f32⟩
  | .local _ .vmem, ⟨32, _⟩ => ⟨S128x4096, .f32⟩
  | .local _ .vmem, ⟨33, _⟩ => ⟨S128x4096, .f32⟩
  | .local _ .vmem, ⟨34, _⟩ => ⟨S128x4096, .f32⟩
  | .local _ .vmem, ⟨35, _⟩ => ⟨S128x4096, .f32⟩
  | .local _ .vmem, ⟨36, _⟩ => ⟨S128x4096, .f32⟩
  | .local _ .vmem, ⟨37, _⟩ => ⟨S128x4096, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5_0 : Ref sig .tc := ⟨.hbm, 21, rfl⟩
abbrev main_v5_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21_0 : Ref sig .tc := ⟨.hbm, 42, rfl⟩
abbrev main_v21_1 : Ref sig .tc := ⟨.hbm, 43, rfl⟩
abbrev main_v21_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg5_0 : Ref sig .tc := ⟨.vmem, 31, rfl⟩
abbrev cc1_stg6_0 : Ref sig .tc := ⟨.vmem, 32, rfl⟩
abbrev cc1_stg6_1 : Ref sig .tc := ⟨.vmem, 33, rfl⟩
abbrev cc1_stg7_0 : Ref sig .tc := ⟨.vmem, 34, rfl⟩
abbrev cc1_stg7_1 : Ref sig .tc := ⟨.vmem, 35, rfl⟩
abbrev cc1_stg8_0 : Ref sig .tc := ⟨.vmem, 36, rfl⟩
abbrev cc1_stg8_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem5_0 : DmaSem sig := 31
abbrev cc1_sem6_0 : DmaSem sig := 32
abbrev cc1_sem6_1 : DmaSem sig := 33
abbrev cc1_sem7_0 : DmaSem sig := 34
abbrev cc1_sem7_1 : DmaSem sig := 35
abbrev cc1_sem8_0 : DmaSem sig := 36
abbrev cc1_sem8_1 : DmaSem sig := 37

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S128x4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S128x4096 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  concatenates_S1024x2048_S1024x2048_S1024x4096_d1 : Shape.Concatenates [S1024x2048, S1024x2048] S1024x4096 1
  bcast_S_S4096 : S_.BroadcastsInDim S4096 (![] : Fin 0 → Fin S4096.rank)
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  broadcasts_S1x4096_S128x4096 : S1x4096.Broadcasts S128x4096
  natLt_1_32 : 1 < 32
  dot_S512x128_S2048x128_S512x2048_1_1_0_0_n_n_wf : DotDims.WF S512x128 S2048x128 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S1024x2048.size a
  hwx0_0 : ∀ i : grid0.Coords, EltTy.bits .f32 = 32 ∨ (Rect.block (s := S1024x2048) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S1024x4096.size a
  hwx0_1 : ∀ i : grid0.Coords, EltTy.bits .f32 = 32 ∨ (Rect.block (s := S1024x4096) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S1024x4096.size a
  hwx0_2 : ∀ i : grid0.Coords, EltTy.bits .f32 = 32 ∨ (Rect.block (s := S1024x4096) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S2048x2048.size a
  hwx0_3 : ∀ i : grid0.Coords, EltTy.bits .f32 = 32 ∨ (Rect.block (s := S2048x2048) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S2048x2048.size a
  hwx0_4 : ∀ i : grid0.Coords, EltTy.bits .f32 = 32 ∨ (Rect.block (s := S2048x2048) S2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S2048x2048.size a
  hwx0_5 : ∀ i : grid0.Coords, EltTy.bits .f32 = 32 ∨ (Rect.block (s := S2048x2048) S2048x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S2048x2048.size a
  hwx0_6 : ∀ i : grid0.Coords, EltTy.bits .f32 = 32 ∨ (Rect.block (s := S2048x2048) S2048x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S2048x2048.size a
  hwx0_7 : ∀ i : grid0.Coords, EltTy.bits .f32 = 32 ∨ (Rect.block (s := S2048x2048) S2048x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2048.size a ≤ S1x2048.size a
  hwx0_9 : ∀ i : grid0.Coords, EltTy.bits .f32 = 32 ∨ (Rect.block (s := S1x2048) S1x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x2048.size a ≤ S1024x2048.size a
  hwx0_10 : ∀ i : grid0.Coords, EltTy.bits .f32 = 32 ∨ (Rect.block (s := S1024x2048) S512x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x2048.size a ≤ S1024x2048.size a
  hwx0_11 : ∀ i : grid0.Coords, EltTy.bits .f32 = 32 ∨ (Rect.block (s := S1024x2048) S512x2048.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S1024x4096.size a
  hwx1_0 : ∀ i : grid1.Coords, EltTy.bits .f32 = 32 ∨ (Rect.block (s := S1024x4096) S128x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x4096.size a ≤ S1024x4096.size a
  hwx1_1 : ∀ i : grid1.Coords, EltTy.bits .f32 = 32 ∨ (Rect.block (s := S1024x4096) S128x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x4096.size a ≤ S1024x4096.size a
  hwx1_2 : ∀ i : grid1.Coords, EltTy.bits .f32 = 32 ∨ (Rect.block (s := S1024x4096) S128x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x4096.size a ≤ S1024x4096.size a
  hwx1_3 : ∀ i : grid1.Coords, EltTy.bits .f32 = 32 ∨ (Rect.block (s := S1024x4096) S128x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x4096.size a ≤ S1x4096.size a
  hwx1_5 : ∀ i : grid1.Coords, EltTy.bits .f32 = 32 ∨ (Rect.block (s := S1x4096) S1x4096.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x4096.size a ≤ S1024x4096.size a
  hwx1_6 : ∀ i : grid1.Coords, EltTy.bits .f32 = 32 ∨ (Rect.block (s := S1024x4096) S128x4096.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x4096.size a ≤ S1024x4096.size a
  hwx1_7 : ∀ i : grid1.Coords, EltTy.bits .f32 = 32 ∨ (Rect.block (s := S1024x4096) S128x4096.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S128x4096.size a ≤ S1024x4096.size a
  hwx1_8 : ∀ i : grid1.Coords, EltTy.bits .f32 = 32 ∨ (Rect.block (s := S1024x4096) S128x4096.size (cc1_transform_8 i) (hinb1_8 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S2048x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg12) S2048x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S2048x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S2048x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5_0) S512x2048.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5_1) S512x2048.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg1) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S128x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21_0) S128x4096.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v21_1) S128x4096.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v21_2) S128x4096.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S1024x2048 : Shape := ⟨2, ![1024, 2048]⟩
abbrev S1024x4096 : Shape := ⟨2, ![1024, 4096]⟩
abbrev S2048x2048 : Shape := ⟨2, ![2048, 2048]⟩
abbrev S2048 : Shape := ⟨1, ![2048]⟩
abbrev S4096 : Shape := ⟨1, ![4096]⟩
abbrev S1x2048 : Shape := ⟨2, ![1, 2048]⟩
abbrev S_ : Shape := ⟨0, ![]⟩
abbrev S1x4096 : Shape := ⟨2, ![1, 4096]⟩

abbrev nBuf : Space → Nat
  | .hbm => 102
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048, .f32⟩
  | .hbm, ⟨14, _⟩ => ⟨S4096, .f32⟩
  | .hbm, ⟨15, _⟩ => ⟨S4096, .f32⟩
  | .hbm, ⟨16, _⟩ => ⟨S1024x2048, .f32⟩
  | .hbm, ⟨17, _⟩ => ⟨S1024x2048, .f32⟩
  | .hbm, ⟨18, _⟩ => ⟨S2048x2048, .f32⟩
  | .hbm, ⟨19, _⟩ => ⟨S1024x2048, .f32⟩
  | .hbm, ⟨20, _⟩ => ⟨S1x2048, .f32⟩
  | .hbm, ⟨21, _⟩ => ⟨S1024x2048, .f32⟩
  | .hbm, ⟨22, _⟩ => ⟨S1024x2048, .f32⟩
  | .hbm, ⟨23, _⟩ => ⟨S2048x2048, .f32⟩
  | .hbm, ⟨24, _⟩ => ⟨S1024x2048, .f32⟩
  | .hbm, ⟨25, _⟩ => ⟨S1x2048, .f32⟩
  | .hbm, ⟨26, _⟩ => ⟨S1024x2048, .f32⟩
  | .hbm, ⟨27, _⟩ => ⟨S1024x2048, .f32⟩
  | .hbm, ⟨28, _⟩ => ⟨S1024x2048, .f32⟩
  | .hbm, ⟨29, _⟩ => ⟨S2048x2048, .f32⟩
  | .hbm, ⟨30, _⟩ => ⟨S1024x2048, .f32⟩
  | .hbm, ⟨31, _⟩ => ⟨S1x2048, .f32⟩
  | .hbm, ⟨32, _⟩ => ⟨S1024x2048, .f32⟩
  | .hbm, ⟨33, _⟩ => ⟨S1024x2048, .f32⟩
  | .hbm, ⟨34, _⟩ => ⟨S1024x2048, .f32⟩
  | .hbm, ⟨35, _⟩ => ⟨S2048x2048, .f32⟩
  | .hbm, ⟨36, _⟩ => ⟨S1024x2048, .f32⟩
  | .hbm, ⟨37, _⟩ => ⟨S1x2048, .f32⟩
  | .hbm, ⟨38, _⟩ => ⟨S1024x2048, .f32⟩
  | .hbm, ⟨39, _⟩ => ⟨S1024x2048, .f32⟩
  | .hbm, ⟨40, _⟩ => ⟨S2048x2048, .f32⟩
  | .hbm, ⟨41, _⟩ => ⟨S1024x2048, .f32⟩
  | .hbm, ⟨42, _⟩ => ⟨S1x2048, .f32⟩
  | .hbm, ⟨43, _⟩ => ⟨S1024x2048, .f32⟩
  | .hbm, ⟨44, _⟩ => ⟨S1024x2048, .f32⟩
  | .hbm, ⟨45, _⟩ => ⟨S1024x2048, .f32⟩
  | .hbm, ⟨46, _⟩ => ⟨S1024x4096, .f32⟩
  | .hbm, ⟨47, _⟩ => ⟨S4096, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S4096, .f32⟩
  | .hbm, ⟨56, _⟩ => ⟨S4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S_, .f32⟩
  | .hbm, ⟨61, _⟩ => ⟨S4096, .f32⟩
  | .hbm, ⟨62, _⟩ => ⟨S4096, .f32⟩
  | .hbm, ⟨63, _⟩ => ⟨S1x4096, .f32⟩
  | .hbm, ⟨64, _⟩ => ⟨S1024x4096, .f32⟩
  | .hbm, ⟨65, _⟩ => ⟨S1024x4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S1x4096, .f32⟩
  | .hbm, ⟨70, _⟩ => ⟨S1024x4096, .f32⟩
  | .hbm, ⟨71, _⟩ => ⟨S1024x4096, .f32⟩
  | .hbm, ⟨72, _⟩ => ⟨S1024x4096, .f32⟩
  | .hbm, ⟨73, _⟩ => ⟨S_, .f32⟩
  | .hbm, ⟨74, _⟩ => ⟨S1024x4096, .f32⟩
  | .hbm, ⟨75, _⟩ => ⟨S1024x4096, .f32⟩
  | .hbm, ⟨76, _⟩ => ⟨S_, .f32⟩
  | .hbm, ⟨77, _⟩ => ⟨S1024x4096, .f32⟩
  | .hbm, ⟨78, _⟩ => ⟨S1024x4096, .f32⟩
  | .hbm, ⟨79, _⟩ => ⟨S1x4096, .f32⟩
  | .hbm, ⟨80, _⟩ => ⟨S1024x4096, .f32⟩
  | .hbm, ⟨81, _⟩ => ⟨S1024x4096, .f32⟩
  | .hbm, ⟨82, _⟩ => ⟨S_, .f32⟩
  | .hbm, ⟨83, _⟩ => ⟨S4096, .f32⟩
  | .hbm, ⟨84, _⟩ => ⟨S4096, .f32⟩
  | .hbm, ⟨85, _⟩ => ⟨S_, .f32⟩
  | .hbm, ⟨86, _⟩ => ⟨S4096, .f32⟩
  | .hbm, ⟨87, _⟩ => ⟨S4096, .f32⟩
  | .hbm, ⟨88, _⟩ => ⟨S1x4096, .f32⟩
  | .hbm, ⟨89, _⟩ => ⟨S1024x4096, .f32⟩
  | .hbm, ⟨90, _⟩ => ⟨S1024x4096, .f32⟩
  | .hbm, ⟨91, _⟩ => ⟨S1024x4096, .f32⟩
  | .hbm, ⟨92, _⟩ => ⟨S1024x4096, .f32⟩
  | .hbm, ⟨93, _⟩ => ⟨S_, .f32⟩
  | .hbm, ⟨94, _⟩ => ⟨S1024x4096, .f32⟩
  | .hbm, ⟨95, _⟩ => ⟨S1024x4096, .f32⟩
  | .hbm, ⟨96, _⟩ => ⟨S1024x4096, .f32⟩
  | .hbm, ⟨97, _⟩ => ⟨S1024x4096, .f32⟩
  | .hbm, ⟨98, _⟩ => ⟨S_, .f32⟩
  | .hbm, ⟨99, _⟩ => ⟨S1024x4096, .f32⟩
  | .hbm, ⟨100, _⟩ => ⟨S1024x4096, .i1⟩
  | .hbm, ⟨101, _⟩ => ⟨S1024x4096, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst : Ref sig .tc := ⟨.hbm, 49, rfl⟩
abbrev main_v33 : Ref sig .tc := ⟨.hbm, 50, rfl⟩
abbrev main_v34 : Ref sig .tc := ⟨.hbm, 51, rfl⟩
abbrev main_cst_0 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_1 : Ref sig .tc := ⟨.hbm, 57, rfl⟩
abbrev main_v39 : Ref sig .tc := ⟨.hbm, 58, rfl⟩
abbrev main_v40 : Ref sig .tc := ⟨.hbm, 59, rfl⟩
abbrev main_cst_2 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_3 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_4 : Ref sig .tc := ⟨.hbm, 73, rfl⟩
abbrev main_v52 : Ref sig .tc := ⟨.hbm, 74, rfl⟩
abbrev main_v53 : Ref sig .tc := ⟨.hbm, 75, rfl⟩
abbrev main_cst_5 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_6 : Ref sig .tc := ⟨.hbm, 82, rfl⟩
abbrev main_v59 : Ref sig .tc := ⟨.hbm, 83, rfl⟩
abbrev main_v60 : Ref sig .tc := ⟨.hbm, 84, rfl⟩
abbrev main_cst_7 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_8 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_9 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]

class Facts₀ : Prop where
  slices_S1024x4096_S1024x2048_0_0 : S1024x4096.Slices ![0, 0] S1024x2048
  slices_S1024x4096_S1024x2048_0_2048 : S1024x4096.Slices ![0, 2048] S1024x2048
  transposes_S2048x2048_S2048x2048_1_0 : S2048x2048.Transposes [1, 0] S2048x2048
  bcast_S2048_S1x2048_1 : S2048.BroadcastsInDim S1x2048 (![1] : Fin 1 → Fin S1x2048.rank)
  bcast_S1x2048_S1024x2048_0_1 : S1x2048.BroadcastsInDim S1024x2048 (![0, 1] : Fin 2 → Fin S1024x2048.rank)
  concatenates_S1024x2048_S1024x2048_S1024x4096_d1 : Shape.Concatenates [S1024x2048, S1024x2048] S1024x4096 1
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  bcast_S_S1024x4096 : S_.BroadcastsInDim S1024x4096 (![] : Fin 0 → Fin S1024x4096.rank)
  dot_S1024x2048_S2048x2048_S1024x2048_1_0_0_1_n_n_wf : DotDims.WF S1024x2048 S2048x2048 S1024x2048 [1] [0] [0] [1] [] []

variable [Facts₀]

def dot_S1024x2048_S2048x2048_S1024x2048_1_0_0_1_n_n : DotDims S1024x2048 S2048x2048 S1024x2048 where
  lhsContracting := [1]
  rhsContracting := [0]
  lhsNonContracting := [0]
  rhsNonContracting := [1]
  lhsBatch := []
  rhsBatch := []
  wf := dot_S1024x2048_S2048x2048_S1024x2048_1_0_0_1_n_n_wf

class Facts : Prop extends Facts₀ where

variable [Facts]
-- ==== Proof.Reg0Runs.lean ====
/-
  The first phase's body, case by case: what its two branches test.  The grid of the first phase has 32 points,
  point t = 16·m + k for batch half m and column tile k; the body resets its two accumulators when k = 0 and adds the
  bias rows when k = 15.  This module states the two tests over the grid coordinates, decides them over the grid,
  and names each window's current staging buffer at a point.
-/
import proofs.«124992_j59777354826392_1_alg».proof.Proof.Gen.KernelIdeal.Launch
import proofs.«124992_j59777354826392_1_alg».proof.Proof.Gen.KernelIdeal.Skeleton
import proofs.«124992_j59777354826392_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch of the body: the tile coordinate is 0 (the accumulators are reset). -/
abbrev cond0_0 (i : grid0.Coords) : Prop := (Scalar.cmpi .ne (Scalar.extui (Scalar.cmpi .eq (BitVec.ofNat 32 (i 1).val) 0#32)) 0#32) = 1#1
/-- The second branch: the tile coordinate is 15 (the bias rows are added). -/
abbrev cond0_1 (i : grid0.Coords) : Prop := (Scalar.cmpi .ne (Scalar.extui (Scalar.cmpi .eq (BitVec.ofNat 32 (i 1).val) 15#32)) 0#32) = 1#1
/-- Point t = 16·m + k has tile coordinate k: the first branch is taken exactly at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)
/-- The second branch is taken exactly at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-- One staging buffer of each accumulator window, through which a buffer's contents after a run are stated
    (the choice does not matter once the stores cover the block). -/
abbrev VO0_10 : View sig .tc .vmem S512x2048 .f32 := (Memref.whole cc0_stg10_0 : Memref sig .tc .vmem S512x2048 .f32).view
abbrev VO0_11 : View sig .tc .vmem S512x2048 .f32 := (Memref.whole cc0_stg11_0 : Memref sig .tc .vmem S512x2048 .f32).view

/-- Each window's current staging memref at point t, as the pipeline passes it to the body, and its wholeness. -/
abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x2048 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x2048 .f32 := win0_11.stage (cfg0.slots t 11)
abbrev hs0_11 (t : Fin cfg0.N) : (ms0_11 t).IsWhole := hstage0_11 ((cfg0.slots t 11).cast nbuf0_11)

end Cert.KernelIdeal.Hand

end
-- ==== Proof.Reg0RunA.lean ====
/-
  The first phase's body run on whole staging buffers at a point of the first column tile (k = 0): both accumulators are reset to zero and the tile's products added.
-/
import proofs.«124992_j59777354826392_1_alg».proof.Proof.Reg0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body run on whole staging memrefs in one case of its two branches: the ten input blocks stay as they were and each
    accumulator's buffer ends with the pieces the run's stores wrote (found by the run itself). -/
noncomputable def kernelRun0_A (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : cond0_0 i) (hc1 : ¬cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) :
    { L : List (View.Piece (Elt F) S512x2048 .f32) × List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L.1) ∗ (∃ f, arg13.view.loc (c : Thread nD τ) ↦[arg13.view.set]{fullShare} arg13.view.writes (Elt F) f L.2)) -∗ K ⟨⟩))
          ⊢ wp frame (wpE (defs₀ (F := F)) Variants.none c none) E (cc0__matmul_kernel i arg2 harg2 arg3 harg3 arg4 harg4 arg5 harg5 arg6 harg6 arg7 harg7 arg8 harg8 arg9 harg9 arg10 harg10 arg11 harg11 arg12 harg12 arg13 harg13) K } := by
  refine ⟨⟨?_, ?_⟩, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; iexact H10
    iexists _; iexact H11

end Cert.KernelIdeal.Hand

end
-- ==== Proof.Reg0RunB.lean ====
/-
  The first phase's body run on whole staging buffers at a point of a middle column tile (0 < k < 15): the tile's products are added to what the accumulators held.
-/
import proofs.«124992_j59777354826392_1_alg».proof.Proof.Reg0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body run on whole staging memrefs in one case of its two branches: the ten input blocks stay as they were and each
    accumulator's buffer ends with the pieces the run's stores wrote (found by the run itself). -/
noncomputable def kernelRun0_B (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc1 : ¬cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) (xo12 xo13 : Vec F S512x2048 .f32) :
    { L : List (View.Piece (Elt F) S512x2048 .f32) × List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xo12 ∗ owns (c : Thread nD τ) arg13 fullShare xo13
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L.1) ∗ (∃ f, arg13.view.loc (c : Thread nD τ) ↦[arg13.view.set]{fullShare} arg13.view.writes (Elt F) f L.2)) -∗ K ⟨⟩))
          ⊢ wp frame (wpE (defs₀ (F := F)) Variants.none c none) E (cc0__matmul_kernel i arg2 harg2 arg3 harg3 arg4 harg4 arg5 harg5 arg6 harg6 arg7 harg7 arg8 harg8 arg9 harg9 arg10 harg10 arg11 harg11 arg12 harg12 arg13 harg13) K } := by
  refine ⟨⟨?_, ?_⟩, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; iexact H10
    iexists _; iexact H11

end Cert.KernelIdeal.Hand

end
-- ==== Proof.Reg0RunC.lean ====
/-
  The first phase's body run on whole staging buffers at a point of the last column tile (k = 15): the tile's products are added, then the bias rows.
-/
import proofs.«124992_j59777354826392_1_alg».proof.Proof.Reg0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body run on whole staging memrefs in one case of its two branches: the ten input blocks stay as they were and each
    accumulator's buffer ends with the pieces the run's stores wrote (found by the run itself). -/
noncomputable def kernelRun0_C (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc1 : cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) (xo12 xo13 : Vec F S512x2048 .f32) :
    { L : List (View.Piece (Elt F) S512x2048 .f32) × List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xo12 ∗ owns (c : Thread nD τ) arg13 fullShare xo13
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L.1) ∗ (∃ f, arg13.view.loc (c : Thread nD τ) ↦[arg13.view.set]{fullShare} arg13.view.writes (Elt F) f L.2)) -∗ K ⟨⟩))
          ⊢ wp frame (wpE (defs₀ (F := F)) Variants.none c none) E (cc0__matmul_kernel i arg2 harg2 arg3 harg3 arg4 harg4 arg5 harg5 arg6 harg6 arg7 harg7 arg8 harg8 arg9 harg9 arg10 harg10 arg11 harg11 arg12 harg12 arg13 harg13) K } := by
  refine ⟨⟨?_, ?_⟩, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; iexact H10
    iexists _; iexact H11

end Cert.KernelIdeal.Hand

end
-- ==== Proof.Reg0Data.lean ====
/-
  The first phase's proof data.  At point t = 16·m + k each input window's staging buffer holds its block of the
  array the phase was entered with; the two accumulator windows hold, after the body, what the point's case leaves:
  at k = 0 the reset-and-add of the tile's products, at 0 < k < 15 the add onto what the point before left, at
  k = 15 that and the bias rows.  The accumulators are written back to their arrays only after k = 15, so between
  the points of one batch half each finds what the point before left.  The spike array is handed to two windows
  (its two column halves), each holding half of the read share of that array.
-/
import proofs.«124992_j59777354826392_1_alg».proof.Proof.Reg0RunA
import proofs.«124992_j59777354826392_1_alg».proof.Proof.Reg0RunB
import proofs.«124992_j59777354826392_1_alg».proof.Proof.Reg0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The covers and the cases' results -/

theorem cover0_A_10 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : cond0_0 i) (hc1 : ¬cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) (y : S512x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1.1 S512x2048.size (by sl_kernel_rfl) y

/-- What the case leaves in accumulator window 10's staging buffer: its stores read back. -/
def out0_A_10 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : cond0_0 i) (hc1 : ¬cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) : Vec F S512x2048 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1.1)

theorem cover0_A_11 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : cond0_0 i) (hc1 : ¬cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) (y : S512x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1.2, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1.2 S512x2048.size (by sl_kernel_rfl) y

/-- What the case leaves in accumulator window 11's staging buffer: its stores read back. -/
def out0_A_11 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : cond0_0 i) (hc1 : ¬cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) : Vec F S512x2048 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1.2)

theorem cover0_B_10 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc1 : ¬cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) (xo12 xo13 : Vec F S512x2048 .f32) (y : S512x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13).1.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13).1.1 S512x2048.size (by sl_kernel_rfl) y

/-- What the case leaves in accumulator window 10's staging buffer: its stores read back. -/
def out0_B_10 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc1 : ¬cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) (xo12 xo13 : Vec F S512x2048 .f32) : Vec F S512x2048 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13).1.1)

theorem cover0_B_11 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc1 : ¬cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) (xo12 xo13 : Vec F S512x2048 .f32) (y : S512x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13).1.2, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13).1.2 S512x2048.size (by sl_kernel_rfl) y

/-- What the case leaves in accumulator window 11's staging buffer: its stores read back. -/
def out0_B_11 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc1 : ¬cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) (xo12 xo13 : Vec F S512x2048 .f32) : Vec F S512x2048 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13).1.2)

theorem cover0_C_10 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc1 : cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) (xo12 xo13 : Vec F S512x2048 .f32) (y : S512x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13).1.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13).1.1 S512x2048.size (by sl_kernel_rfl) y

/-- What the case leaves in accumulator window 10's staging buffer: its stores read back. -/
def out0_C_10 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc1 : cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) (xo12 xo13 : Vec F S512x2048 .f32) : Vec F S512x2048 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13).1.1)

theorem cover0_C_11 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc1 : cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) (xo12 xo13 : Vec F S512x2048 .f32) (y : S512x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13).1.2, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13).1.2 S512x2048.size (by sl_kernel_rfl) y

/-- What the case leaves in accumulator window 11's staging buffer: its stores read back. -/
def out0_C_11 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc1 : cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) (xo12 xo13 : Vec F S512x2048 .f32) : Vec F S512x2048 .f32 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13).1.2)

section AtV

variable (V : (c : Dev nD) → (b : Ref sig .tc) → Buf (Elt F) ((c : Thread nD τ).loc b))

/-- Window w's block at point t, read off its array as the phase finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## What the accumulators hold after each point -/

/-- The two accumulators' staging buffers after the body at position n, by recursion on the position: the case the
    position's tile coordinate selects, run on the point's blocks, the later cases over what position n − 1 left. -/
def outsAt0 (c : Dev nD) : (n : ℕ) → n < cfg0.N → Vec F S512x2048 .f32 × Vec F S512x2048 .f32
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr (Nat.zero_mod _)) (fun h => by have := (hcond0_1 ⟨0, hn⟩).mp h; dsimp only at this; omega) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩),
              out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr (Nat.zero_mod _)) (fun h => by have := (hcond0_1 ⟨0, hn⟩).mp h; dsimp only at this; omega) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩))
  | n + 1, hn =>
    if h0 : (n + 1) % 16 = 0 then
      (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) ((hcond0_0 ⟨n + 1, hn⟩).mpr h0) (fun h => by have := (hcond0_1 ⟨n + 1, hn⟩).mp h; dsimp only at this; omega) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩),
       out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) ((hcond0_0 ⟨n + 1, hn⟩).mpr h0) (fun h => by have := (hcond0_1 ⟨n + 1, hn⟩).mp h; dsimp only at this; omega) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩))
    else if h1 : (n + 1) % 16 = 15 then
      (out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).1 (outsAt0 c n (Nat.lt_of_succ_lt hn)).2,
       out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).1 (outsAt0 c n (Nat.lt_of_succ_lt hn)).2)
    else
      (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).1 (outsAt0 c n (Nat.lt_of_succ_lt hn)).2,
       out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).1 (outsAt0 c n (Nat.lt_of_succ_lt hn)).2)

/-- The position before t, as a position. -/
abbrev prev0 (c : Dev nD) (t : Fin cfg0.N) : Vec F S512x2048 .f32 × Vec F S512x2048 .f32 :=
  outsAt0 V c (t.val - 1) (Nat.lt_of_le_of_lt (Nat.sub_le _ _) t.isLt)

/-- At a point of the first tile: the reset case. -/
theorem outsAt0_A (c : Dev nD) (t : Fin cfg0.N) (h0 : t.val % 16 = 0) (h1' : ¬cond0_1 (grid0.coords t)) :
    outsAt0 V c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) h1' (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t),
      out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) h1' (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) := by
  obtain ⟨n, hn⟩ := t
  cases n with
  | zero => exact rfl
  | succ n => exact (dif_pos h0).trans rfl

/-- At a point of a middle tile: the adding case over what the point before left. -/
theorem outsAt0_B (c : Dev nD) (t : Fin cfg0.N) (h0 : ¬t.val % 16 = 0) (h1 : ¬t.val % 16 = 15) :
    outsAt0 V c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (prev0 V c t).1 (prev0 V c t).2,
      out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (prev0 V c t).1 (prev0 V c t).2) := by
  obtain ⟨n, hn⟩ := t
  cases n with
  | zero => exact (by exfalso; (try dsimp only at h0); exact absurd (Nat.zero_mod _) h0)
  | succ n => exact (dif_neg h0).trans ((dif_neg h1).trans rfl)

/-- At a point of the last tile: the adding case and the bias rows, over what the point before left. -/
theorem outsAt0_C (c : Dev nD) (t : Fin cfg0.N) (h0 : ¬t.val % 16 = 0) (h1 : t.val % 16 = 15) :
    outsAt0 V c t.val t.isLt = (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (prev0 V c t).1 (prev0 V c t).2,
      out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (prev0 V c t).1 (prev0 V c t).2) := by
  obtain ⟨n, hn⟩ := t
  cases n with
  | zero => exact (by exfalso; (try dsimp only at h0); exact absurd (Nat.zero_mod _) h0)
  | succ n => exact (dif_neg h0).trans ((dif_pos h1).trans rfl)

/-! ## The proof data -/

/-- The first phase's proof data on core c: the arrays as the phase finds them; after the body at point t each input's
    buffer at its block and the accumulators' at outsAt0; the invariant the scoped rest and the generator register,
    untouched; nothing owed; the spike array's read share halved between its two windows. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => (outsAt0 V c t.val t.isLt).1
    | ⟨11, _⟩ => (outsAt0 V c t.val t.isLt).2
  Φ _ := Pipeline.ΦA spec0 c
  q w := match w with
    | ⟨1, _⟩ => fullShare.left
    | ⟨2, _⟩ => fullShare.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = (outsAt0 V c t.val t.isLt).1 := by dsimp only [dat0]
theorem after0_11 (c : Dev nD) (t : Fin cfg0.N) : (dat0 V c).after 11 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-- Past the first tile of a batch half an accumulator's staging buffer holds what the body left at the point before:
    it was not written back between (the write-backs come after k = 15 only). -/
theorem before0_10_kept (c : Dev nD) (t : Fin cfg0.N) (h0 : ¬t.val % 16 = 0) (d) :
    (dat0 V c).before 10 t d = (prev0 V c t).1 := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl)]
  dsimp only [dat0]
theorem before0_11_kept (c : Dev nD) (t : Fin cfg0.N) (h0 : ¬t.val % 16 = 0) (d) :
    (dat0 V c).before 11 t d = (prev0 V c t).2 := by
  have hN : t.val < 32 := lt_of_lt_of_eq t.isLt (show cfg0.N = 32 from N_0)
  rw [Dat.before_out_kept _ 11 rfl t (by omega) (Bool.eq_false_iff.mpr fun h => by have := (flush0_11 _).mp h; dsimp only at this; omega)
    (fun _ => rfl) (fun _ _ => rfl)]
  dsimp only [dat0]

end AtV

end Cert.KernelIdeal.Hand

end
-- ==== Proof.Reg0BodyDefs.lean ====
/-
  The first phase's body obligation, stated window by window: what the body is called with at a grid point and what
  it returns.
-/
import proofs.«124992_j59777354826392_1_alg».proof.Proof.Reg0Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The components of a pair known by an equation. -/
theorem pair_fst_eq {α β : Type} {x : α × β} {a : α} {b : β} (h : x = (a, b)) : x.1 = a := by rw [h]
theorem pair_snd_eq {α β : Type} {x : α × β} {a : α} {b : β} (h : x = (a, b)) : x.2 = b := by rw [h]

variable (V : (c : Dev nD) → (b : Ref sig .tc) → Buf (Elt F) ((c : Thread nD τ).loc b))

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t))

end Cert.KernelIdeal.Hand

end
-- ==== Proof.Reg0BodyA.lean ====
/-
  The first phase's body obligation at the points of the first column tile (k = 0).
-/
import proofs.«124992_j59777354826392_1_alg».proof.Proof.Reg0BodyDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
theorem sound_body0_A (c : Dev nD) (t : Fin cfg0.N) (h0 : t.val % 16 = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  have hN : t.val < 32 := lt_of_lt_of_eq t.isLt (show cfg0.N = 32 from N_0)
  have h1' : ¬cond0_1 (grid0.coords t) := fun h => by have := (hcond0_1 t).mp h; omega
  rw [pair_fst_eq (outsAt0_A V c t h0 h1'), pair_snd_eq (outsAt0_A V c t h0 h1')]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ ((hcond0_0 t).mpr h0) h1' (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, ⟨%e10, H10⟩, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; unfold out0_A_10; exact View.read_writes_of_cover _ _ _ _ _ (cover0_A_10 c _ _ _ _ _ _ _ _ _ _ _ _ _ _ _ _ _ _ _ _ _ _ _ _ _ _ _ _ _ _ _ _ _ _ _ _ _)
  · unfold owns; iexists _; isplitr
    swap; · iexact H11
    ipureintro; unfold out0_A_11; exact View.read_writes_of_cover _ _ _ _ _ (cover0_A_11 c _ _ _ _ _ _ _ _ _ _ _ _ _ _ _ _ _ _ _ _ _ _ _ _ _ _ _ _ _ _ _ _ _ _ _ _ _)

end Cert.KernelIdeal.Hand

end
-- ==== Proof.Reg0BodyB.lean ====
/-
  The first phase's body obligation at the points of a middle column tile (0 < k < 15).
-/
import proofs.«124992_j59777354826392_1_alg».proof.Proof.Reg0BodyDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
theorem sound_body0_B (c : Dev nD) (t : Fin cfg0.N) (h0 : ¬t.val % 16 = 0) (h1 : ¬t.val % 16 = 15) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  have hN : t.val < 32 := lt_of_lt_of_eq t.isLt (show cfg0.N = 32 from N_0)
  rw [pair_fst_eq (outsAt0_B V c t h0 h1), pair_snd_eq (outsAt0_B V c t h0 h1)]
  simp only [before0_10_kept V c t h0, before0_11_kept V c t h0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_B c (grid0.coords t) _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, ⟨%e10, H10⟩, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; unfold out0_B_10; exact View.read_writes_of_cover _ _ _ _ _ (cover0_B_10 c _ _ _ _ _ _ _ _ _ _ _ _ _ _ _ _ _ _ _ _ _ _ _ _ _ _ _ _ _ _ _ _ _ _ _ _ _ _ _)
  · unfold owns; iexists _; isplitr
    swap; · iexact H11
    ipureintro; unfold out0_B_11; exact View.read_writes_of_cover _ _ _ _ _ (cover0_B_11 c _ _ _ _ _ _ _ _ _ _ _ _ _ _ _ _ _ _ _ _ _ _ _ _ _ _ _ _ _ _ _ _ _ _ _ _ _ _ _)

end Cert.KernelIdeal.Hand

end
-- ==== Proof.Reg0BodyC.lean ====
/-
  The first phase's body obligation at the points of the last column tile (k = 15).
-/
import proofs.«124992_j59777354826392_1_alg».proof.Proof.Reg0BodyDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
theorem sound_body0_C (c : Dev nD) (t : Fin cfg0.N) (h0 : ¬t.val % 16 = 0) (h1 : t.val % 16 = 15) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  have hN : t.val < 32 := lt_of_lt_of_eq t.isLt (show cfg0.N = 32 from N_0)
  rw [pair_fst_eq (outsAt0_C V c t h0 h1), pair_snd_eq (outsAt0_C V c t h0 h1)]
  simp only [before0_10_kept V c t h0, before0_11_kept V c t h0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_C c (grid0.coords t) _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, ⟨%e10, H10⟩, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; unfold out0_C_10; exact View.read_writes_of_cover _ _ _ _ _ (cover0_C_10 c _ _ _ _ _ _ _ _ _ _ _ _ _ _ _ _ _ _ _ _ _ _ _ _ _ _ _ _ _ _ _ _ _ _ _ _ _ _ _)
  · unfold owns; iexists _; isplitr
    swap; · iexact H11
    ipureintro; unfold out0_C_11; exact View.read_writes_of_cover _ _ _ _ _ (cover0_C_11 c _ _ _ _ _ _ _ _ _ _ _ _ _ _ _ _ _ _ _ _ _ _ _ _ _ _ _ _ _ _ _ _ _ _ _ _ _ _ _)

end Cert.KernelIdeal.Hand

end
-- ==== Proof.Reg0Body.lean ====
/-
  The first phase's body obligation: at every grid point, from each window's staging buffer at what the pipeline
  hands it, the body runs to each buffer at what the proof data says it leaves.  The point's tile coordinate selects
  the case.
-/
import proofs.«124992_j59777354826392_1_alg».proof.Proof.Reg0BodyA
import proofs.«124992_j59777354826392_1_alg».proof.Proof.Reg0BodyB
import proofs.«124992_j59777354826392_1_alg».proof.Proof.Reg0BodyC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem sound_body0 (c : Dev nD) (t : Fin cfg0.N) :
    bodyPre0 V c t ⊢ wp frame (wpE (defs₀ (F := F)) Variants.none c none) Set.univ (bodyAt0 t) (fun _ => bodyPost0 V c t) := by
  by_cases h0 : t.val % 16 = 0
  · exact sound_body0_A V c t h0
  · by_cases h1 : t.val % 16 = 15
    · exact sound_body0_C V c t h0 h1
    · exact sound_body0_B V c t h0 h1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Reg0Share.lean ====
/-
  The first phase's arrays at its two ends.  Its twelve windows stand on eleven buffers: the spike array is read
  through two windows (its two column halves).  Held whole, the eleven buffers are the twelve windows' arrays once the
  spike array's read share is halved between its two windows; and back.
-/
import proofs.«124992_j59777354826392_1_alg».proof.Proof.Reg0Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSepL bigSep_eq_bigSepL_of_eq)

variable (V : (c : Dev nD) → (b : Ref sig .tc) → Buf (Elt F) ((c : Thread nD τ).loc b))

/-- The eleven buffers behind the twelve windows. -/
abbrev arrList0 : List (Ref sig .tc) := [main_arg0, main_arg2, main_arg4, main_arg6, main_arg12, main_arg10, main_arg8, main_v2, main_v4, main_v5_0, main_v5_1]
theorem arrImage0 : Finset.univ.image (Pipeline.arrRef spec0) = arrList0.toFinset := by decide

/-- The buffers behind the windows, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg2) ↦{fullShare} W main_arg2) ∗ (((c : Thread nD τ).loc main_arg4) ↦{fullShare} W main_arg4) ∗ (((c : Thread nD τ).loc main_arg6) ↦{fullShare} W main_arg6) ∗ (((c : Thread nD τ).loc main_arg12) ↦{fullShare} W main_arg12) ∗ (((c : Thread nD τ).loc main_arg10) ↦{fullShare} W main_arg10) ∗ (((c : Thread nD τ).loc main_arg8) ↦{fullShare} W main_arg8) ∗ (((c : Thread nD τ).loc main_v2) ↦{fullShare} W main_v2) ∗ (((c : Thread nD τ).loc main_v4) ↦{fullShare} W main_v4) ∗ (((c : Thread nD τ).loc main_v5_0) ↦{fullShare} W main_v5_0) ∗ (((c : Thread nD τ).loc main_v5_1) ↦{fullShare} W main_v5_1)) := by
  unfold Pipeline.arrBufs
  exact bigSep_eq_bigSepL_of_eq arrList0 arrImage0 (by decide) _

/-- The windows' arrays, one by one, each at its share. -/
theorem arrays0_eq (c : Dev nD) (F' : (w : Fin cfg0.W) → Buf (Elt F) ((cfg0.win w).arr.view.loc (c : Thread nD τ))) :
    ((dat0 V c).arrays F' : sProp 𝕄)
      = iprop((((c : Thread nD τ).loc main_arg0) ↦{fullShare} F' 0) ∗ (((c : Thread nD τ).loc main_arg2) ↦{fullShare.left} F' 1) ∗ (((c : Thread nD τ).loc main_arg2) ↦{fullShare.right} F' 2) ∗ (((c : Thread nD τ).loc main_arg4) ↦{fullShare} F' 3) ∗ (((c : Thread nD τ).loc main_arg6) ↦{fullShare} F' 4) ∗ (((c : Thread nD τ).loc main_arg12) ↦{fullShare} F' 5) ∗ (((c : Thread nD τ).loc main_arg10) ↦{fullShare} F' 6) ∗ (((c : Thread nD τ).loc main_arg8) ↦{fullShare} F' 7) ∗ (((c : Thread nD τ).loc main_v2) ↦{fullShare} F' 8) ∗ (((c : Thread nD τ).loc main_v4) ↦{fullShare} F' 9) ∗ (((c : Thread nD τ).loc main_v5_0) ↦{fullShare} F' 10) ∗ (((c : Thread nD τ).loc main_v5_1) ↦{fullShare} F' 11)) := by
  unfold Dat.arrays
  rw [bigSep_W0]
  simp only [(arr_whole0 0).set_eq_univ, (arr_whole0 1).set_eq_univ, (arr_whole0 2).set_eq_univ, (arr_whole0 3).set_eq_univ, (arr_whole0 4).set_eq_univ, (arr_whole0 5).set_eq_univ, (arr_whole0 6).set_eq_univ, (arr_whole0 7).set_eq_univ, (arr_whole0 8).set_eq_univ, (arr_whole0 9).set_eq_univ, (arr_whole0 10).set_eq_univ, (arr_whole0 11).set_eq_univ]
  rfl

/-- ENTRY: the eleven buffers whole at contents W are the twelve arrays at the same contents. -/
theorem arrays0_of_bufs (c : Dev nD) (W : (b : Ref sig .tc) → Buf (Elt F) ((c : Thread nD τ).loc b))
    (F' : (w : Fin cfg0.W) → Buf (Elt F) ((cfg0.win w).arr.view.loc (c : Thread nD τ))) (hF : ∀ w, F' w = W (Pipeline.arrRef spec0 w)) :
    (Pipeline.arrBufs (Ix := Unit) (Name := ℕ) (U := UR sig nD τ) (Lvl := ℕ) spec0 c W : sProp 𝕄) ⊢ (dat0 V c).arrays F' := by
  rw [arrBufs0_eq, arrays0_eq, hF 0, hF 1, hF 2, hF 3, hF 4, hF 5, hF 6, hF 7, hF 8, hF 9, hF 10, hF 11]
  iintro ⟨H0, H1, H2, H3, H4, H5, H6, H7, H8, H9, H10⟩
  ihave Hs := (pointsTo_share (PosShare.mem_left_op_right fullShare)).1 $$ H1
  icases Hs with ⟨Hl, Hr⟩
  isplitl [H0]; · iexact H0
  isplitl [Hl]; · iexact Hl
  isplitl [Hr]; · iexact Hr
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- EXIT: the twelve arrays at contents that agree with W are the eleven buffers whole at W. -/
theorem bufs_of_arrays0 (c : Dev nD) (W : (b : Ref sig .tc) → Buf (Elt F) ((c : Thread nD τ).loc b))
    (F' : (w : Fin cfg0.W) → Buf (Elt F) ((cfg0.win w).arr.view.loc (c : Thread nD τ))) (hF : ∀ w, F' w = W (Pipeline.arrRef spec0 w)) :
    ((dat0 V c).arrays F' : sProp 𝕄) ⊢ Pipeline.arrBufs (Ix := Unit) (Name := ℕ) (U := UR sig nD τ) (Lvl := ℕ) spec0 c W := by
  rw [arrBufs0_eq, arrays0_eq, hF 0, hF 1, hF 2, hF 3, hF 4, hF 5, hF 6, hF 7, hF 8, hF 9, hF 10, hF 11]
  iintro ⟨H0, Hl, Hr, H2, H3, H4, H5, H6, H7, H8, H9, H10⟩
  isplitl [H0]; · iexact H0
  isplitl [Hl Hr]
  · iapply (pointsTo_share (PosShare.mem_left_op_right fullShare)).2
    isplitl [Hl]; · iexact Hl
    iexact Hr
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.KernelIdeal.Hand

end
-- ==== Proof.Reg1.lean ====
/- REGION 1 of @main (the elementwise pallas_call, custom_call 1, pipeline 1) at a PARAMETER `V`, the TensorCore's
   buffer contents when the region is entered: each window's block at a point, what the body leaves in each of the
   three output windows' buffers as a function of the six input windows' blocks, the body's triple, the pipeline's
   proof data and the body obligation. The body loads each input block whole and stores each output block whole,
   once: what it leaves in an output buffer is its one store's payload. Generic in the float instance `F`. -/
import proofs.«124992_j59777354826392_1_alg».proof.Proof.Gen.KernelIdeal.Launch
import proofs.«124992_j59777354826392_1_alg».proof.Proof.Gen.KernelIdeal.Skeleton
import proofs.«124992_j59777354826392_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 128 x 4096 extents: the elaborator's structural look recurses once per coordinate
-- of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): unfetched, the block index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s (`hA`) and whose body leaves the block in place (`hafter`): unfetched, the block index
    has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s (`hA`) and whose body leaves the block in place (`hafter`): unfetched, the block index
    has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s (`hA`) and whose body leaves the block in place (`hafter`): unfetched, the block index
    has not moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 128 x 4096 block (the four batch-tiled inputs and the three outputs). -/
abbrev r1_0 : Rect S128x4096 := Rect.unit (s := S128x4096) ![0, 0] S128x4096.size inb_S128x4096_S128x4096_0_0
/-- The whole 1 x 4096 row (the two decay rows). -/
abbrev r1_1 : Rect S1x4096 := Rect.unit (s := S1x4096) ![0, 0] S1x4096.size inb_S1x4096_S1x4096_0_0

/-! ## What the body leaves in each output window's buffer

The inputs in window order: `x0` the membrane block, `x1` the spike block, `x2` the threshold-state block, `x3` the
input-current block (128 x 4096 each), `x4` the membrane decay row, `x5` the adaptation decay row (1 x 4096 each). -/

/-- Window 6's staging buffer after the body (the new membrane potential), from the input windows' blocks: its one whole store as a
    piece (`View.canon`; the payload is the skeleton's). -/
def out1_6 (x0 : Vec F S128x4096 .f32) (x1 : Vec F S128x4096 .f32) (x2 : Vec F S128x4096 .f32) (x3 : Vec F S128x4096 .f32) (x4 : Vec F S1x4096 .f32) (x5 : Vec F S1x4096 .f32) : Vec F S128x4096 .f32 :=
  View.canon [⟨r1_0, k1_pay3 (View.ld x4 r1_1) (View.ld x5 r1_1) (View.ld x0 r1_0) (View.ld x1 r1_0) (View.ld x2 r1_0) (View.ld x3 r1_0)⟩]

/-- Its one store tiles the buffer (checked by evaluation), so it covers it. -/
theorem cover1_6 (p0 : Vec F S128x4096 .f32) (y : S128x4096.Idx) :
    ∃ pc ∈ ([⟨r1_0, p0⟩] : List (View.Piece (Elt F) S128x4096 .f32)), y ∈ pc.1.set :=
  View.cover_of_tiled [⟨r1_0, p0⟩] S128x4096.size (by rfl) y

/-- Window 7's staging buffer after the body (the new spike), from the input windows' blocks: its one whole store as a
    piece (`View.canon`; the payload is the skeleton's). -/
def out1_7 (x0 : Vec F S128x4096 .f32) (x1 : Vec F S128x4096 .f32) (x2 : Vec F S128x4096 .f32) (x3 : Vec F S128x4096 .f32) (x4 : Vec F S1x4096 .f32) (x5 : Vec F S1x4096 .f32) : Vec F S128x4096 .f32 :=
  View.canon [⟨r1_0, k1_pay4 (View.ld x4 r1_1) (View.ld x5 r1_1) (View.ld x0 r1_0) (View.ld x1 r1_0) (View.ld x2 r1_0) (View.ld x3 r1_0)⟩]

/-- Its one store tiles the buffer (checked by evaluation), so it covers it. -/
theorem cover1_7 (p0 : Vec F S128x4096 .f32) (y : S128x4096.Idx) :
    ∃ pc ∈ ([⟨r1_0, p0⟩] : List (View.Piece (Elt F) S128x4096 .f32)), y ∈ pc.1.set :=
  View.cover_of_tiled [⟨r1_0, p0⟩] S128x4096.size (by rfl) y

/-- Window 8's staging buffer after the body (the new threshold state), from the input windows' blocks: its one whole store as a
    piece (`View.canon`; the payload is the skeleton's). -/
def out1_8 (x0 : Vec F S128x4096 .f32) (x1 : Vec F S128x4096 .f32) (x2 : Vec F S128x4096 .f32) (x3 : Vec F S128x4096 .f32) (x4 : Vec F S1x4096 .f32) (x5 : Vec F S1x4096 .f32) : Vec F S128x4096 .f32 :=
  View.canon [⟨r1_0, k1_pay1 (View.ld x5 r1_1) (View.ld x1 r1_0) (View.ld x2 r1_0)⟩]

/-- Its one store tiles the buffer (checked by evaluation), so it covers it. -/
theorem cover1_8 (p0 : Vec F S128x4096 .f32) (y : S128x4096.Idx) :
    ∃ pc ∈ ([⟨r1_0, p0⟩] : List (View.Piece (Elt F) S128x4096 .f32)), y ∈ pc.1.set :=
  View.cover_of_tiled [⟨r1_0, p0⟩] S128x4096.size (by rfl) y

/-! ## The body's triple -/

set_option maxHeartbeats 1000000 in
/-- The kernel body on whole staging memrefs, the inputs' at read contents `xW` and the outputs' at anything, runs to
    the continuation holding the inputs' as they were and each output's at `out1_W` of the inputs': the printed
    functions are their skeletons, run statement by statement. -/
theorem sound_kernel1 (c : Dev nD) (E : Set ℕ) (i : grid1.Coords) (arg1 : Memref sig .tc .vmem S128x4096 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S128x4096 .f32) (harg9 : arg9.IsWhole)
    (x0 : Vec F S128x4096 .f32) (x1 : Vec F S128x4096 .f32) (x2 : Vec F S128x4096 .f32) (x3 : Vec F S128x4096 .f32) (x4 : Vec F S1x4096 .f32) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5) ∗ owns (c : Thread nD τ) arg9 fullShare (out1_8 x0 x1 x2 x3 x4 x5)) -∗ K ⟨⟩))
      ⊢ wp frame (wpE (defs₀ (F := F)) Variants.none c none) E (cc1__elementwise_kernel i arg1 harg1 arg2 harg2 arg3 harg3 arg4 harg4 arg5 harg5 arg6 harg6 arg7 harg7 arg8 harg8 arg9 harg9) K := by
  simp only [cc1__elementwise_kernel_eq_skeleton]; unfold cc1__elementwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  isplitl [H7]
  · iexists _; isplitr
    swap; · iexact H7
    ipureintro
    exact View.read_writes_eq_canon _ _ _ (cover1_7 _)
  iexists _; isplitr
  swap; · iexact H8
  ipureintro
  exact View.read_writes_eq_canon _ _ _ (cover1_8 _)

/-! ## The pipeline's proof data -/

/-- The proof data of pipeline 1 on core `c`: the arrays as the region finds them (`V`); after the body at point `t`
    each input's buffer at its block and each output's at `out1_W` of the six input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
    | ⟨8, _⟩ => out1_8 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Vals.lean ====
/-
  The contents of a core's unscoped buffers at each boundary of the program's run: the launch memory, then each stretch
  of host operations folded over it, then what a phase's write-backs leave in its output arrays.  No host operation and
  no phase writes an argument, so each argument is read back through the fold to its launch contents.
-/
import proofs.«124992_j59777354826392_1_alg».proof.Proof.Reg0Data
import proofs.«124992_j59777354826392_1_alg».proof.Proof.Reg1
import proofs.«124992_j59777354826392_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m (c, b)
/-- After the first stretch of host operations (the two bias rows): the first phase's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first phase's exit: its two output arrays at what the write-backs leave, every other buffer as entered. -/
def W2 (c : Dev nD) : Valuation τ sig (Elt F) :=
  Function.update (Function.update (W1 m c) main_v5_0 ((dat0 (V1 m) c).arrAt 10 cfg0.N)) main_v5_1 ((dat0 (V1 m) c).arrAt 11 cfg0.N)
abbrev V2 : (c : Dev nD) → (b : Ref sig .tc) → Buf (Elt F) ((c : Thread nD τ).loc b) := fun c b => W2 m c b
theorem W2_of (c : Dev nD) (r : Ref sig .tc) (h : r ∉ ([main_v5_0, main_v5_1] : List (Ref sig .tc))) : W2 m c r = W1 m c r := by
  simp only [W2, Function.update_of_ne (StableHlo.devRef_ne_of_ne (List.ne_of_not_mem_cons h) : (Proc.devRef .tc r : DevRef τ sig) ≠ Proc.devRef .tc main_v5_0), Function.update_of_ne (StableHlo.devRef_ne_of_ne (List.ne_of_not_mem_cons (List.not_mem_of_not_mem_cons h)) : (Proc.devRef .tc r : DevRef τ sig) ≠ Proc.devRef .tc main_v5_1)]
theorem W2_v5_0 (c : Dev nD) : W2 m c main_v5_0 = (dat0 (V1 m) c).arrAt 10 cfg0.N := by
  unfold W2
  rw [Function.update_of_ne (StableHlo.devRef_ne_of_ne (by decide) : (Proc.devRef .tc main_v5_0 : DevRef τ sig) ≠ Proc.devRef .tc main_v5_1), Function.update_self]
theorem W2_v5_1 (c : Dev nD) : W2 m c main_v5_1 = (dat0 (V1 m) c).arrAt 11 cfg0.N := by
  unfold W2; rw [Function.update_self]
/-- After the second stretch (the concatenation and the two logistic rows): the second phase's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second phase's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- At the first phase's exit each of its arrays holds what the pipeline leaves: an input what it held, an output its
    write-backs. -/
theorem hF0 (c : Dev nD) : ∀ w : Fin cfg0.W, (dat0 (V1 m) c).arrAt w cfg0.N = V2 m c (Pipeline.arrRef spec0 w) := fun
  | 0 => (((dat0 (V1 m) c).arrAt_in 0 rfl _).trans (A_eq0 (V1 m) c 0)).trans (W2_of m c main_arg0 (by decide)).symm
  | 1 => (((dat0 (V1 m) c).arrAt_in 1 rfl _).trans (A_eq0 (V1 m) c 1)).trans (W2_of m c main_arg2 (by decide)).symm
  | 2 => (((dat0 (V1 m) c).arrAt_in 2 rfl _).trans (A_eq0 (V1 m) c 2)).trans (W2_of m c main_arg2 (by decide)).symm
  | 3 => (((dat0 (V1 m) c).arrAt_in 3 rfl _).trans (A_eq0 (V1 m) c 3)).trans (W2_of m c main_arg4 (by decide)).symm
  | 4 => (((dat0 (V1 m) c).arrAt_in 4 rfl _).trans (A_eq0 (V1 m) c 4)).trans (W2_of m c main_arg6 (by decide)).symm
  | 5 => (((dat0 (V1 m) c).arrAt_in 5 rfl _).trans (A_eq0 (V1 m) c 5)).trans (W2_of m c main_arg12 (by decide)).symm
  | 6 => (((dat0 (V1 m) c).arrAt_in 6 rfl _).trans (A_eq0 (V1 m) c 6)).trans (W2_of m c main_arg10 (by decide)).symm
  | 7 => (((dat0 (V1 m) c).arrAt_in 7 rfl _).trans (A_eq0 (V1 m) c 7)).trans (W2_of m c main_arg8 (by decide)).symm
  | 8 => (((dat0 (V1 m) c).arrAt_in 8 rfl _).trans (A_eq0 (V1 m) c 8)).trans (W2_of m c main_v2 (by decide)).symm
  | 9 => (((dat0 (V1 m) c).arrAt_in 9 rfl _).trans (A_eq0 (V1 m) c 9)).trans (W2_of m c main_v4 (by decide)).symm
  | 10 => (W2_v5_0 m c).symm
  | 11 => (W2_v5_1 m c).symm
  | ⟨_ + 12, h⟩ => absurd h (Nat.not_lt.2 (Nat.le_add_left _ _))
theorem hrest0 (c : Dev nD) : ∀ b, b ∉ Finset.univ.image (Pipeline.arrRef spec0) → V2 m c b = V1 m c b := fun b hb =>
  W2_of m c b (fun h => hb (by
    rcases List.mem_cons.mp h with rfl | h
    · exact Finset.mem_image.mpr ⟨10, Finset.mem_univ _, rfl⟩
    · rcases List.mem_cons.mp h with rfl | h
      · exact Finset.mem_image.mpr ⟨11, Finset.mem_univ _, rfl⟩
      · exact absurd h List.not_mem_nil))

/-! ### The arguments end as launched -/

theorem after_keeps (ops : List (HloOp τ sig (Elt F))) (Wl : List (Ref sig .tc))
    (hw : ops.Forall fun op => op.writes ⊆ (Wl.map (Proc.devRef (τ := τ) .tc)).toFinset) (W : Valuation τ sig (Elt F)) (r : Ref sig .tc) (h : r ∉ Wl) :
    StableHlo.after ops W r = W r := StableHlo.after_of_writes_sub ops _ hw h

theorem W4_main_arg0 (c : Dev nD) : W4 m c (Proc.devRef .tc main_arg0) = m ((c : Thread nD τ).loc main_arg0) :=
  (W4_of_ne m c main_arg0 (by decide)).trans <| (after_keeps hostOps1 hostOps1_W hostOps1_writes (W2 m c) main_arg0 (by decide)).trans <|
    (W2_of m c main_arg0 (by decide)).trans <| (after_keeps hostOps0 hostOps0_W hostOps0_writes (W0 m c) main_arg0 (by decide)).trans rfl
theorem W4_main_arg1 (c : Dev nD) : W4 m c (Proc.devRef .tc main_arg1) = m ((c : Thread nD τ).loc main_arg1) :=
  ((W4_arr m c 0).trans (((dat1 (V3 m) c).arrAt_in 0 rfl _).trans (A_eq1 (V3 m) c 0))).trans <| (after_keeps hostOps1 hostOps1_W hostOps1_writes (W2 m c) main_arg1 (by decide)).trans <|
    (W2_of m c main_arg1 (by decide)).trans <| (after_keeps hostOps0 hostOps0_W hostOps0_writes (W0 m c) main_arg1 (by decide)).trans rfl
theorem W4_main_arg2 (c : Dev nD) : W4 m c (Proc.devRef .tc main_arg2) = m ((c : Thread nD τ).loc main_arg2) :=
  ((W4_arr m c 1).trans (((dat1 (V3 m) c).arrAt_in 1 rfl _).trans (A_eq1 (V3 m) c 1))).trans <| (after_keeps hostOps1 hostOps1_W hostOps1_writes (W2 m c) main_arg2 (by decide)).trans <|
    (W2_of m c main_arg2 (by decide)).trans <| (after_keeps hostOps0 hostOps0_W hostOps0_writes (W0 m c) main_arg2 (by decide)).trans rfl
theorem W4_main_arg3 (c : Dev nD) : W4 m c (Proc.devRef .tc main_arg3) = m ((c : Thread nD τ).loc main_arg3) :=
  ((W4_arr m c 2).trans (((dat1 (V3 m) c).arrAt_in 2 rfl _).trans (A_eq1 (V3 m) c 2))).trans <| (after_keeps hostOps1 hostOps1_W hostOps1_writes (W2 m c) main_arg3 (by decide)).trans <|
    (W2_of m c main_arg3 (by decide)).trans <| (after_keeps hostOps0 hostOps0_W hostOps0_writes (W0 m c) main_arg3 (by decide)).trans rfl
theorem W4_main_arg4 (c : Dev nD) : W4 m c (Proc.devRef .tc main_arg4) = m ((c : Thread nD τ).loc main_arg4) :=
  (W4_of_ne m c main_arg4 (by decide)).trans <| (after_keeps hostOps1 hostOps1_W hostOps1_writes (W2 m c) main_arg4 (by decide)).trans <|
    (W2_of m c main_arg4 (by decide)).trans <| (after_keeps hostOps0 hostOps0_W hostOps0_writes (W0 m c) main_arg4 (by decide)).trans rfl
theorem W4_main_arg5 (c : Dev nD) : W4 m c (Proc.devRef .tc main_arg5) = m ((c : Thread nD τ).loc main_arg5) :=
  (W4_of_ne m c main_arg5 (by decide)).trans <| (after_keeps hostOps1 hostOps1_W hostOps1_writes (W2 m c) main_arg5 (by decide)).trans <|
    (W2_of m c main_arg5 (by decide)).trans <| (after_keeps hostOps0 hostOps0_W hostOps0_writes (W0 m c) main_arg5 (by decide)).trans rfl
theorem W4_main_arg6 (c : Dev nD) : W4 m c (Proc.devRef .tc main_arg6) = m ((c : Thread nD τ).loc main_arg6) :=
  (W4_of_ne m c main_arg6 (by decide)).trans <| (after_keeps hostOps1 hostOps1_W hostOps1_writes (W2 m c) main_arg6 (by decide)).trans <|
    (W2_of m c main_arg6 (by decide)).trans <| (after_keeps hostOps0 hostOps0_W hostOps0_writes (W0 m c) main_arg6 (by decide)).trans rfl
theorem W4_main_arg7 (c : Dev nD) : W4 m c (Proc.devRef .tc main_arg7) = m ((c : Thread nD τ).loc main_arg7) :=
  (W4_of_ne m c main_arg7 (by decide)).trans <| (after_keeps hostOps1 hostOps1_W hostOps1_writes (W2 m c) main_arg7 (by decide)).trans <|
    (W2_of m c main_arg7 (by decide)).trans <| (after_keeps hostOps0 hostOps0_W hostOps0_writes (W0 m c) main_arg7 (by decide)).trans rfl
theorem W4_main_arg8 (c : Dev nD) : W4 m c (Proc.devRef .tc main_arg8) = m ((c : Thread nD τ).loc main_arg8) :=
  (W4_of_ne m c main_arg8 (by decide)).trans <| (after_keeps hostOps1 hostOps1_W hostOps1_writes (W2 m c) main_arg8 (by decide)).trans <|
    (W2_of m c main_arg8 (by decide)).trans <| (after_keeps hostOps0 hostOps0_W hostOps0_writes (W0 m c) main_arg8 (by decide)).trans rfl
theorem W4_main_arg9 (c : Dev nD) : W4 m c (Proc.devRef .tc main_arg9) = m ((c : Thread nD τ).loc main_arg9) :=
  (W4_of_ne m c main_arg9 (by decide)).trans <| (after_keeps hostOps1 hostOps1_W hostOps1_writes (W2 m c) main_arg9 (by decide)).trans <|
    (W2_of m c main_arg9 (by decide)).trans <| (after_keeps hostOps0 hostOps0_W hostOps0_writes (W0 m c) main_arg9 (by decide)).trans rfl
theorem W4_main_arg10 (c : Dev nD) : W4 m c (Proc.devRef .tc main_arg10) = m ((c : Thread nD τ).loc main_arg10) :=
  (W4_of_ne m c main_arg10 (by decide)).trans <| (after_keeps hostOps1 hostOps1_W hostOps1_writes (W2 m c) main_arg10 (by decide)).trans <|
    (W2_of m c main_arg10 (by decide)).trans <| (after_keeps hostOps0 hostOps0_W hostOps0_writes (W0 m c) main_arg10 (by decide)).trans rfl
theorem W4_main_arg11 (c : Dev nD) : W4 m c (Proc.devRef .tc main_arg11) = m ((c : Thread nD τ).loc main_arg11) :=
  (W4_of_ne m c main_arg11 (by decide)).trans <| (after_keeps hostOps1 hostOps1_W hostOps1_writes (W2 m c) main_arg11 (by decide)).trans <|
    (W2_of m c main_arg11 (by decide)).trans <| (after_keeps hostOps0 hostOps0_W hostOps0_writes (W0 m c) main_arg11 (by decide)).trans rfl
theorem W4_main_arg12 (c : Dev nD) : W4 m c (Proc.devRef .tc main_arg12) = m ((c : Thread nD τ).loc main_arg12) :=
  (W4_of_ne m c main_arg12 (by decide)).trans <| (after_keeps hostOps1 hostOps1_W hostOps1_writes (W2 m c) main_arg12 (by decide)).trans <|
    (W2_of m c main_arg12 (by decide)).trans <| (after_keeps hostOps0 hostOps0_W hostOps0_writes (W0 m c) main_arg12 (by decide)).trans rfl
theorem W4_main_arg13 (c : Dev nD) : W4 m c (Proc.devRef .tc main_arg13) = m ((c : Thread nD τ).loc main_arg13) :=
  (W4_of_ne m c main_arg13 (by decide)).trans <| (after_keeps hostOps1 hostOps1_W hostOps1_writes (W2 m c) main_arg13 (by decide)).trans <|
    (W2_of m c main_arg13 (by decide)).trans <| (after_keeps hostOps0 hostOps0_W hostOps0_writes (W0 m c) main_arg13 (by decide)).trans rfl
theorem W4_main_arg14 (c : Dev nD) : W4 m c (Proc.devRef .tc main_arg14) = m ((c : Thread nD τ).loc main_arg14) :=
  (W4_of_ne m c main_arg14 (by decide)).trans <| (after_keeps hostOps1 hostOps1_W hostOps1_writes (W2 m c) main_arg14 (by decide)).trans <|
    (W2_of m c main_arg14 (by decide)).trans <| (after_keeps hostOps0 hostOps0_W hostOps0_writes (W0 m c) main_arg14 (by decide)).trans rfl
theorem W4_main_arg15 (c : Dev nD) : W4 m c (Proc.devRef .tc main_arg15) = m ((c : Thread nD τ).loc main_arg15) :=
  (W4_of_ne m c main_arg15 (by decide)).trans <| (after_keeps hostOps1 hostOps1_W hostOps1_writes (W2 m c) main_arg15 (by decide)).trans <|
    (W2_of m c main_arg15 (by decide)).trans <| (after_keeps hostOps0 hostOps0_W hostOps0_writes (W0 m c) main_arg15 (by decide)).trans rfl

end Cert.KernelIdeal.Hand

end
-- ==== Proof.Frame.lean ====
/-
  The whole run of the program: host operations, the first phase, host operations, the second phase.  Between two
  items every unscoped buffer of a core is held whole at a named valuation: the launch memory, then each stretch of
  host operations folded over it, then what a phase writes back into its output arrays.  The run ends with every
  unscoped buffer at the last valuation; the arguments are read back through the fold to their launch contents, and
  the three results are the second phase's output arrays.
-/
import proofs.«124992_j59777354826392_1_alg».proof.Proof.Reg0Body
import proofs.«124992_j59777354826392_1_alg».proof.Proof.Reg0Share
import proofs.«124992_j59777354826392_1_alg».proof.Proof.Vals

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm' : (p : Fin 2) → (pcfgs (F := F) p).Adm := fun p => (cfgs p).toPCfg_adm
/-- Every phase's proof data, each at its entry contents. -/
def pdats : (p : Fin 2) → (c : Dev nD) → Dat τ (Elt F) Unit ℕ (UR sig nD τ) ℕ (Pipeline.pin (pcfgs (F := F)) adm' p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The phases as segments -/

set_option backward.isDefEq.respectTransparency.types false in
/-- The first phase over the thread state: entered from every unscoped buffer at W1, left at W2.  The eleven buffers
    behind its windows are split out of the unscoped ones and dealt to the twelve windows (the spike array's share
    halved), and joined back at the exit contents. -/
def reg0 : Pipeline.RegionSeg (pcfgs (F := F)) adm' (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (unscopedBufs c (V1 m c) : sProp 𝕄) ⊢ iprop((pdats m 0 c).arrays ((pdats m 0 c).arrAt · 0) ∗ Pipeline.unscopedRest spec0 c (V1 m c)) := by
      rw [Pipeline.unscopedBufs_split₀ cfgs 0 winFacts₀0.arr_unscoped c (V1 m c)]
      exact sep_mono (arrays0_of_bufs (V1 m) c (V1 m c) _ (fun w => A_eq0 (V1 m) c w)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest (Ix := Unit) (Name := ℕ) (U := UR sig nD τ) (Lvl := ℕ) spec0 c (V1 m c))
        ⊢ (unscopedBufs c (V2 m c) : sProp 𝕄) := by
      rw [Pipeline.unscopedBufs_split₀ cfgs 0 winFacts₀0.arr_unscoped c (V2 m c)]
      refine sep_mono (bufs_of_arrays0 (V1 m) c (V2 m c) _ (hF0 m c)) (Entails.of_eq ?_)
      unfold Pipeline.unscopedRest
      exact bigSep_congr fun b hb => by rw [hrest0 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second phase over the thread state: entered from every unscoped buffer at W3, left at W4. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm' (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- Every weakly fair execution of the program terminates, nothing faulting, and every final state holds every
    unscoped buffer of every core at the last valuation. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c),
    (h c _ (mem_uc main_arg9 (by decide))).trans (W4_main_arg9 m c),
    (h c _ (mem_uc main_arg10 (by decide))).trans (W4_main_arg10 m c),
    (h c _ (mem_uc main_arg11 (by decide))).trans (W4_main_arg11 m c),
    (h c _ (mem_uc main_arg12 (by decide))).trans (W4_main_arg12 m c),
    (h c _ (mem_uc main_arg13 (by decide))).trans (W4_main_arg13 m c),
    (h c _ (mem_uc main_arg14 (by decide))).trans (W4_main_arg14 m c),
    (h c _ (mem_uc main_arg15 (by decide))).trans (W4_main_arg15 m c)⟩) (run_all m ρ)

end Cert.KernelIdeal.Hand

end
-- ==== Proof.Reg0RunsBits.lean ====
/-
  The first phase's body, case by case: what its two branches test.  The grid of the first phase has 32 points,
  point t = 16·m + k for batch half m and column tile k; the body resets its two accumulators when k = 0 and adds the
  bias rows when k = 15.  This module states the two tests over the grid coordinates, decides them over the grid,
  and names each window's current staging buffer at a point.
-/
import proofs.«124992_j59777354826392_1_alg».proof.Proof.Gen.Kernel.Launch
import proofs.«124992_j59777354826392_1_alg».proof.Proof.Gen.Kernel.Skeleton
import proofs.«124992_j59777354826392_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch of the body: the tile coordinate is 0 (the accumulators are reset). -/
abbrev cond0_0 (i : grid0.Coords) : Prop := (Scalar.cmpi .ne (Scalar.extui (Scalar.cmpi .eq (BitVec.ofNat 32 (i 1).val) 0#32)) 0#32) = 1#1
/-- The second branch: the tile coordinate is 15 (the bias rows are added). -/
abbrev cond0_1 (i : grid0.Coords) : Prop := (Scalar.cmpi .ne (Scalar.extui (Scalar.cmpi .eq (BitVec.ofNat 32 (i 1).val) 15#32)) 0#32) = 1#1
/-- Point t = 16·m + k has tile coordinate k: the first branch is taken exactly at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)
/-- The second branch is taken exactly at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-- One staging buffer of each accumulator window, through which a buffer's contents after a run are stated
    (the choice does not matter once the stores cover the block). -/
abbrev VO0_10 : View sig .tc .vmem S512x2048 .f32 := (Memref.whole cc0_stg10_0 : Memref sig .tc .vmem S512x2048 .f32).view
abbrev VO0_11 : View sig .tc .vmem S512x2048 .f32 := (Memref.whole cc0_stg11_0 : Memref sig .tc .vmem S512x2048 .f32).view

/-- Each window's current staging memref at point t, as the pipeline passes it to the body, and its wholeness. -/
abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x2048 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x2048 .f32 := win0_11.stage (cfg0.slots t 11)
abbrev hs0_11 (t : Fin cfg0.N) : (ms0_11 t).IsWhole := hstage0_11 ((cfg0.slots t 11).cast nbuf0_11)

end Cert.Kernel.Hand

end
-- ==== Proof.Reg0RunABits.lean ====
/-
  The first phase's body run on whole staging buffers at a point of the first column tile (k = 0): both accumulators are reset to zero and the tile's products added.
-/
import proofs.«124992_j59777354826392_1_alg».proof.Proof.Reg0RunsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body run on whole staging memrefs in one case of its two branches: the ten input blocks stay as they were and each
    accumulator's buffer ends with the pieces the run's stores wrote (found by the run itself). -/
noncomputable def kernelRun0_A (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : cond0_0 i) (hc1 : ¬cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) :
    { L : List (View.Piece (Elt F) S512x2048 .f32) × List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L.1) ∗ (∃ f, arg13.view.loc (c : Thread nD τ) ↦[arg13.view.set]{fullShare} arg13.view.writes (Elt F) f L.2)) -∗ K ⟨⟩))
          ⊢ wp frame (wpE (defs₀ (F := F)) Variants.none c none) E (cc0__matmul_kernel i arg2 harg2 arg3 harg3 arg4 harg4 arg5 harg5 arg6 harg6 arg7 harg7 arg8 harg8 arg9 harg9 arg10 harg10 arg11 harg11 arg12 harg12 arg13 harg13) K } := by
  refine ⟨⟨?_, ?_⟩, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; iexact H10
    iexists _; iexact H11

end Cert.Kernel.Hand

end
-- ==== Proof.Reg0RunBBits.lean ====
/-
  The first phase's body run on whole staging buffers at a point of a middle column tile (0 < k < 15): the tile's products are added to what the accumulators held.
-/
import proofs.«124992_j59777354826392_1_alg».proof.Proof.Reg0RunsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body run on whole staging memrefs in one case of its two branches: the ten input blocks stay as they were and each
    accumulator's buffer ends with the pieces the run's stores wrote (found by the run itself). -/
noncomputable def kernelRun0_B (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc1 : ¬cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) (xo12 xo13 : Vec F S512x2048 .f32) :
    { L : List (View.Piece (Elt F) S512x2048 .f32) × List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xo12 ∗ owns (c : Thread nD τ) arg13 fullShare xo13
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L.1) ∗ (∃ f, arg13.view.loc (c : Thread nD τ) ↦[arg13.view.set]{fullShare} arg13.view.writes (Elt F) f L.2)) -∗ K ⟨⟩))
          ⊢ wp frame (wpE (defs₀ (F := F)) Variants.none c none) E (cc0__matmul_kernel i arg2 harg2 arg3 harg3 arg4 harg4 arg5 harg5 arg6 harg6 arg7 harg7 arg8 harg8 arg9 harg9 arg10 harg10 arg11 harg11 arg12 harg12 arg13 harg13) K } := by
  refine ⟨⟨?_, ?_⟩, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; iexact H10
    iexists _; iexact H11

end Cert.Kernel.Hand

end
-- ==== Proof.Reg0RunCBits.lean ====
/-
  The first phase's body run on whole staging buffers at a point of the last column tile (k = 15): the tile's products are added, then the bias rows.
-/
import proofs.«124992_j59777354826392_1_alg».proof.Proof.Reg0RunsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body run on whole staging memrefs in one case of its two branches: the ten input blocks stay as they were and each
    accumulator's buffer ends with the pieces the run's stores wrote (found by the run itself). -/
noncomputable def kernelRun0_C (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc1 : cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) (xo12 xo13 : Vec F S512x2048 .f32) :
    { L : List (View.Piece (Elt F) S512x2048 .f32) × List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xo12 ∗ owns (c : Thread nD τ) arg13 fullShare xo13
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L.1) ∗ (∃ f, arg13.view.loc (c : Thread nD τ) ↦[arg13.view.set]{fullShare} arg13.view.writes (Elt F) f L.2)) -∗ K ⟨⟩))
          ⊢ wp frame (wpE (defs₀ (F := F)) Variants.none c none) E (cc0__matmul_kernel i arg2 harg2 arg3 harg3 arg4 harg4 arg5 harg5 arg6 harg6 arg7 harg7 arg8 harg8 arg9 harg9 arg10 harg10 arg11 harg11 arg12 harg12 arg13 harg13) K } := by
  refine ⟨⟨?_, ?_⟩, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; iexact H10
    iexists _; iexact H11

end Cert.Kernel.Hand

end
-- ==== Proof.Reg0DataBits.lean ====
/-
  The first phase's proof data.  At point t = 16·m + k each input window's staging buffer holds its block of the
  array the phase was entered with; the two accumulator windows hold, after the body, what the point's case leaves:
  at k = 0 the reset-and-add of the tile's products, at 0 < k < 15 the add onto what the point before left, at
  k = 15 that and the bias rows.  The accumulators are written back to their arrays only after k = 15, so between
  the points of one batch half each finds what the point before left.  The spike array is handed to two windows
  (its two column halves), each holding half of the read share of that array.
-/
import proofs.«124992_j59777354826392_1_alg».proof.Proof.Reg0RunABits
import proofs.«124992_j59777354826392_1_alg».proof.Proof.Reg0RunBBits
import proofs.«124992_j59777354826392_1_alg».proof.Proof.Reg0RunCBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The covers and the cases' results -/

theorem cover0_A_10 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : cond0_0 i) (hc1 : ¬cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) (y : S512x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1.1 S512x2048.size (by sl_kernel_rfl) y

/-- What the case leaves in accumulator window 10's staging buffer: its stores read back. -/
def out0_A_10 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : cond0_0 i) (hc1 : ¬cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) : Vec F S512x2048 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1.1)

theorem cover0_A_11 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : cond0_0 i) (hc1 : ¬cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) (y : S512x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1.2, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1.2 S512x2048.size (by sl_kernel_rfl) y

/-- What the case leaves in accumulator window 11's staging buffer: its stores read back. -/
def out0_A_11 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : cond0_0 i) (hc1 : ¬cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) : Vec F S512x2048 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1.2)

theorem cover0_B_10 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc1 : ¬cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) (xo12 xo13 : Vec F S512x2048 .f32) (y : S512x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13).1.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13).1.1 S512x2048.size (by sl_kernel_rfl) y

/-- What the case leaves in accumulator window 10's staging buffer: its stores read back. -/
def out0_B_10 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc1 : ¬cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) (xo12 xo13 : Vec F S512x2048 .f32) : Vec F S512x2048 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13).1.1)

theorem cover0_B_11 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc1 : ¬cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) (xo12 xo13 : Vec F S512x2048 .f32) (y : S512x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13).1.2, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13).1.2 S512x2048.size (by sl_kernel_rfl) y

/-- What the case leaves in accumulator window 11's staging buffer: its stores read back. -/
def out0_B_11 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc1 : ¬cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) (xo12 xo13 : Vec F S512x2048 .f32) : Vec F S512x2048 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13).1.2)

theorem cover0_C_10 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc1 : cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) (xo12 xo13 : Vec F S512x2048 .f32) (y : S512x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13).1.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13).1.1 S512x2048.size (by sl_kernel_rfl) y

/-- What the case leaves in accumulator window 10's staging buffer: its stores read back. -/
def out0_C_10 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc1 : cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) (xo12 xo13 : Vec F S512x2048 .f32) : Vec F S512x2048 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13).1.1)

theorem cover0_C_11 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc1 : cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) (xo12 xo13 : Vec F S512x2048 .f32) (y : S512x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13).1.2, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13).1.2 S512x2048.size (by sl_kernel_rfl) y

/-- What the case leaves in accumulator window 11's staging buffer: its stores read back. -/
def out0_C_11 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc1 : cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) (xo12 xo13 : Vec F S512x2048 .f32) : Vec F S512x2048 .f32 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13).1.2)

section AtV

variable (V : (c : Dev nD) → (b : Ref sig .tc) → Buf (Elt F) ((c : Thread nD τ).loc b))

/-- Window w's block at point t, read off its array as the phase finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## What the accumulators hold after each point -/

/-- The two accumulators' staging buffers after the body at position n, by recursion on the position: the case the
    position's tile coordinate selects, run on the point's blocks, the later cases over what position n − 1 left. -/
def outsAt0 (c : Dev nD) : (n : ℕ) → n < cfg0.N → Vec F S512x2048 .f32 × Vec F S512x2048 .f32
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr (Nat.zero_mod _)) (fun h => by have := (hcond0_1 ⟨0, hn⟩).mp h; dsimp only at this; omega) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩),
              out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr (Nat.zero_mod _)) (fun h => by have := (hcond0_1 ⟨0, hn⟩).mp h; dsimp only at this; omega) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩))
  | n + 1, hn =>
    if h0 : (n + 1) % 16 = 0 then
      (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) ((hcond0_0 ⟨n + 1, hn⟩).mpr h0) (fun h => by have := (hcond0_1 ⟨n + 1, hn⟩).mp h; dsimp only at this; omega) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩),
       out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) ((hcond0_0 ⟨n + 1, hn⟩).mpr h0) (fun h => by have := (hcond0_1 ⟨n + 1, hn⟩).mp h; dsimp only at this; omega) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩))
    else if h1 : (n + 1) % 16 = 15 then
      (out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).1 (outsAt0 c n (Nat.lt_of_succ_lt hn)).2,
       out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).1 (outsAt0 c n (Nat.lt_of_succ_lt hn)).2)
    else
      (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).1 (outsAt0 c n (Nat.lt_of_succ_lt hn)).2,
       out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).1 (outsAt0 c n (Nat.lt_of_succ_lt hn)).2)

/-- The position before t, as a position. -/
abbrev prev0 (c : Dev nD) (t : Fin cfg0.N) : Vec F S512x2048 .f32 × Vec F S512x2048 .f32 :=
  outsAt0 V c (t.val - 1) (Nat.lt_of_le_of_lt (Nat.sub_le _ _) t.isLt)

/-- At a point of the first tile: the reset case. -/
theorem outsAt0_A (c : Dev nD) (t : Fin cfg0.N) (h0 : t.val % 16 = 0) (h1' : ¬cond0_1 (grid0.coords t)) :
    outsAt0 V c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) h1' (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t),
      out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) h1' (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) := by
  obtain ⟨n, hn⟩ := t
  cases n with
  | zero => exact rfl
  | succ n => exact (dif_pos h0).trans rfl

/-- At a point of a middle tile: the adding case over what the point before left. -/
theorem outsAt0_B (c : Dev nD) (t : Fin cfg0.N) (h0 : ¬t.val % 16 = 0) (h1 : ¬t.val % 16 = 15) :
    outsAt0 V c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (prev0 V c t).1 (prev0 V c t).2,
      out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (prev0 V c t).1 (prev0 V c t).2) := by
  obtain ⟨n, hn⟩ := t
  cases n with
  | zero => exact (by exfalso; (try dsimp only at h0); exact absurd (Nat.zero_mod _) h0)
  | succ n => exact (dif_neg h0).trans ((dif_neg h1).trans rfl)

/-- At a point of the last tile: the adding case and the bias rows, over what the point before left. -/
theorem outsAt0_C (c : Dev nD) (t : Fin cfg0.N) (h0 : ¬t.val % 16 = 0) (h1 : t.val % 16 = 15) :
    outsAt0 V c t.val t.isLt = (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (prev0 V c t).1 (prev0 V c t).2,
      out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (prev0 V c t).1 (prev0 V c t).2) := by
  obtain ⟨n, hn⟩ := t
  cases n with
  | zero => exact (by exfalso; (try dsimp only at h0); exact absurd (Nat.zero_mod _) h0)
  | succ n => exact (dif_neg h0).trans ((dif_pos h1).trans rfl)

/-! ## The proof data -/

/-- The first phase's proof data on core c: the arrays as the phase finds them; after the body at point t each input's
    buffer at its block and the accumulators' at outsAt0; the invariant the scoped rest and the generator register,
    untouched; nothing owed; the spike array's read share halved between its two windows. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => (outsAt0 V c t.val t.isLt).1
    | ⟨11, _⟩ => (outsAt0 V c t.val t.isLt).2
  Φ _ := Pipeline.ΦA spec0 c
  q w := match w with
    | ⟨1, _⟩ => fullShare.left
    | ⟨2, _⟩ => fullShare.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = (outsAt0 V c t.val t.isLt).1 := by dsimp only [dat0]
theorem after0_11 (c : Dev nD) (t : Fin cfg0.N) : (dat0 V c).after 11 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-- Past the first tile of a batch half an accumulator's staging buffer holds what the body left at the point before:
    it was not written back between (the write-backs come after k = 15 only). -/
theorem before0_10_kept (c : Dev nD) (t : Fin cfg0.N) (h0 : ¬t.val % 16 = 0) (d) :
    (dat0 V c).before 10 t d = (prev0 V c t).1 := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl)]
  dsimp only [dat0]
theorem before0_11_kept (c : Dev nD) (t : Fin cfg0.N) (h0 : ¬t.val % 16 = 0) (d) :
    (dat0 V c).before 11 t d = (prev0 V c t).2 := by
  have hN : t.val < 32 := lt_of_lt_of_eq t.isLt (show cfg0.N = 32 from N_0)
  rw [Dat.before_out_kept _ 11 rfl t (by omega) (Bool.eq_false_iff.mpr fun h => by have := (flush0_11 _).mp h; dsimp only at this; omega)
    (fun _ => rfl) (fun _ _ => rfl)]
  dsimp only [dat0]

end AtV

end Cert.Kernel.Hand

end
-- ==== Proof.Reg0BodyDefsBits.lean ====
/-
  The first phase's body obligation, stated window by window: what the body is called with at a grid point and what
  it returns.
-/
import proofs.«124992_j59777354826392_1_alg».proof.Proof.Reg0DataBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The components of a pair known by an equation. -/
theorem pair_fst_eq {α β : Type} {x : α × β} {a : α} {b : β} (h : x = (a, b)) : x.1 = a := by rw [h]
theorem pair_snd_eq {α β : Type} {x : α × β} {a : α} {b : β} (h : x = (a, b)) : x.2 = b := by rw [h]

variable (V : (c : Dev nD) → (b : Ref sig .tc) → Buf (Elt F) ((c : Thread nD τ).loc b))

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t))

end Cert.Kernel.Hand

end
-- ==== Proof.Reg0BodyABits.lean ====
/-
  The first phase's body obligation at the points of the first column tile (k = 0).
-/
import proofs.«124992_j59777354826392_1_alg».proof.Proof.Reg0BodyDefsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
theorem sound_body0_A (c : Dev nD) (t : Fin cfg0.N) (h0 : t.val % 16 = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  have hN : t.val < 32 := lt_of_lt_of_eq t.isLt (show cfg0.N = 32 from N_0)
  have h1' : ¬cond0_1 (grid0.coords t) := fun h => by have := (hcond0_1 t).mp h; omega
  rw [pair_fst_eq (outsAt0_A V c t h0 h1'), pair_snd_eq (outsAt0_A V c t h0 h1')]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ ((hcond0_0 t).mpr h0) h1' (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, ⟨%e10, H10⟩, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; unfold out0_A_10; exact View.read_writes_of_cover _ _ _ _ _ (cover0_A_10 c _ _ _ _ _ _ _ _ _ _ _ _ _ _ _ _ _ _ _ _ _ _ _ _ _ _ _ _ _ _ _ _ _ _ _ _ _)
  · unfold owns; iexists _; isplitr
    swap; · iexact H11
    ipureintro; unfold out0_A_11; exact View.read_writes_of_cover _ _ _ _ _ (cover0_A_11 c _ _ _ _ _ _ _ _ _ _ _ _ _ _ _ _ _ _ _ _ _ _ _ _ _ _ _ _ _ _ _ _ _ _ _ _ _)

end Cert.Kernel.Hand

end
-- ==== Proof.Reg0BodyBBits.lean ====
/-
  The first phase's body obligation at the points of a middle column tile (0 < k < 15).
-/
import proofs.«124992_j59777354826392_1_alg».proof.Proof.Reg0BodyDefsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
theorem sound_body0_B (c : Dev nD) (t : Fin cfg0.N) (h0 : ¬t.val % 16 = 0) (h1 : ¬t.val % 16 = 15) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  have hN : t.val < 32 := lt_of_lt_of_eq t.isLt (show cfg0.N = 32 from N_0)
  rw [pair_fst_eq (outsAt0_B V c t h0 h1), pair_snd_eq (outsAt0_B V c t h0 h1)]
  simp only [before0_10_kept V c t h0, before0_11_kept V c t h0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_B c (grid0.coords t) _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, ⟨%e10, H10⟩, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; unfold out0_B_10; exact View.read_writes_of_cover _ _ _ _ _ (cover0_B_10 c _ _ _ _ _ _ _ _ _ _ _ _ _ _ _ _ _ _ _ _ _ _ _ _ _ _ _ _ _ _ _ _ _ _ _ _ _ _ _)
  · unfold owns; iexists _; isplitr
    swap; · iexact H11
    ipureintro; unfold out0_B_11; exact View.read_writes_of_cover _ _ _ _ _ (cover0_B_11 c _ _ _ _ _ _ _ _ _ _ _ _ _ _ _ _ _ _ _ _ _ _ _ _ _ _ _ _ _ _ _ _ _ _ _ _ _ _ _)

end Cert.Kernel.Hand

end
-- ==== Proof.Reg0BodyCBits.lean ====
/-
  The first phase's body obligation at the points of the last column tile (k = 15).
-/
import proofs.«124992_j59777354826392_1_alg».proof.Proof.Reg0BodyDefsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
theorem sound_body0_C (c : Dev nD) (t : Fin cfg0.N) (h0 : ¬t.val % 16 = 0) (h1 : t.val % 16 = 15) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  have hN : t.val < 32 := lt_of_lt_of_eq t.isLt (show cfg0.N = 32 from N_0)
  rw [pair_fst_eq (outsAt0_C V c t h0 h1), pair_snd_eq (outsAt0_C V c t h0 h1)]
  simp only [before0_10_kept V c t h0, before0_11_kept V c t h0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_C c (grid0.coords t) _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, ⟨%e10, H10⟩, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; unfold out0_C_10; exact View.read_writes_of_cover _ _ _ _ _ (cover0_C_10 c _ _ _ _ _ _ _ _ _ _ _ _ _ _ _ _ _ _ _ _ _ _ _ _ _ _ _ _ _ _ _ _ _ _ _ _ _ _ _)
  · unfold owns; iexists _; isplitr
    swap; · iexact H11
    ipureintro; unfold out0_C_11; exact View.read_writes_of_cover _ _ _ _ _ (cover0_C_11 c _ _ _ _ _ _ _ _ _ _ _ _ _ _ _ _ _ _ _ _ _ _ _ _ _ _ _ _ _ _ _ _ _ _ _ _ _ _ _)

end Cert.Kernel.Hand

end
-- ==== Proof.Reg0BodyBits.lean ====
/-
  The first phase's body obligation: at every grid point, from each window's staging buffer at what the pipeline
  hands it, the body runs to each buffer at what the proof data says it leaves.  The point's tile coordinate selects
  the case.
-/
import proofs.«124992_j59777354826392_1_alg».proof.Proof.Reg0BodyABits
import proofs.«124992_j59777354826392_1_alg».proof.Proof.Reg0BodyBBits
import proofs.«124992_j59777354826392_1_alg».proof.Proof.Reg0BodyCBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem sound_body0 (c : Dev nD) (t : Fin cfg0.N) :
    bodyPre0 V c t ⊢ wp frame (wpE (defs₀ (F := F)) Variants.none c none) Set.univ (bodyAt0 t) (fun _ => bodyPost0 V c t) := by
  by_cases h0 : t.val % 16 = 0
  · exact sound_body0_A V c t h0
  · by_cases h1 : t.val % 16 = 15
    · exact sound_body0_C V c t h0 h1
    · exact sound_body0_B V c t h0 h1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Reg0ShareBits.lean ====
/-
  The first phase's arrays at its two ends.  Its twelve windows stand on eleven buffers: the spike array is read
  through two windows (its two column halves).  Held whole, the eleven buffers are the twelve windows' arrays once the
  spike array's read share is halved between its two windows; and back.
-/
import proofs.«124992_j59777354826392_1_alg».proof.Proof.Reg0DataBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSepL bigSep_eq_bigSepL_of_eq)

variable (V : (c : Dev nD) → (b : Ref sig .tc) → Buf (Elt F) ((c : Thread nD τ).loc b))

/-- The eleven buffers behind the twelve windows. -/
abbrev arrList0 : List (Ref sig .tc) := [main_arg0, main_arg2, main_arg4, main_arg6, main_arg12, main_arg10, main_arg8, main_v2, main_v4, main_v5_0, main_v5_1]
theorem arrImage0 : Finset.univ.image (Pipeline.arrRef spec0) = arrList0.toFinset := by decide

/-- The buffers behind the windows, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg2) ↦{fullShare} W main_arg2) ∗ (((c : Thread nD τ).loc main_arg4) ↦{fullShare} W main_arg4) ∗ (((c : Thread nD τ).loc main_arg6) ↦{fullShare} W main_arg6) ∗ (((c : Thread nD τ).loc main_arg12) ↦{fullShare} W main_arg12) ∗ (((c : Thread nD τ).loc main_arg10) ↦{fullShare} W main_arg10) ∗ (((c : Thread nD τ).loc main_arg8) ↦{fullShare} W main_arg8) ∗ (((c : Thread nD τ).loc main_v2) ↦{fullShare} W main_v2) ∗ (((c : Thread nD τ).loc main_v4) ↦{fullShare} W main_v4) ∗ (((c : Thread nD τ).loc main_v5_0) ↦{fullShare} W main_v5_0) ∗ (((c : Thread nD τ).loc main_v5_1) ↦{fullShare} W main_v5_1)) := by
  unfold Pipeline.arrBufs
  exact bigSep_eq_bigSepL_of_eq arrList0 arrImage0 (by decide) _

/-- The windows' arrays, one by one, each at its share. -/
theorem arrays0_eq (c : Dev nD) (F' : (w : Fin cfg0.W) → Buf (Elt F) ((cfg0.win w).arr.view.loc (c : Thread nD τ))) :
    ((dat0 V c).arrays F' : sProp 𝕄)
      = iprop((((c : Thread nD τ).loc main_arg0) ↦{fullShare} F' 0) ∗ (((c : Thread nD τ).loc main_arg2) ↦{fullShare.left} F' 1) ∗ (((c : Thread nD τ).loc main_arg2) ↦{fullShare.right} F' 2) ∗ (((c : Thread nD τ).loc main_arg4) ↦{fullShare} F' 3) ∗ (((c : Thread nD τ).loc main_arg6) ↦{fullShare} F' 4) ∗ (((c : Thread nD τ).loc main_arg12) ↦{fullShare} F' 5) ∗ (((c : Thread nD τ).loc main_arg10) ↦{fullShare} F' 6) ∗ (((c : Thread nD τ).loc main_arg8) ↦{fullShare} F' 7) ∗ (((c : Thread nD τ).loc main_v2) ↦{fullShare} F' 8) ∗ (((c : Thread nD τ).loc main_v4) ↦{fullShare} F' 9) ∗ (((c : Thread nD τ).loc main_v5_0) ↦{fullShare} F' 10) ∗ (((c : Thread nD τ).loc main_v5_1) ↦{fullShare} F' 11)) := by
  unfold Dat.arrays
  rw [bigSep_W0]
  simp only [(arr_whole0 0).set_eq_univ, (arr_whole0 1).set_eq_univ, (arr_whole0 2).set_eq_univ, (arr_whole0 3).set_eq_univ, (arr_whole0 4).set_eq_univ, (arr_whole0 5).set_eq_univ, (arr_whole0 6).set_eq_univ, (arr_whole0 7).set_eq_univ, (arr_whole0 8).set_eq_univ, (arr_whole0 9).set_eq_univ, (arr_whole0 10).set_eq_univ, (arr_whole0 11).set_eq_univ]
  rfl

/-- ENTRY: the eleven buffers whole at contents W are the twelve arrays at the same contents. -/
theorem arrays0_of_bufs (c : Dev nD) (W : (b : Ref sig .tc) → Buf (Elt F) ((c : Thread nD τ).loc b))
    (F' : (w : Fin cfg0.W) → Buf (Elt F) ((cfg0.win w).arr.view.loc (c : Thread nD τ))) (hF : ∀ w, F' w = W (Pipeline.arrRef spec0 w)) :
    (Pipeline.arrBufs (Ix := Unit) (Name := ℕ) (U := UR sig nD τ) (Lvl := ℕ) spec0 c W : sProp 𝕄) ⊢ (dat0 V c).arrays F' := by
  rw [arrBufs0_eq, arrays0_eq, hF 0, hF 1, hF 2, hF 3, hF 4, hF 5, hF 6, hF 7, hF 8, hF 9, hF 10, hF 11]
  iintro ⟨H0, H1, H2, H3, H4, H5, H6, H7, H8, H9, H10⟩
  ihave Hs := (pointsTo_share (PosShare.mem_left_op_right fullShare)).1 $$ H1
  icases Hs with ⟨Hl, Hr⟩
  isplitl [H0]; · iexact H0
  isplitl [Hl]; · iexact Hl
  isplitl [Hr]; · iexact Hr
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- EXIT: the twelve arrays at contents that agree with W are the eleven buffers whole at W. -/
theorem bufs_of_arrays0 (c : Dev nD) (W : (b : Ref sig .tc) → Buf (Elt F) ((c : Thread nD τ).loc b))
    (F' : (w : Fin cfg0.W) → Buf (Elt F) ((cfg0.win w).arr.view.loc (c : Thread nD τ))) (hF : ∀ w, F' w = W (Pipeline.arrRef spec0 w)) :
    ((dat0 V c).arrays F' : sProp 𝕄) ⊢ Pipeline.arrBufs (Ix := Unit) (Name := ℕ) (U := UR sig nD τ) (Lvl := ℕ) spec0 c W := by
  rw [arrBufs0_eq, arrays0_eq, hF 0, hF 1, hF 2, hF 3, hF 4, hF 5, hF 6, hF 7, hF 8, hF 9, hF 10, hF 11]
  iintro ⟨H0, Hl, Hr, H2, H3, H4, H5, H6, H7, H8, H9, H10⟩
  isplitl [H0]; · iexact H0
  isplitl [Hl Hr]
  · iapply (pointsTo_share (PosShare.mem_left_op_right fullShare)).2
    isplitl [Hl]; · iexact Hl
    iexact Hr
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.Kernel.Hand

end
-- ==== Proof.Reg1Bits.lean ====
/- REGION 1 of @main (the elementwise pallas_call, custom_call 1, pipeline 1) at a PARAMETER `V`, the TensorCore's
   buffer contents when the region is entered: each window's block at a point, what the body leaves in each of the
   three output windows' buffers as a function of the six input windows' blocks, the body's triple, the pipeline's
   proof data and the body obligation. The body loads each input block whole and stores each output block whole,
   once: what it leaves in an output buffer is its one store's payload. Generic in the float instance `F`. -/
import proofs.«124992_j59777354826392_1_alg».proof.Proof.Gen.Kernel.Launch
import proofs.«124992_j59777354826392_1_alg».proof.Proof.Gen.Kernel.Skeleton
import proofs.«124992_j59777354826392_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 128 x 4096 extents: the elaborator's structural look recurses once per coordinate
-- of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): unfetched, the block index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s (`hA`) and whose body leaves the block in place (`hafter`): unfetched, the block index
    has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s (`hA`) and whose body leaves the block in place (`hafter`): unfetched, the block index
    has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s (`hA`) and whose body leaves the block in place (`hafter`): unfetched, the block index
    has not moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 128 x 4096 block (the four batch-tiled inputs and the three outputs). -/
abbrev r1_0 : Rect S128x4096 := Rect.unit (s := S128x4096) ![0, 0] S128x4096.size inb_S128x4096_S128x4096_0_0
/-- The whole 1 x 4096 row (the two decay rows). -/
abbrev r1_1 : Rect S1x4096 := Rect.unit (s := S1x4096) ![0, 0] S1x4096.size inb_S1x4096_S1x4096_0_0

/-! ## What the body leaves in each output window's buffer

The inputs in window order: `x0` the membrane block, `x1` the spike block, `x2` the threshold-state block, `x3` the
input-current block (128 x 4096 each), `x4` the membrane decay row, `x5` the adaptation decay row (1 x 4096 each). -/

/-- Window 6's staging buffer after the body (the new membrane potential), from the input windows' blocks: its one whole store as a
    piece (`View.canon`; the payload is the skeleton's). -/
def out1_6 (x0 : Vec F S128x4096 .f32) (x1 : Vec F S128x4096 .f32) (x2 : Vec F S128x4096 .f32) (x3 : Vec F S128x4096 .f32) (x4 : Vec F S1x4096 .f32) (x5 : Vec F S1x4096 .f32) : Vec F S128x4096 .f32 :=
  View.canon [⟨r1_0, k1_pay3 (View.ld x4 r1_1) (View.ld x5 r1_1) (View.ld x0 r1_0) (View.ld x1 r1_0) (View.ld x2 r1_0) (View.ld x3 r1_0)⟩]

/-- Its one store tiles the buffer (checked by evaluation), so it covers it. -/
theorem cover1_6 (p0 : Vec F S128x4096 .f32) (y : S128x4096.Idx) :
    ∃ pc ∈ ([⟨r1_0, p0⟩] : List (View.Piece (Elt F) S128x4096 .f32)), y ∈ pc.1.set :=
  View.cover_of_tiled [⟨r1_0, p0⟩] S128x4096.size (by rfl) y

/-- Window 7's staging buffer after the body (the new spike), from the input windows' blocks: its one whole store as a
    piece (`View.canon`; the payload is the skeleton's). -/
def out1_7 (x0 : Vec F S128x4096 .f32) (x1 : Vec F S128x4096 .f32) (x2 : Vec F S128x4096 .f32) (x3 : Vec F S128x4096 .f32) (x4 : Vec F S1x4096 .f32) (x5 : Vec F S1x4096 .f32) : Vec F S128x4096 .f32 :=
  View.canon [⟨r1_0, k1_pay4 (View.ld x4 r1_1) (View.ld x5 r1_1) (View.ld x0 r1_0) (View.ld x1 r1_0) (View.ld x2 r1_0) (View.ld x3 r1_0)⟩]

/-- Its one store tiles the buffer (checked by evaluation), so it covers it. -/
theorem cover1_7 (p0 : Vec F S128x4096 .f32) (y : S128x4096.Idx) :
    ∃ pc ∈ ([⟨r1_0, p0⟩] : List (View.Piece (Elt F) S128x4096 .f32)), y ∈ pc.1.set :=
  View.cover_of_tiled [⟨r1_0, p0⟩] S128x4096.size (by rfl) y

/-- Window 8's staging buffer after the body (the new threshold state), from the input windows' blocks: its one whole store as a
    piece (`View.canon`; the payload is the skeleton's). -/
def out1_8 (x0 : Vec F S128x4096 .f32) (x1 : Vec F S128x4096 .f32) (x2 : Vec F S128x4096 .f32) (x3 : Vec F S128x4096 .f32) (x4 : Vec F S1x4096 .f32) (x5 : Vec F S1x4096 .f32) : Vec F S128x4096 .f32 :=
  View.canon [⟨r1_0, k1_pay1 (View.ld x5 r1_1) (View.ld x1 r1_0) (View.ld x2 r1_0)⟩]

/-- Its one store tiles the buffer (checked by evaluation), so it covers it. -/
theorem cover1_8 (p0 : Vec F S128x4096 .f32) (y : S128x4096.Idx) :
    ∃ pc ∈ ([⟨r1_0, p0⟩] : List (View.Piece (Elt F) S128x4096 .f32)), y ∈ pc.1.set :=
  View.cover_of_tiled [⟨r1_0, p0⟩] S128x4096.size (by rfl) y

/-! ## The body's triple -/

set_option maxHeartbeats 1000000 in
/-- The kernel body on whole staging memrefs, the inputs' at read contents `xW` and the outputs' at anything, runs to
    the continuation holding the inputs' as they were and each output's at `out1_W` of the inputs': the printed
    functions are their skeletons, run statement by statement. -/
theorem sound_kernel1 (c : Dev nD) (E : Set ℕ) (i : grid1.Coords) (arg1 : Memref sig .tc .vmem S128x4096 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S128x4096 .f32) (harg9 : arg9.IsWhole)
    (x0 : Vec F S128x4096 .f32) (x1 : Vec F S128x4096 .f32) (x2 : Vec F S128x4096 .f32) (x3 : Vec F S128x4096 .f32) (x4 : Vec F S1x4096 .f32) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5) ∗ owns (c : Thread nD τ) arg9 fullShare (out1_8 x0 x1 x2 x3 x4 x5)) -∗ K ⟨⟩))
      ⊢ wp frame (wpE (defs₀ (F := F)) Variants.none c none) E (cc1__elementwise_kernel i arg1 harg1 arg2 harg2 arg3 harg3 arg4 harg4 arg5 harg5 arg6 harg6 arg7 harg7 arg8 harg8 arg9 harg9) K := by
  simp only [cc1__elementwise_kernel_eq_skeleton]; unfold cc1__elementwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  isplitl [H7]
  · iexists _; isplitr
    swap; · iexact H7
    ipureintro
    exact View.read_writes_eq_canon _ _ _ (cover1_7 _)
  iexists _; isplitr
  swap; · iexact H8
  ipureintro
  exact View.read_writes_eq_canon _ _ _ (cover1_8 _)

/-! ## The pipeline's proof data -/

/-- The proof data of pipeline 1 on core `c`: the arrays as the region finds them (`V`); after the body at point `t`
    each input's buffer at its block and each output's at `out1_W` of the six input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
    | ⟨8, _⟩ => out1_8 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.ValsBits.lean ====
/-
  The contents of a core's unscoped buffers at each boundary of the program's run: the launch memory, then each stretch
  of host operations folded over it, then what a phase's write-backs leave in its output arrays.  No host operation and
  no phase writes an argument, so each argument is read back through the fold to its launch contents.
-/
import proofs.«124992_j59777354826392_1_alg».proof.Proof.Reg0DataBits
import proofs.«124992_j59777354826392_1_alg».proof.Proof.Reg1Bits
import proofs.«124992_j59777354826392_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m (c, b)
/-- After the first stretch of host operations (the two bias rows): the first phase's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first phase's exit: its two output arrays at what the write-backs leave, every other buffer as entered. -/
def W2 (c : Dev nD) : Valuation τ sig (Elt F) :=
  Function.update (Function.update (W1 m c) main_v5_0 ((dat0 (V1 m) c).arrAt 10 cfg0.N)) main_v5_1 ((dat0 (V1 m) c).arrAt 11 cfg0.N)
abbrev V2 : (c : Dev nD) → (b : Ref sig .tc) → Buf (Elt F) ((c : Thread nD τ).loc b) := fun c b => W2 m c b
theorem W2_of (c : Dev nD) (r : Ref sig .tc) (h : r ∉ ([main_v5_0, main_v5_1] : List (Ref sig .tc))) : W2 m c r = W1 m c r := by
  simp only [W2, Function.update_of_ne (StableHlo.devRef_ne_of_ne (List.ne_of_not_mem_cons h) : (Proc.devRef .tc r : DevRef τ sig) ≠ Proc.devRef .tc main_v5_0), Function.update_of_ne (StableHlo.devRef_ne_of_ne (List.ne_of_not_mem_cons (List.not_mem_of_not_mem_cons h)) : (Proc.devRef .tc r : DevRef τ sig) ≠ Proc.devRef .tc main_v5_1)]
theorem W2_v5_0 (c : Dev nD) : W2 m c main_v5_0 = (dat0 (V1 m) c).arrAt 10 cfg0.N := by
  unfold W2
  rw [Function.update_of_ne (StableHlo.devRef_ne_of_ne (by decide) : (Proc.devRef .tc main_v5_0 : DevRef τ sig) ≠ Proc.devRef .tc main_v5_1), Function.update_self]
theorem W2_v5_1 (c : Dev nD) : W2 m c main_v5_1 = (dat0 (V1 m) c).arrAt 11 cfg0.N := by
  unfold W2; rw [Function.update_self]
/-- After the second stretch (the concatenation and the two logistic rows): the second phase's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second phase's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- At the first phase's exit each of its arrays holds what the pipeline leaves: an input what it held, an output its
    write-backs. -/
theorem hF0 (c : Dev nD) : ∀ w : Fin cfg0.W, (dat0 (V1 m) c).arrAt w cfg0.N = V2 m c (Pipeline.arrRef spec0 w) := fun
  | 0 => (((dat0 (V1 m) c).arrAt_in 0 rfl _).trans (A_eq0 (V1 m) c 0)).trans (W2_of m c main_arg0 (by decide)).symm
  | 1 => (((dat0 (V1 m) c).arrAt_in 1 rfl _).trans (A_eq0 (V1 m) c 1)).trans (W2_of m c main_arg2 (by decide)).symm
  | 2 => (((dat0 (V1 m) c).arrAt_in 2 rfl _).trans (A_eq0 (V1 m) c 2)).trans (W2_of m c main_arg2 (by decide)).symm
  | 3 => (((dat0 (V1 m) c).arrAt_in 3 rfl _).trans (A_eq0 (V1 m) c 3)).trans (W2_of m c main_arg4 (by decide)).symm
  | 4 => (((dat0 (V1 m) c).arrAt_in 4 rfl _).trans (A_eq0 (V1 m) c 4)).trans (W2_of m c main_arg6 (by decide)).symm
  | 5 => (((dat0 (V1 m) c).arrAt_in 5 rfl _).trans (A_eq0 (V1 m) c 5)).trans (W2_of m c main_arg12 (by decide)).symm
  | 6 => (((dat0 (V1 m) c).arrAt_in 6 rfl _).trans (A_eq0 (V1 m) c 6)).trans (W2_of m c main_arg10 (by decide)).symm
  | 7 => (((dat0 (V1 m) c).arrAt_in 7 rfl _).trans (A_eq0 (V1 m) c 7)).trans (W2_of m c main_arg8 (by decide)).symm
  | 8 => (((dat0 (V1 m) c).arrAt_in 8 rfl _).trans (A_eq0 (V1 m) c 8)).trans (W2_of m c main_v2 (by decide)).symm
  | 9 => (((dat0 (V1 m) c).arrAt_in 9 rfl _).trans (A_eq0 (V1 m) c 9)).trans (W2_of m c main_v4 (by decide)).symm
  | 10 => (W2_v5_0 m c).symm
  | 11 => (W2_v5_1 m c).symm
  | ⟨_ + 12, h⟩ => absurd h (Nat.not_lt.2 (Nat.le_add_left _ _))
theorem hrest0 (c : Dev nD) : ∀ b, b ∉ Finset.univ.image (Pipeline.arrRef spec0) → V2 m c b = V1 m c b := fun b hb =>
  W2_of m c b (fun h => hb (by
    rcases List.mem_cons.mp h with rfl | h
    · exact Finset.mem_image.mpr ⟨10, Finset.mem_univ _, rfl⟩
    · rcases List.mem_cons.mp h with rfl | h
      · exact Finset.mem_image.mpr ⟨11, Finset.mem_univ _, rfl⟩
      · exact absurd h List.not_mem_nil))

/-! ### The arguments end as launched -/

theorem after_keeps (ops : List (HloOp τ sig (Elt F))) (Wl : List (Ref sig .tc))
    (hw : ops.Forall fun op => op.writes ⊆ (Wl.map (Proc.devRef (τ := τ) .tc)).toFinset) (W : Valuation τ sig (Elt F)) (r : Ref sig .tc) (h : r ∉ Wl) :
    StableHlo.after ops W r = W r := StableHlo.after_of_writes_sub ops _ hw h

theorem W4_main_arg0 (c : Dev nD) : W4 m c (Proc.devRef .tc main_arg0) = m ((c : Thread nD τ).loc main_arg0) :=
  (W4_of_ne m c main_arg0 (by decide)).trans <| (after_keeps hostOps1 hostOps1_W hostOps1_writes (W2 m c) main_arg0 (by decide)).trans <|
    (W2_of m c main_arg0 (by decide)).trans <| (after_keeps hostOps0 hostOps0_W hostOps0_writes (W0 m c) main_arg0 (by decide)).trans rfl
theorem W4_main_arg1 (c : Dev nD) : W4 m c (Proc.devRef .tc main_arg1) = m ((c : Thread nD τ).loc main_arg1) :=
  ((W4_arr m c 0).trans (((dat1 (V3 m) c).arrAt_in 0 rfl _).trans (A_eq1 (V3 m) c 0))).trans <| (after_keeps hostOps1 hostOps1_W hostOps1_writes (W2 m c) main_arg1 (by decide)).trans <|
    (W2_of m c main_arg1 (by decide)).trans <| (after_keeps hostOps0 hostOps0_W hostOps0_writes (W0 m c) main_arg1 (by decide)).trans rfl
theorem W4_main_arg2 (c : Dev nD) : W4 m c (Proc.devRef .tc main_arg2) = m ((c : Thread nD τ).loc main_arg2) :=
  ((W4_arr m c 1).trans (((dat1 (V3 m) c).arrAt_in 1 rfl _).trans (A_eq1 (V3 m) c 1))).trans <| (after_keeps hostOps1 hostOps1_W hostOps1_writes (W2 m c) main_arg2 (by decide)).trans <|
    (W2_of m c main_arg2 (by decide)).trans <| (after_keeps hostOps0 hostOps0_W hostOps0_writes (W0 m c) main_arg2 (by decide)).trans rfl
theorem W4_main_arg3 (c : Dev nD) : W4 m c (Proc.devRef .tc main_arg3) = m ((c : Thread nD τ).loc main_arg3) :=
  ((W4_arr m c 2).trans (((dat1 (V3 m) c).arrAt_in 2 rfl _).trans (A_eq1 (V3 m) c 2))).trans <| (after_keeps hostOps1 hostOps1_W hostOps1_writes (W2 m c) main_arg3 (by decide)).trans <|
    (W2_of m c main_arg3 (by decide)).trans <| (after_keeps hostOps0 hostOps0_W hostOps0_writes (W0 m c) main_arg3 (by decide)).trans rfl
theorem W4_main_arg4 (c : Dev nD) : W4 m c (Proc.devRef .tc main_arg4) = m ((c : Thread nD τ).loc main_arg4) :=
  (W4_of_ne m c main_arg4 (by decide)).trans <| (after_keeps hostOps1 hostOps1_W hostOps1_writes (W2 m c) main_arg4 (by decide)).trans <|
    (W2_of m c main_arg4 (by decide)).trans <| (after_keeps hostOps0 hostOps0_W hostOps0_writes (W0 m c) main_arg4 (by decide)).trans rfl
theorem W4_main_arg5 (c : Dev nD) : W4 m c (Proc.devRef .tc main_arg5) = m ((c : Thread nD τ).loc main_arg5) :=
  (W4_of_ne m c main_arg5 (by decide)).trans <| (after_keeps hostOps1 hostOps1_W hostOps1_writes (W2 m c) main_arg5 (by decide)).trans <|
    (W2_of m c main_arg5 (by decide)).trans <| (after_keeps hostOps0 hostOps0_W hostOps0_writes (W0 m c) main_arg5 (by decide)).trans rfl
theorem W4_main_arg6 (c : Dev nD) : W4 m c (Proc.devRef .tc main_arg6) = m ((c : Thread nD τ).loc main_arg6) :=
  (W4_of_ne m c main_arg6 (by decide)).trans <| (after_keeps hostOps1 hostOps1_W hostOps1_writes (W2 m c) main_arg6 (by decide)).trans <|
    (W2_of m c main_arg6 (by decide)).trans <| (after_keeps hostOps0 hostOps0_W hostOps0_writes (W0 m c) main_arg6 (by decide)).trans rfl
theorem W4_main_arg7 (c : Dev nD) : W4 m c (Proc.devRef .tc main_arg7) = m ((c : Thread nD τ).loc main_arg7) :=
  (W4_of_ne m c main_arg7 (by decide)).trans <| (after_keeps hostOps1 hostOps1_W hostOps1_writes (W2 m c) main_arg7 (by decide)).trans <|
    (W2_of m c main_arg7 (by decide)).trans <| (after_keeps hostOps0 hostOps0_W hostOps0_writes (W0 m c) main_arg7 (by decide)).trans rfl
theorem W4_main_arg8 (c : Dev nD) : W4 m c (Proc.devRef .tc main_arg8) = m ((c : Thread nD τ).loc main_arg8) :=
  (W4_of_ne m c main_arg8 (by decide)).trans <| (after_keeps hostOps1 hostOps1_W hostOps1_writes (W2 m c) main_arg8 (by decide)).trans <|
    (W2_of m c main_arg8 (by decide)).trans <| (after_keeps hostOps0 hostOps0_W hostOps0_writes (W0 m c) main_arg8 (by decide)).trans rfl
theorem W4_main_arg9 (c : Dev nD) : W4 m c (Proc.devRef .tc main_arg9) = m ((c : Thread nD τ).loc main_arg9) :=
  (W4_of_ne m c main_arg9 (by decide)).trans <| (after_keeps hostOps1 hostOps1_W hostOps1_writes (W2 m c) main_arg9 (by decide)).trans <|
    (W2_of m c main_arg9 (by decide)).trans <| (after_keeps hostOps0 hostOps0_W hostOps0_writes (W0 m c) main_arg9 (by decide)).trans rfl
theorem W4_main_arg10 (c : Dev nD) : W4 m c (Proc.devRef .tc main_arg10) = m ((c : Thread nD τ).loc main_arg10) :=
  (W4_of_ne m c main_arg10 (by decide)).trans <| (after_keeps hostOps1 hostOps1_W hostOps1_writes (W2 m c) main_arg10 (by decide)).trans <|
    (W2_of m c main_arg10 (by decide)).trans <| (after_keeps hostOps0 hostOps0_W hostOps0_writes (W0 m c) main_arg10 (by decide)).trans rfl
theorem W4_main_arg11 (c : Dev nD) : W4 m c (Proc.devRef .tc main_arg11) = m ((c : Thread nD τ).loc main_arg11) :=
  (W4_of_ne m c main_arg11 (by decide)).trans <| (after_keeps hostOps1 hostOps1_W hostOps1_writes (W2 m c) main_arg11 (by decide)).trans <|
    (W2_of m c main_arg11 (by decide)).trans <| (after_keeps hostOps0 hostOps0_W hostOps0_writes (W0 m c) main_arg11 (by decide)).trans rfl
theorem W4_main_arg12 (c : Dev nD) : W4 m c (Proc.devRef .tc main_arg12) = m ((c : Thread nD τ).loc main_arg12) :=
  (W4_of_ne m c main_arg12 (by decide)).trans <| (after_keeps hostOps1 hostOps1_W hostOps1_writes (W2 m c) main_arg12 (by decide)).trans <|
    (W2_of m c main_arg12 (by decide)).trans <| (after_keeps hostOps0 hostOps0_W hostOps0_writes (W0 m c) main_arg12 (by decide)).trans rfl
theorem W4_main_arg13 (c : Dev nD) : W4 m c (Proc.devRef .tc main_arg13) = m ((c : Thread nD τ).loc main_arg13) :=
  (W4_of_ne m c main_arg13 (by decide)).trans <| (after_keeps hostOps1 hostOps1_W hostOps1_writes (W2 m c) main_arg13 (by decide)).trans <|
    (W2_of m c main_arg13 (by decide)).trans <| (after_keeps hostOps0 hostOps0_W hostOps0_writes (W0 m c) main_arg13 (by decide)).trans rfl
theorem W4_main_arg14 (c : Dev nD) : W4 m c (Proc.devRef .tc main_arg14) = m ((c : Thread nD τ).loc main_arg14) :=
  (W4_of_ne m c main_arg14 (by decide)).trans <| (after_keeps hostOps1 hostOps1_W hostOps1_writes (W2 m c) main_arg14 (by decide)).trans <|
    (W2_of m c main_arg14 (by decide)).trans <| (after_keeps hostOps0 hostOps0_W hostOps0_writes (W0 m c) main_arg14 (by decide)).trans rfl
theorem W4_main_arg15 (c : Dev nD) : W4 m c (Proc.devRef .tc main_arg15) = m ((c : Thread nD τ).loc main_arg15) :=
  (W4_of_ne m c main_arg15 (by decide)).trans <| (after_keeps hostOps1 hostOps1_W hostOps1_writes (W2 m c) main_arg15 (by decide)).trans <|
    (W2_of m c main_arg15 (by decide)).trans <| (after_keeps hostOps0 hostOps0_W hostOps0_writes (W0 m c) main_arg15 (by decide)).trans rfl

end Cert.Kernel.Hand

end
-- ==== Proof.FrameBits.lean ====
/-
  The whole run of the program: host operations, the first phase, host operations, the second phase.  Between two
  items every unscoped buffer of a core is held whole at a named valuation: the launch memory, then each stretch of
  host operations folded over it, then what a phase writes back into its output arrays.  The run ends with every
  unscoped buffer at the last valuation; the arguments are read back through the fold to their launch contents, and
  the three results are the second phase's output arrays.
-/
import proofs.«124992_j59777354826392_1_alg».proof.Proof.Reg0BodyBits
import proofs.«124992_j59777354826392_1_alg».proof.Proof.Reg0ShareBits
import proofs.«124992_j59777354826392_1_alg».proof.Proof.ValsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm' : (p : Fin 2) → (pcfgs (F := F) p).Adm := fun p => (cfgs p).toPCfg_adm
/-- Every phase's proof data, each at its entry contents. -/
def pdats : (p : Fin 2) → (c : Dev nD) → Dat τ (Elt F) Unit ℕ (UR sig nD τ) ℕ (Pipeline.pin (pcfgs (F := F)) adm' p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The phases as segments -/

set_option backward.isDefEq.respectTransparency.types false in
/-- The first phase over the thread state: entered from every unscoped buffer at W1, left at W2.  The eleven buffers
    behind its windows are split out of the unscoped ones and dealt to the twelve windows (the spike array's share
    halved), and joined back at the exit contents. -/
def reg0 : Pipeline.RegionSeg (pcfgs (F := F)) adm' (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (unscopedBufs c (V1 m c) : sProp 𝕄) ⊢ iprop((pdats m 0 c).arrays ((pdats m 0 c).arrAt · 0) ∗ Pipeline.unscopedRest spec0 c (V1 m c)) := by
      rw [Pipeline.unscopedBufs_split₀ cfgs 0 winFacts₀0.arr_unscoped c (V1 m c)]
      exact sep_mono (arrays0_of_bufs (V1 m) c (V1 m c) _ (fun w => A_eq0 (V1 m) c w)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest (Ix := Unit) (Name := ℕ) (U := UR sig nD τ) (Lvl := ℕ) spec0 c (V1 m c))
        ⊢ (unscopedBufs c (V2 m c) : sProp 𝕄) := by
      rw [Pipeline.unscopedBufs_split₀ cfgs 0 winFacts₀0.arr_unscoped c (V2 m c)]
      refine sep_mono (bufs_of_arrays0 (V1 m) c (V2 m c) _ (hF0 m c)) (Entails.of_eq ?_)
      unfold Pipeline.unscopedRest
      exact bigSep_congr fun b hb => by rw [hrest0 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second phase over the thread state: entered from every unscoped buffer at W3, left at W4. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm' (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- Every weakly fair execution of the program terminates, nothing faulting, and every final state holds every
    unscoped buffer of every core at the last valuation. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c),
    (h c _ (mem_uc main_arg9 (by decide))).trans (W4_main_arg9 m c),
    (h c _ (mem_uc main_arg10 (by decide))).trans (W4_main_arg10 m c),
    (h c _ (mem_uc main_arg11 (by decide))).trans (W4_main_arg11 m c),
    (h c _ (mem_uc main_arg12 (by decide))).trans (W4_main_arg12 m c),
    (h c _ (mem_uc main_arg13 (by decide))).trans (W4_main_arg13 m c),
    (h c _ (mem_uc main_arg14 (by decide))).trans (W4_main_arg14 m c),
    (h c _ (mem_uc main_arg15 (by decide))).trans (W4_main_arg15 m c)⟩) (run_all m ρ)

end Cert.Kernel.Hand

end
-- ==== Proof.KSpec.lean ====
/-
  The two phases of the kernel, written as plain functions of arrays of extended reals.

  Phase one builds two [1024, 2048] arrays from sixteen column tiles of width 128: the accumulator starts at zero, each
  tile adds the tile's products (three matrix products for the first array, two for the second, every weight matrix
  contracted along its second axis), and after the last tile a row of biases is added to every row.  The spike array
  spk is read in two halves: columns 0 … 2047 (the "out" population) and columns 2048 … 4095 (the "in" population).

  Phase two is elementwise over [1024, 4096]: the adaptive threshold b, the membrane value and the spike bit, with the
  two time constants given as rows [1, 4096] that every row of the batch shares.
-/
import Idealize.ShloMosaic.PureOps.Ideal
import Idealize.ShloMosaic.Lib.ValueIdx

noncomputable section

open scoped BigOperators

namespace Cert.KSpec

open Idealize.ShloMosaic Idealize.ShloMosaic.ValueIdx

abbrev A1024x2048 : Shape := ⟨2, ![1024, 2048]⟩
abbrev A1024x4096 : Shape := ⟨2, ![1024, 4096]⟩
abbrev A2048x2048 : Shape := ⟨2, ![2048, 2048]⟩
abbrev A1x2048 : Shape := ⟨2, ![1, 2048]⟩
abbrev A1x4096 : Shape := ⟨2, ![1, 4096]⟩

/-- Column kk of tile k among the 2048 contracted columns. -/
def col (k : Fin 16) (kk : Fin 128) : Fin 2048 := ⟨128 * k.val + kk.val, by omega⟩
/-- A column of the first half of the spike array (the "out" population). -/
def lo (c : Fin 2048) : Fin 4096 := ⟨c.val, by omega⟩
/-- A column of the second half of the spike array (the "in" population). -/
def hi (c : Fin 2048) : Fin 4096 := ⟨2048 + c.val, by omega⟩

/-- The products of one tile: the sum over the tile's 128 columns of a row of activations times a row of weights. -/
def tile (a w : Fin 2048 → EReal) (k : Fin 16) : EReal := ∑ kk : Fin 128, a (col k kk) * w (col k kk)

/-- What tile k adds to entry (i, j) of the first array: x·Wx + spk_in·Wri, then + spk_out·Woi. -/
def stepIn (x : FVec Ideal A1024x2048 .f32) (spk : FVec Ideal A1024x4096 .f32) (Wx Wri Woi : FVec Ideal A2048x2048 .f32)
    (i : Fin 1024) (j : Fin 2048) (k : Fin 16) : EReal :=
  (tile (fun c => x (ix2 i c)) (fun c => Wx (ix2 j c)) k + tile (fun c => spk (ix2 i (hi c))) (fun c => Wri (ix2 j c)) k)
    + tile (fun c => spk (ix2 i (lo c))) (fun c => Woi (ix2 j c)) k

/-- What tile k adds to entry (i, j) of the second array: spk_out·Wro + spk_in·Wio. -/
def stepOut (spk : FVec Ideal A1024x4096 .f32) (Wro Wio : FVec Ideal A2048x2048 .f32)
    (i : Fin 1024) (j : Fin 2048) (k : Fin 16) : EReal :=
  tile (fun c => spk (ix2 i (lo c))) (fun c => Wro (ix2 j c)) k + tile (fun c => spk (ix2 i (hi c))) (fun c => Wio (ix2 j c)) k

/-- A per-tile term extended by zero past the sixteenth tile, so that partial sums can be indexed by ℕ. -/
def ext (f : Fin 16 → EReal) (n : ℕ) : EReal := if h : n < 16 then f ⟨n, h⟩ else 0

/-- The first accumulator at (i, j) after the first n tiles. -/
def accIn (x : FVec Ideal A1024x2048 .f32) (spk : FVec Ideal A1024x4096 .f32) (Wx Wri Woi : FVec Ideal A2048x2048 .f32)
    (i : Fin 1024) (j : Fin 2048) (n : ℕ) : EReal :=
  ∑ k ∈ Finset.range n, ext (stepIn x spk Wx Wri Woi i j) k

/-- The second accumulator at (i, j) after the first n tiles. -/
def accOut (spk : FVec Ideal A1024x4096 .f32) (Wro Wio : FVec Ideal A2048x2048 .f32)
    (i : Fin 1024) (j : Fin 2048) (n : ℕ) : EReal :=
  ∑ k ∈ Finset.range n, ext (stepOut spk Wro Wio i j) k

/-- The first array phase one leaves: all sixteen tiles, then the bias row. -/
def rIn (x : FVec Ideal A1024x2048 .f32) (spk : FVec Ideal A1024x4096 .f32) (Wx Wri Woi : FVec Ideal A2048x2048 .f32)
    (bin : FVec Ideal A1x2048 .f32) : FVec Ideal A1024x2048 .f32 :=
  fun q => accIn x spk Wx Wri Woi (q 0) (q 1) 16 + bin (ix2 0 (q 1))

/-- The second array phase one leaves. -/
def rOut (spk : FVec Ideal A1024x4096 .f32) (Wro Wio : FVec Ideal A2048x2048 .f32)
    (bout : FVec Ideal A1x2048 .f32) : FVec Ideal A1024x2048 .f32 :=
  fun q => accOut spk Wro Wio (q 0) (q 1) 16 + bout (ix2 0 (q 1))

/-- The float constants of phase two, as the extended reals their bit patterns denote. -/
def one : EReal := Ideal.ofBits .f32 0x3F800000#32
def c18 : EReal := Ideal.ofBits .f32 0x3FE66666#32
def c01 : EReal := Ideal.ofBits .f32 0x3DCCCCCD#32
def c3 : EReal := Ideal.ofBits .f32 0x40400000#32
def zero : EReal := Ideal.ofBits .f32 0x00000000#32

/-- The adaptive threshold state: tau_adp · b_t + (1 − tau_adp) · spk. -/
def bNew (spk bt : FVec Ideal A1024x4096 .f32) (tadp : FVec Ideal A1x4096 .f32) : FVec Ideal A1024x4096 .f32 :=
  fun q => tadp (ix2 0 (q 1)) * bt q + (one - tadp (ix2 0 (q 1))) * spk q

/-- The threshold: 0.1 + 1.8 · b. -/
def thr (spk bt : FVec Ideal A1024x4096 .f32) (tadp : FVec Ideal A1x4096 .f32) : FVec Ideal A1024x4096 .f32 :=
  fun q => c01 + c18 * bNew spk bt tadp q

/-- The membrane value: mem_t · tau_m + ((1 − tau_m) · 3) · inputs − (thr · spk) · 1. -/
def memNew (memt spk bt inp : FVec Ideal A1024x4096 .f32) (tm tadp : FVec Ideal A1x4096 .f32) : FVec Ideal A1024x4096 .f32 :=
  fun q => (memt q * tm (ix2 0 (q 1)) + ((one - tm (ix2 0 (q 1))) * c3) * inp q) - (thr spk bt tadp q * spk q) * one

/-- The spike bit as a float: 1 where mem − thr > 0, else 0 (an ordered greater-than, widened and converted). -/
def spikeNew (memt spk bt inp : FVec Ideal A1024x4096 .f32) (tm tadp : FVec Ideal A1x4096 .f32) : FVec Ideal A1024x4096 .f32 :=
  fun q => FloatOps.sitofp (F := Ideal) .f32
    ((FloatOps.cmpf (F := Ideal) (φ := .f32) .ogt (memNew memt spk bt inp tm tadp q - thr spk bt tadp q) zero).setWidth 32)

/-! ## The host glue between and around the two phases, and the whole program -/

abbrev A2048 : Shape := ⟨1, ![2048]⟩
abbrev A4096 : Shape := ⟨1, ![4096]⟩

/-- The bias row of the first array: (b_x + b_ri) + b_oi, as a [1, 2048] row. -/
def biasIn (bx bri boi : FVec Ideal A2048 .f32) : FVec Ideal A1x2048 .f32 :=
  fun q => (bx (ix1 (q 1)) + bri (ix1 (q 1))) + boi (ix1 (q 1))

/-- The bias row of the second array: b_ro + b_io. -/
def biasOut (bro bio : FVec Ideal A2048 .f32) : FVec Ideal A1x2048 .f32 :=
  fun q => bro (ix1 (q 1)) + bio (ix1 (q 1))

/-- The logistic function as both programs compute it on the host: 1 / (1 + exp (−v)). -/
def sigm (v : FVec Ideal A4096 .f32) : FVec Ideal A4096 .f32 :=
  fun q => Ideal.div one (one + Ideal.exp (-(v q)))

/-- A vector of 4096 entries as a [1, 4096] row. -/
def row (v : FVec Ideal A4096 .f32) : FVec Ideal A1x4096 .f32 := fun q => v (ix1 (q 1))

/-- The two phase-one arrays side by side along the columns: the second array first. -/
def inputs (rout rin : FVec Ideal A1024x2048 .f32) : FVec Ideal A1024x4096 .f32 :=
  fun q => if h : (q 1).val < 2048 then rout (ix2 (q 0) ⟨(q 1).val, h⟩)
    else rin (ix2 (q 0) ⟨(q 1).val - 2048, by have h4 : (q 1).val < 4096 := (q 1).isLt; omega⟩)

section Whole

variable (x : FVec Ideal A1024x2048 .f32) (memt spk bt : FVec Ideal A1024x4096 .f32)
  (Wx : FVec Ideal A2048x2048 .f32) (bx : FVec Ideal A2048 .f32) (Wri : FVec Ideal A2048x2048 .f32) (bri : FVec Ideal A2048 .f32)
  (Wio : FVec Ideal A2048x2048 .f32) (bio : FVec Ideal A2048 .f32) (Wro : FVec Ideal A2048x2048 .f32) (bro : FVec Ideal A2048 .f32)
  (Woi : FVec Ideal A2048x2048 .f32) (boi : FVec Ideal A2048 .f32) (tadp tm : FVec Ideal A4096 .f32)

/-- The input current of phase two, from the sixteen arguments (in the programs' argument order). -/
def inpAll : FVec Ideal A1024x4096 .f32 :=
  inputs (rOut spk Wro Wio (biasOut bro bio)) (rIn x spk Wx Wri Woi (biasIn bx bri boi))

/-- The three results of the whole program from its sixteen arguments. -/
def memAll : FVec Ideal A1024x4096 .f32 :=
  memNew memt spk bt (inpAll x spk Wx bx Wri bri Wio bio Wro bro Woi boi) (row (sigm tm)) (row (sigm tadp))
def spikeAll : FVec Ideal A1024x4096 .f32 :=
  spikeNew memt spk bt (inpAll x spk Wx bx Wri bri Wio bio Wro bro Woi boi) (row (sigm tm)) (row (sigm tadp))
def bAll : FVec Ideal A1024x4096 .f32 := bNew spk bt (row (sigm tadp))

end Whole

end Cert.KSpec

end
-- ==== Proof.RefLaw.lean ====
/-
  Regrouping a contraction over 2048 columns into sixteen tiles of 128.

  A sum over the 2048 contracted columns is the sum over the sixteen tiles of the sums over each tile's 128 columns:
  column c lies in tile c / 128 at position c % 128, and (k, kk) ↦ 128 k + kk is a bijection from pairs
  (tile, position) onto the columns.  A sum over the first sixteen naturals of a per-tile term extended by zero is the
  sum over the sixteen tiles.  With these, a sum of matrix products, each with its bias added, is the tile-by-tile
  accumulation with the biases added once at the end: only commutativity and associativity of addition are used, so
  nothing is asked of the summands (infinite values included).
-/
import proofs.«124992_j59777354826392_1_alg».proof.Proof.KSpec

noncomputable section

open scoped BigOperators

namespace Cert.RefSide

open Cert.KSpec

/-- Pairs (tile, position in the tile) against the 2048 columns: (k, kk) ↦ 128 k + kk. -/
def tileEquiv : Fin 16 × Fin 128 ≃ Fin 2048 where
  toFun p := col p.1 p.2
  invFun c := (⟨c.val / 128, by have := c.isLt; omega⟩, ⟨c.val % 128, by omega⟩)
  left_inv p := by
    rcases p with ⟨k, kk⟩
    have hk := k.isLt; have hkk := kk.isLt
    refine Prod.ext (Fin.ext ?_) (Fin.ext ?_)
    · show (128 * k.val + kk.val) / 128 = k.val; omega
    · show (128 * k.val + kk.val) % 128 = kk.val; omega
  right_inv c := by
    refine Fin.ext ?_
    show 128 * (c.val / 128) + c.val % 128 = c.val; omega

/-- A sum over the 2048 columns, tile by tile. -/
theorem sum_tiles {M : Type*} [AddCommMonoid M] (f : Fin 2048 → M) :
    ∑ c : Fin 2048, f c = ∑ k : Fin 16, ∑ kk : Fin 128, f (col k kk) := by
  rw [← Fintype.sum_prod_type']
  exact (Fintype.sum_equiv tileEquiv (fun p => f (col p.1 p.2)) f (fun _ => rfl)).symm

/-- A contraction over the 2048 columns is the sum of its sixteen tiles. -/
theorem sum_tile (a w : Fin 2048 → EReal) : ∑ k : Fin 16, tile a w k = ∑ c : Fin 2048, a c * w c :=
  (sum_tiles fun c => a c * w c).symm

/-- The first sixteen partial terms of a per-tile term extended by zero are the sixteen tiles' terms. -/
theorem sum_range_ext (f : Fin 16 → EReal) : ∑ k ∈ Finset.range 16, ext f k = ∑ k : Fin 16, f k := by
  rw [← Fin.sum_univ_eq_sum_range (fun n => ext f n) 16]
  refine Finset.sum_congr rfl fun k _ => ?_
  show (if h : k.val < 16 then f ⟨k.val, h⟩ else 0) = f k
  rw [dif_pos k.isLt]

/-- Three contractions, each with its bias, added left to right: the tile-by-tile accumulation of the three tiles'
    products, then the three biases. -/
theorem law_three (a₁ w₁ a₂ w₂ a₃ w₃ : Fin 2048 → EReal) (b₁ b₂ b₃ : EReal) :
    ((∑ c : Fin 2048, a₁ c * w₁ c + b₁) + (∑ c : Fin 2048, a₂ c * w₂ c + b₂)) + (∑ c : Fin 2048, a₃ c * w₃ c + b₃)
      = ∑ k ∈ Finset.range 16, ext (fun k => (tile a₁ w₁ k + tile a₂ w₂ k) + tile a₃ w₃ k) k + ((b₁ + b₂) + b₃) := by
  rw [sum_range_ext, Finset.sum_add_distrib, Finset.sum_add_distrib, sum_tile, sum_tile, sum_tile]
  abel

/-- Two contractions, each with its bias: the tile-by-tile accumulation of the two tiles' products, then the two biases. -/
theorem law_two (a₁ w₁ a₂ w₂ : Fin 2048 → EReal) (b₁ b₂ : EReal) :
    (∑ c : Fin 2048, a₁ c * w₁ c + b₁) + (∑ c : Fin 2048, a₂ c * w₂ c + b₂)
      = ∑ k ∈ Finset.range 16, ext (fun k => tile a₁ w₁ k + tile a₂ w₂ k) k + (b₁ + b₂) := by
  rw [sum_range_ext, Finset.sum_add_distrib, sum_tile, sum_tile]
  abel

end Cert.RefSide

end
-- ==== Proof.RefIdx.lean ====
/-
  Names shared by the readings of the reference: its arrays' types at the ideal values, by shape, and the remark that
  an index of rank one or two is determined by its coordinates.
-/
import proofs.«124992_j59777354826392_1_alg».proof.ReferenceIdeal
import Idealize.ShloMosaic.PureOps.Ideal
import Idealize.ShloMosaic.Lib.ValueIdx

noncomputable section

namespace Cert.RefSide

open Idealize.ShloMosaic Idealize.ShloMosaic.ValueIdx Cert.ReferenceIdeal

/-- The reference's arrays at the ideal values, by shape. -/
abbrev V1024x2048 : Type := (⟨S1024x2048, .f32⟩ : BufTy).Contents (Elt Ideal)
abbrev V1024x4096 : Type := (⟨S1024x4096, .f32⟩ : BufTy).Contents (Elt Ideal)
abbrev V2048x2048 : Type := (⟨S2048x2048, .f32⟩ : BufTy).Contents (Elt Ideal)
abbrev V2048 : Type := (⟨S2048, .f32⟩ : BufTy).Contents (Elt Ideal)
abbrev V4096 : Type := (⟨S4096, .f32⟩ : BufTy).Contents (Elt Ideal)

/-- A rank-2 index with coordinates a and b is ix2 a b. -/
theorem ix2_ext {n0 n1 : Nat} (i : (⟨2, ![n0, n1]⟩ : Shape).Idx) (a : Fin n0) (b : Fin n1)
    (h0 : (i 0).val = a.val) (h1 : (i 1).val = b.val) : i = ix2 a b := by
  funext d
  match d with
  | ⟨0, _⟩ => exact Fin.ext h0
  | ⟨1, _⟩ => exact Fin.ext h1

/-- A rank-1 index with coordinate a is ix1 a. -/
theorem ix1_ext {n : Nat} (i : (⟨1, ![n]⟩ : Shape).Idx) (a : Fin n) (h0 : (i 0).val = a.val) : i = ix1 a := by
  funext d
  match d with
  | ⟨0, _⟩ => exact Fin.ext h0

end Cert.RefSide

end
-- ==== Proof.RefMat.lean ====
/-
  The reference's matrix stages, read at an entry.

  Each of the five products is a row of activations against a row of a weight matrix (the reference multiplies by the
  transposed matrix, so entry (p, q) contracts row p of the activations with ROW q of the weights); the two halves of the
  spike array are its columns 0 … 2047 and 2048 … 4095; a bias is one vector entry per column, the same for every row of
  the batch.  Three of the products with their biases add up to the first array, two to the second: by the regrouping
  law these are the sixteen tiles' accumulation with the bias rows added at the end.  The concatenation along the
  columns reads the second array in columns below 2048 and the first array, 2048 columns further left, from there on.
-/
import proofs.«124992_j59777354826392_1_alg».proof.Proof.Gen.ReferenceIdeal.Read
import proofs.«124992_j59777354826392_1_alg».proof.Proof.RefLaw
import proofs.«124992_j59777354826392_1_alg».proof.Proof.RefIdx

noncomputable section

open scoped BigOperators

namespace Cert.RefSide

open Idealize.ShloMosaic Idealize.ShloMosaic.ValueIdx Cert.ReferenceIdeal Cert.ReferenceIdeal.Gen Cert.KSpec

/-- x · Wxᵀ at (p, q): row p of x against row q of Wx. -/
theorem dot_x (x0 : V1024x2048) (x4 : V2048x2048) (p : Fin 1024) (q : Fin 2048) :
    Read.val_main_v3 (F := Ideal) x0 x4 (ix2 p q) = ∑ c : Fin 2048, x0 (ix2 p c) * x4 (ix2 q c) := by
  rw [Read.val_main_v3_apply]
  refine Finset.sum_congr rfl fun k _ => ?_
  rw [Read.val_main_v2_apply]
  exact congrArg₂ (· * ·) (congrArg x0 (ix2_ext _ p k rfl rfl)) (congrArg x4 (ix2_ext _ q k rfl rfl))

/-- spk_in · Wriᵀ at (p, q): the second half of row p of spk against row q of Wri. -/
theorem dot_ri (x2 : V1024x4096) (x6 : V2048x2048) (p : Fin 1024) (q : Fin 2048) :
    Read.val_main_v8 (F := Ideal) x2 x6 (ix2 p q) = ∑ c : Fin 2048, x2 (ix2 p (hi c)) * x6 (ix2 q c) := by
  rw [Read.val_main_v8_apply]
  refine Finset.sum_congr rfl fun k _ => ?_
  rw [Read.val_main_v1_apply, Read.val_main_v7_apply]
  exact congrArg₂ (· * ·) (congrArg x2 (ix2_ext _ p (hi k) rfl rfl)) (congrArg x6 (ix2_ext _ q k rfl rfl))

/-- spk_out · Woiᵀ at (p, q): the first half of row p of spk against row q of Woi. -/
theorem dot_oi (x2 : V1024x4096) (x12 : V2048x2048) (p : Fin 1024) (q : Fin 2048) :
    Read.val_main_v14 (F := Ideal) x2 x12 (ix2 p q) = ∑ c : Fin 2048, x2 (ix2 p (lo c)) * x12 (ix2 q c) := by
  rw [Read.val_main_v14_apply]
  refine Finset.sum_congr rfl fun k _ => ?_
  rw [Read.val_main_v0_apply, Read.val_main_v13_apply]
  exact congrArg₂ (· * ·) (congrArg x2 (ix2_ext _ p (lo k) rfl rfl)) (congrArg x12 (ix2_ext _ q k rfl rfl))

/-- spk_out · Wroᵀ at (p, q). -/
theorem dot_ro (x2 : V1024x4096) (x10 : V2048x2048) (p : Fin 1024) (q : Fin 2048) :
    Read.val_main_v20 (F := Ideal) x2 x10 (ix2 p q) = ∑ c : Fin 2048, x2 (ix2 p (lo c)) * x10 (ix2 q c) := by
  rw [Read.val_main_v20_apply]
  refine Finset.sum_congr rfl fun k _ => ?_
  rw [Read.val_main_v0_apply, Read.val_main_v19_apply]
  exact congrArg₂ (· * ·) (congrArg x2 (ix2_ext _ p (lo k) rfl rfl)) (congrArg x10 (ix2_ext _ q k rfl rfl))

/-- spk_in · Wioᵀ at (p, q). -/
theorem dot_io (x2 : V1024x4096) (x8 : V2048x2048) (p : Fin 1024) (q : Fin 2048) :
    Read.val_main_v25 (F := Ideal) x2 x8 (ix2 p q) = ∑ c : Fin 2048, x2 (ix2 p (hi c)) * x8 (ix2 q c) := by
  rw [Read.val_main_v25_apply]
  refine Finset.sum_congr rfl fun k _ => ?_
  rw [Read.val_main_v1_apply, Read.val_main_v24_apply]
  exact congrArg₂ (· * ·) (congrArg x2 (ix2_ext _ p (hi k) rfl rfl)) (congrArg x8 (ix2_ext _ q k rfl rfl))

/-- b_x broadcast over the batch, at (p, q): entry q. -/
theorem bias_x (x5 : V2048) (p : Fin 1024) (q : Fin 2048) :
    Read.val_main_v5 (F := Ideal) x5 (ix2 p q) = x5 (ix1 q) := by
  rw [Read.val_main_v5_apply, Read.val_main_v4_apply]
  exact congrArg x5 (ix1_ext _ q rfl)

/-- b_ri broadcast over the batch, at (p, q). -/
theorem bias_ri (x7 : V2048) (p : Fin 1024) (q : Fin 2048) :
    Read.val_main_v10 (F := Ideal) x7 (ix2 p q) = x7 (ix1 q) := by
  rw [Read.val_main_v10_apply, Read.val_main_v9_apply]
  exact congrArg x7 (ix1_ext _ q rfl)

/-- b_oi broadcast over the batch, at (p, q). -/
theorem bias_oi (x13 : V2048) (p : Fin 1024) (q : Fin 2048) :
    Read.val_main_v16 (F := Ideal) x13 (ix2 p q) = x13 (ix1 q) := by
  rw [Read.val_main_v16_apply, Read.val_main_v15_apply]
  exact congrArg x13 (ix1_ext _ q rfl)

/-- b_ro broadcast over the batch, at (p, q). -/
theorem bias_ro (x11 : V2048) (p : Fin 1024) (q : Fin 2048) :
    Read.val_main_v22 (F := Ideal) x11 (ix2 p q) = x11 (ix1 q) := by
  rw [Read.val_main_v22_apply, Read.val_main_v21_apply]
  exact congrArg x11 (ix1_ext _ q rfl)

/-- b_io broadcast over the batch, at (p, q). -/
theorem bias_io (x9 : V2048) (p : Fin 1024) (q : Fin 2048) :
    Read.val_main_v27 (F := Ideal) x9 (ix2 p q) = x9 (ix1 q) := by
  rw [Read.val_main_v27_apply, Read.val_main_v26_apply]
  exact congrArg x9 (ix1_ext _ q rfl)

/-- The reference's first array is the sixteen tiles' accumulation plus the bias row. -/
theorem rin_eq (x0 : V1024x2048) (x2 : V1024x4096) (x4 : V2048x2048) (x5 : V2048) (x6 : V2048x2048) (x7 : V2048)
    (x12 : V2048x2048) (x13 : V2048) :
    Read.val_main_v18 (F := Ideal) x0 x2 x4 x5 x6 x7 x12 x13 = rIn x0 x2 x4 x6 x12 (biasIn x5 x7 x13) := by
  funext i
  obtain ⟨p, q, rfl⟩ : ∃ (p : Fin 1024) (q : Fin 2048), i = ix2 p q := ⟨i 0, i 1, eq_ix2 i⟩
  rw [Read.val_main_v18_apply, Read.val_main_v12_apply, Read.val_main_v6_apply, Read.val_main_v11_apply,
    Read.val_main_v17_apply, dot_x, dot_ri, dot_oi, bias_x, bias_ri, bias_oi]
  exact law_three (fun c => x0 (ix2 p c)) (fun c => x4 (ix2 q c)) (fun c => x2 (ix2 p (hi c))) (fun c => x6 (ix2 q c))
    (fun c => x2 (ix2 p (lo c))) (fun c => x12 (ix2 q c)) (x5 (ix1 q)) (x7 (ix1 q)) (x13 (ix1 q))

/-- The reference's second array is the sixteen tiles' accumulation plus the bias row. -/
theorem rout_eq (x2 : V1024x4096) (x8 : V2048x2048) (x9 : V2048) (x10 : V2048x2048) (x11 : V2048) :
    Read.val_main_v29 (F := Ideal) x2 x8 x9 x10 x11 = rOut x2 x10 x8 (biasOut x11 x9) := by
  funext i
  obtain ⟨p, q, rfl⟩ : ∃ (p : Fin 1024) (q : Fin 2048), i = ix2 p q := ⟨i 0, i 1, eq_ix2 i⟩
  rw [Read.val_main_v29_apply, Read.val_main_v23_apply, Read.val_main_v28_apply, dot_ro, dot_io, bias_ro, bias_io]
  exact law_two (fun c => x2 (ix2 p (lo c))) (fun c => x10 (ix2 q c)) (fun c => x2 (ix2 p (hi c))) (fun c => x8 (ix2 q c))
    (x11 (ix1 q)) (x9 (ix1 q))

/-- Two [1024, 2048] arrays joined along the columns, at (p, r): the first in columns below 2048, the second from there on. -/
theorem cat_at (u w : V1024x2048) (p : Fin 1024) (r : Fin 4096) :
    concatenate S1024x4096 1 [⟨S1024x2048, u⟩, ⟨S1024x2048, w⟩] concatenates_S1024x2048_S1024x2048_S1024x4096_d1 (ix2 p r)
      = inputs u w (ix2 p r) := by
  have h4 : r.val < 4096 := r.isLt
  by_cases h : r.val < 2048
  · have e : inputs u w (ix2 p r) = u (ix2 p ⟨r.val, h⟩) := by
      show (if h' : r.val < 2048 then u (ix2 p ⟨r.val, h'⟩) else _) = _
      rw [dif_pos h]
    rw [e]
    exact concatenate_pair_apply_left 1 u w _ (ix2 p r) rfl (ix2 p ⟨r.val, h⟩) (fun b => by
      match b with
      | ⟨0, _⟩ => rfl
      | ⟨1, _⟩ => rfl)
  · have e : inputs u w (ix2 p r) = w (ix2 p ⟨r.val - 2048, by omega⟩) := by
      show (if h' : r.val < 2048 then _ else w (ix2 p ⟨r.val - 2048, _⟩)) = _
      rw [dif_neg h]
    rw [e]
    exact concatenate_pair_apply_right 1 u w _ (ix2 p r) rfl rfl (ix2 p ⟨r.val - 2048, by omega⟩)
      (fun b hb => by
        match b with
        | ⟨0, _⟩ => rfl
        | ⟨1, _⟩ => exact absurd rfl hb)
      (by show (r.val - 2048) + 2048 = r.val; omega)

/-- The reference's input current is the two phase-one arrays side by side. -/
theorem inp_eq (x0 : V1024x2048) (x2 : V1024x4096) (x4 : V2048x2048) (x5 : V2048) (x6 : V2048x2048) (x7 : V2048)
    (x8 : V2048x2048) (x9 : V2048) (x10 : V2048x2048) (x11 : V2048) (x12 : V2048x2048) (x13 : V2048) :
    Read.val_main_v30 (F := Ideal) x0 x2 x4 x5 x6 x7 x8 x9 x10 x11 x12 x13
      = inpAll x0 x2 x4 x5 x6 x7 x8 x9 x10 x11 x12 x13 := by
  funext i
  obtain ⟨p, r, rfl⟩ : ∃ (p : Fin 1024) (r : Fin 4096), i = ix2 p r := ⟨i 0, i 1, eq_ix2 i⟩
  unfold Read.val_main_v30
  rw [cat_at, rout_eq, rin_eq]
  rfl

end Cert.RefSide

end
-- ==== Proof.HostVals.lean ====
/-
  What the host operations between and around the two phases leave, at the ideal values.

  Before the first phase the host adds the bias vectors — (b_x + b_ri) + b_oi and b_ro + b_io — and lays each sum out as
  a row [1, 2048]: entry (0, q) of the row is entry q of the sum.  Between the phases it joins the first phase's two
  arrays along the columns, the second array first, and computes the two time constants: the logistic function
  1 / (1 + exp (−v)) of each vector of 4096 entries, laid out as a row [1, 4096].  No host operation writes an argument.
-/
import proofs.«124992_j59777354826392_1_alg».proof.Proof.Vals
import proofs.«124992_j59777354826392_1_alg».proof.Proof.KSpec
import proofs.«124992_j59777354826392_1_alg».proof.Proof.RefMat
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

/-! ## The host's terms as functions of their operands -/

/-- A vector of 2048 entries laid out as a row [1, 2048]. -/
def asRow2048 (v : (⟨S2048, .f32⟩ : BufTy).Contents (Elt Ideal)) : (⟨S1x2048, .f32⟩ : BufTy).Contents (Elt Ideal) :=
  fun i => shapeCast S1x2048 v shapeCasts_S2048_S1x2048 i

/-- The host's logistic chain on a vector of 4096 entries, laid out as a row [1, 4096]. -/
def logisticRow (v : (⟨S4096, .f32⟩ : BufTy).Contents (Elt Ideal)) : (⟨S1x4096, .f32⟩ : BufTy).Contents (Elt Ideal) :=
  fun i => shapeCast S1x4096
    (Host.divf (F := Ideal) (broadcastInDim S4096 ![] bcast_S_S4096 (constant (F := Ideal) S_ .f32 0x3F800000#32))
      (addf (broadcastInDim S4096 ![] bcast_S_S4096 (constant (F := Ideal) S_ .f32 0x3F800000#32))
        (Host.exp (F := Ideal) (Host.negf (F := Ideal) v))))
    shapeCasts_S4096_S1x4096 i

/-- The sum of two vectors of 2048 entries, entry by entry. -/
abbrev add2048 (a b : (⟨S2048, .f32⟩ : BufTy).Contents (Elt Ideal)) : (⟨S2048, .f32⟩ : BufTy).Contents (Elt Ideal) :=
  addf (F := Ideal) (s := S2048) (φ := .f32) a b

/-- The sum of three bias vectors as a row is the specification's first bias row. -/
theorem asRow_biasIn (b5 b7 b13 : (⟨S2048, .f32⟩ : BufTy).Contents (Elt Ideal)) :
    asRow2048 (add2048 (add2048 b5 b7) b13) = Cert.KSpec.biasIn b5 b7 b13 := by
  funext i
  obtain ⟨u, q, rfl⟩ : ∃ (u : Fin 1) (q : Fin 2048), i = ix2 u q := ⟨i 0, i 1, eq_ix2 i⟩
  unfold asRow2048
  rw [shapeCast_a_1a_apply]
  rfl

/-- The sum of two bias vectors as a row is the specification's second bias row. -/
theorem asRow_biasOut (b11 b9 : (⟨S2048, .f32⟩ : BufTy).Contents (Elt Ideal)) :
    asRow2048 (add2048 b11 b9) = Cert.KSpec.biasOut b11 b9 := by
  funext i
  obtain ⟨u, q, rfl⟩ : ∃ (u : Fin 1) (q : Fin 2048), i = ix2 u q := ⟨i 0, i 1, eq_ix2 i⟩
  unfold asRow2048
  rw [shapeCast_a_1a_apply]
  rfl

/-- The host's logistic chain as a row is the specification's logistic function, as a row. -/
theorem logisticRow_eq (v : (⟨S4096, .f32⟩ : BufTy).Contents (Elt Ideal)) :
    logisticRow v = Cert.KSpec.row (Cert.KSpec.sigm v) := by
  funext i
  obtain ⟨u, r, rfl⟩ : ∃ (u : Fin 1) (r : Fin 4096), i = ix2 u r := ⟨i 0, i 1, eq_ix2 i⟩
  unfold logisticRow
  rw [shapeCast_a_1a_apply]
  show Ideal.div (broadcastInDim S4096 ![] bcast_S_S4096 (constant (F := Ideal) S_ .f32 0x3F800000#32) (ix1 r))
      (broadcastInDim S4096 ![] bcast_S_S4096 (constant (F := Ideal) S_ .f32 0x3F800000#32) (ix1 r) + Ideal.exp (-(v (ix1 r))))
    = _
  rw [broadcastInDim_apply _ bcast_S_S4096 _ (ix1 r) ix0 (fun a => a.elim0)]
  rfl

variable (m : (ℓ : Loc nD τ sig) → Buf (Elt Ideal) ℓ)

/-! ## Before the first phase -/

theorem V1_main_arg0 (c : Dev nD) : V1 m c main_arg0 = m ((c : Thread nD τ).loc main_arg0) :=
  (after_keeps hostOps0 hostOps0_W hostOps0_writes (W0 m c) main_arg0 (by decide)).trans rfl
theorem V1_main_arg2 (c : Dev nD) : V1 m c main_arg2 = m ((c : Thread nD τ).loc main_arg2) :=
  (after_keeps hostOps0 hostOps0_W hostOps0_writes (W0 m c) main_arg2 (by decide)).trans rfl
theorem V1_main_arg4 (c : Dev nD) : V1 m c main_arg4 = m ((c : Thread nD τ).loc main_arg4) :=
  (after_keeps hostOps0 hostOps0_W hostOps0_writes (W0 m c) main_arg4 (by decide)).trans rfl
theorem V1_main_arg6 (c : Dev nD) : V1 m c main_arg6 = m ((c : Thread nD τ).loc main_arg6) :=
  (after_keeps hostOps0 hostOps0_W hostOps0_writes (W0 m c) main_arg6 (by decide)).trans rfl
theorem V1_main_arg8 (c : Dev nD) : V1 m c main_arg8 = m ((c : Thread nD τ).loc main_arg8) :=
  (after_keeps hostOps0 hostOps0_W hostOps0_writes (W0 m c) main_arg8 (by decide)).trans rfl
theorem V1_main_arg10 (c : Dev nD) : V1 m c main_arg10 = m ((c : Thread nD τ).loc main_arg10) :=
  (after_keeps hostOps0 hostOps0_W hostOps0_writes (W0 m c) main_arg10 (by decide)).trans rfl
theorem V1_main_arg12 (c : Dev nD) : V1 m c main_arg12 = m ((c : Thread nD τ).loc main_arg12) :=
  (after_keeps hostOps0 hostOps0_W hostOps0_writes (W0 m c) main_arg12 (by decide)).trans rfl

theorem V1_main_v2 (c : Dev nD) :
    V1 m c main_v2 = Cert.KSpec.biasIn (m ((c : Thread nD τ).loc main_arg5)) (m ((c : Thread nD τ).loc main_arg7)) (m ((c : Thread nD τ).loc main_arg13)) := by
  have e : V1 m c main_v2 = asRow2048 (add2048 (add2048 (W0 m c main_arg5) (W0 m c main_arg7)) (W0 m c main_arg13)) := by
    show StableHlo.after hostOps0 (W0 m c) (Proc.devRef .tc main_v2) = _
    after_results
    rfl
  exact e.trans (asRow_biasIn _ _ _)

theorem V1_main_v4 (c : Dev nD) :
    V1 m c main_v4 = Cert.KSpec.biasOut (m ((c : Thread nD τ).loc main_arg11)) (m ((c : Thread nD τ).loc main_arg9)) := by
  have e : V1 m c main_v4 = asRow2048 (add2048 (W0 m c main_arg11) (W0 m c main_arg9)) := by
    show StableHlo.after hostOps0 (W0 m c) (Proc.devRef .tc main_v4) = _
    after_results
    rfl
  exact e.trans (asRow_biasOut _ _)

/-! ## Between the phases -/

theorem W2_main_arg14 (c : Dev nD) : W2 m c main_arg14 = m ((c : Thread nD τ).loc main_arg14) :=
  (W2_of m c main_arg14 (by decide)).trans <| (after_keeps hostOps0 hostOps0_W hostOps0_writes (W0 m c) main_arg14 (by decide)).trans rfl
theorem W2_main_arg15 (c : Dev nD) : W2 m c main_arg15 = m ((c : Thread nD τ).loc main_arg15) :=
  (W2_of m c main_arg15 (by decide)).trans <| (after_keeps hostOps0 hostOps0_W hostOps0_writes (W0 m c) main_arg15 (by decide)).trans rfl
theorem V3_main_arg1 (c : Dev nD) : V3 m c main_arg1 = m ((c : Thread nD τ).loc main_arg1) :=
  (after_keeps hostOps1 hostOps1_W hostOps1_writes (W2 m c) main_arg1 (by decide)).trans <|
    (W2_of m c main_arg1 (by decide)).trans <| (after_keeps hostOps0 hostOps0_W hostOps0_writes (W0 m c) main_arg1 (by decide)).trans rfl
theorem V3_main_arg2 (c : Dev nD) : V3 m c main_arg2 = m ((c : Thread nD τ).loc main_arg2) :=
  (after_keeps hostOps1 hostOps1_W hostOps1_writes (W2 m c) main_arg2 (by decide)).trans <|
    (W2_of m c main_arg2 (by decide)).trans <| (after_keeps hostOps0 hostOps0_W hostOps0_writes (W0 m c) main_arg2 (by decide)).trans rfl
theorem V3_main_arg3 (c : Dev nD) : V3 m c main_arg3 = m ((c : Thread nD τ).loc main_arg3) :=
  (after_keeps hostOps1 hostOps1_W hostOps1_writes (W2 m c) main_arg3 (by decide)).trans <|
    (W2_of m c main_arg3 (by decide)).trans <| (after_keeps hostOps0 hostOps0_W hostOps0_writes (W0 m c) main_arg3 (by decide)).trans rfl

theorem V3_main_v6 (c : Dev nD) :
    V3 m c main_v6 = Cert.KSpec.inputs (W2 m c main_v5_1) (W2 m c main_v5_0) := by
  have e : V3 m c main_v6
      = concatenate S1024x4096 1 [⟨S1024x2048, W2 m c main_v5_1⟩, ⟨S1024x2048, W2 m c main_v5_0⟩]
          concatenates_S1024x2048_S1024x2048_S1024x4096_d1 := by
    show StableHlo.after hostOps1 (W2 m c) (Proc.devRef .tc main_v6) = _
    after_results
  funext i
  obtain ⟨p, r, rfl⟩ : ∃ (p : Fin 1024) (r : Fin 4096), i = ix2 p r := ⟨i 0, i 1, eq_ix2 i⟩
  exact (congrFun e (ix2 p r)).trans (Cert.RefSide.cat_at (W2 m c main_v5_1) (W2 m c main_v5_0) p r)

theorem V3_main_v13 (c : Dev nD) :
    V3 m c main_v13 = Cert.KSpec.row (Cert.KSpec.sigm (m ((c : Thread nD τ).loc main_arg15))) := by
  have e : V3 m c main_v13 = logisticRow (W2 m c main_arg15) := by
    show StableHlo.after hostOps1 (W2 m c) (Proc.devRef .tc main_v13) = _
    after_results
    rfl
  rw [e, W2_main_arg15]
  exact logisticRow_eq _

theorem V3_main_v20 (c : Dev nD) :
    V3 m c main_v20 = Cert.KSpec.row (Cert.KSpec.sigm (m ((c : Thread nD τ).loc main_arg14))) := by
  have e : V3 m c main_v20 = logisticRow (W2 m c main_arg14) := by
    show StableHlo.after hostOps1 (W2 m c) (Proc.devRef .tc main_v20) = _
    after_results
    rfl
  rw [e, W2_main_arg14]
  exact logisticRow_eq _

end Cert.KernelIdeal.Hand

end
-- ==== Proof.Reg1Value.lean ====
/- REGION 1's three result arrays in closed form. At the extended reals every operation of the elementwise body is
   exact, so what a grid point writes back is, entry by entry, the phase-two formulas of the shared specification read
   at the rows the point's blocks hold: point `t` holds rows `128 t … 128 t + 127` of the four batch-tiled arrays and
   the whole of the two decay rows. The eight points' blocks tile the 1024 rows (row `r` lies in the block of point
   `r / 128`), so each result array ends as the specification's function of the six arrays the region was entered
   with. -/
import proofs.«124992_j59777354826392_1_alg».proof.Proof.Reg1
import proofs.«124992_j59777354826392_1_alg».proof.Proof.KSpec
import Idealize.ShloMosaic.Lib.Pipeline.Value
import Idealize.ShloMosaic.Lib.ValueLayout
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The body's arithmetic at an entry

`x0 … x3` are 128 x 4096 blocks (membrane, spike, threshold state, input current), `x4`, `x5` the 1 x 4096 decay rows
(membrane, adaptation); `p` is the row inside the block and `q` the column. Every operation is pointwise but the
broadcast of a decay row down the 128 rows of a block, which reads the row at the same column. -/

/-- The new threshold state: the adaptation decay times the old state, plus its complement to one times the spike. -/
theorem pay1_at (x5 : Vec Ideal S1x4096 .f32) (x1 x2 : Vec Ideal S128x4096 .f32) (p : Fin 128) (q : Fin 4096) :
    k1_pay1 (F := Ideal) x5 x1 x2 (ix2 p q)
      = x5 (ix2 0 q) * x2 (ix2 p q) + (Cert.KSpec.one - x5 (ix2 0 q)) * x1 (ix2 p q) := by
  unfold k1_pay1
  rw [shapeCast_self]
  simp only [addf_apply, mulf_apply, subf_apply, broadcastTo_1b_ab_apply, broadcast_apply]
  rfl

/-- The threshold: a tenth plus 1.8 times the new threshold state. -/
theorem pay2_at (x5 : Vec Ideal S1x4096 .f32) (x1 x2 : Vec Ideal S128x4096 .f32) (p : Fin 128) (q : Fin 4096) :
    k1_pay2 (F := Ideal) x5 x1 x2 (ix2 p q) = Cert.KSpec.c01 + Cert.KSpec.c18 * k1_pay1 (F := Ideal) x5 x1 x2 (ix2 p q) := by
  unfold k1_pay2
  rfl

/-- The new membrane value: the old one times the membrane decay, plus three times the decay's complement to one times
    the input current, minus the threshold times the spike (times one). -/
theorem pay3_at (x4 x5 : Vec Ideal S1x4096 .f32) (x0 x1 x2 x3 : Vec Ideal S128x4096 .f32) (p : Fin 128) (q : Fin 4096) :
    k1_pay3 (F := Ideal) x4 x5 x0 x1 x2 x3 (ix2 p q)
      = (x0 (ix2 p q) * x4 (ix2 0 q) + ((Cert.KSpec.one - x4 (ix2 0 q)) * Cert.KSpec.c3) * x3 (ix2 p q))
        - (k1_pay2 (F := Ideal) x5 x1 x2 (ix2 p q) * x1 (ix2 p q)) * Cert.KSpec.one := by
  unfold k1_pay3
  rw [shapeCast_self, shapeCast_self]
  simp only [addf_apply, mulf_apply, subf_apply, broadcastTo_1b_ab_apply, broadcast_apply]
  rfl

/-- The new spike: one where the membrane value exceeds the threshold, else zero. -/
theorem pay4_at (x4 x5 : Vec Ideal S1x4096 .f32) (x0 x1 x2 x3 : Vec Ideal S128x4096 .f32) (p : Fin 128) (q : Fin 4096) :
    k1_pay4 (F := Ideal) x4 x5 x0 x1 x2 x3 (ix2 p q)
      = FloatOps.sitofp (F := Ideal) .f32
          ((FloatOps.cmpf (F := Ideal) (φ := .f32) .ogt
            (k1_pay3 (F := Ideal) x4 x5 x0 x1 x2 x3 (ix2 p q) - k1_pay2 (F := Ideal) x5 x1 x2 (ix2 p q)) Cert.KSpec.zero).setWidth 32) := by
  unfold k1_pay4
  rfl

/-! ## The blocks as rows of the arrays -/

variable (V : (c : Dev nD) → (b : Ref sig .tc) → Buf (Elt Ideal) ((c : Thread nD τ).loc b))

theorem hz1 : (![0, 0] : Fin 2 → Nat) = fun _ => 0 := funext fun a => by fin_cases a <;> rfl

/-- The printed block index maps, decided over the eight points: a batch-tiled window is at block `(t, 0)` at point
    `t`, a decay row at block `(0, 0)` throughout. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = t.val ∧ win1_6.index t (1 : Fin 2) = 0 :=
  (by decide +kernel : ∀ t : Fin grid1.N, _)
theorem idx1_7 : ∀ t : Fin cfg1.N, win1_7.index t (0 : Fin 2) = t.val ∧ win1_7.index t (1 : Fin 2) = 0 :=
  (by decide +kernel : ∀ t : Fin grid1.N, _)
theorem idx1_8 : ∀ t : Fin cfg1.N, win1_8.index t (0 : Fin 2) = t.val ∧ win1_8.index t (1 : Fin 2) = 0 :=
  (by decide +kernel : ∀ t : Fin grid1.N, _)

/-- Point `t`'s block of the old membrane array is its rows `128 t … 128 t + 127`. -/
theorem iblk1_0_at (c : Dev nD) (t : Fin cfg1.N) (p : Fin 128) (q : Fin 4096) (r : Fin 1024) (hr : r.val = 128 * t.val + p.val) :
    (iblk1 V c 0 t : Vec Ideal S128x4096 .f32) (ix2 p q) = (V c main_arg1 : S1024x4096.Idx → Elt Ideal .f32) (ix2 r q) := by
  obtain ⟨e0, e1⟩ := idx1_0 t
  unfold iblk1
  rw [View.read_apply]
  show V c main_arg1 _ = V c main_arg1 _
  congr 1
  funext a
  apply Fin.ext
  match a with
  | ⟨0, _⟩ => show win1_0.index t (0 : Fin 2) * 128 + 1 * p.val = r.val; rw [e0, hr]; omega
  | ⟨1, _⟩ => show win1_0.index t (1 : Fin 2) * 4096 + 1 * q.val = q.val; rw [e1]; omega

/-- Point `t`'s block of the old spike array is its rows `128 t … 128 t + 127`. -/
theorem iblk1_1_at (c : Dev nD) (t : Fin cfg1.N) (p : Fin 128) (q : Fin 4096) (r : Fin 1024) (hr : r.val = 128 * t.val + p.val) :
    (iblk1 V c 1 t : Vec Ideal S128x4096 .f32) (ix2 p q) = (V c main_arg2 : S1024x4096.Idx → Elt Ideal .f32) (ix2 r q) := by
  obtain ⟨e0, e1⟩ := idx1_1 t
  unfold iblk1
  rw [View.read_apply]
  show V c main_arg2 _ = V c main_arg2 _
  congr 1
  funext a
  apply Fin.ext
  match a with
  | ⟨0, _⟩ => show win1_1.index t (0 : Fin 2) * 128 + 1 * p.val = r.val; rw [e0, hr]; omega
  | ⟨1, _⟩ => show win1_1.index t (1 : Fin 2) * 4096 + 1 * q.val = q.val; rw [e1]; omega

/-- Point `t`'s block of the old threshold-state array is its rows `128 t … 128 t + 127`. -/
theorem iblk1_2_at (c : Dev nD) (t : Fin cfg1.N) (p : Fin 128) (q : Fin 4096) (r : Fin 1024) (hr : r.val = 128 * t.val + p.val) :
    (iblk1 V c 2 t : Vec Ideal S128x4096 .f32) (ix2 p q) = (V c main_arg3 : S1024x4096.Idx → Elt Ideal .f32) (ix2 r q) := by
  obtain ⟨e0, e1⟩ := idx1_2 t
  unfold iblk1
  rw [View.read_apply]
  show V c main_arg3 _ = V c main_arg3 _
  congr 1
  funext a
  apply Fin.ext
  match a with
  | ⟨0, _⟩ => show win1_2.index t (0 : Fin 2) * 128 + 1 * p.val = r.val; rw [e0, hr]; omega
  | ⟨1, _⟩ => show win1_2.index t (1 : Fin 2) * 4096 + 1 * q.val = q.val; rw [e1]; omega

/-- Point `t`'s block of the input-current array is its rows `128 t … 128 t + 127`. -/
theorem iblk1_3_at (c : Dev nD) (t : Fin cfg1.N) (p : Fin 128) (q : Fin 4096) (r : Fin 1024) (hr : r.val = 128 * t.val + p.val) :
    (iblk1 V c 3 t : Vec Ideal S128x4096 .f32) (ix2 p q) = (V c main_v6 : S1024x4096.Idx → Elt Ideal .f32) (ix2 r q) := by
  obtain ⟨e0, e1⟩ := idx1_3 t
  unfold iblk1
  rw [View.read_apply]
  show V c main_v6 _ = V c main_v6 _
  congr 1
  funext a
  apply Fin.ext
  match a with
  | ⟨0, _⟩ => show win1_3.index t (0 : Fin 2) * 128 + 1 * p.val = r.val; rw [e0, hr]; omega
  | ⟨1, _⟩ => show win1_3.index t (1 : Fin 2) * 4096 + 1 * q.val = q.val; rw [e1]; omega

/-- Every point's block of the membrane decay row is the whole row. -/
theorem iblk1_4_at (c : Dev nD) (t : Fin cfg1.N) (q : Fin 4096) :
    (iblk1 V c 4 t : Vec Ideal S1x4096 .f32) (ix2 0 q) = (V c main_v13 : S1x4096.Idx → Elt Ideal .f32) (ix2 0 q) := by
  obtain ⟨e0, e1⟩ := idx1_4 t
  unfold iblk1
  rw [View.read_apply]
  show V c main_v13 _ = V c main_v13 _
  congr 1
  funext a
  apply Fin.ext
  match a with
  | ⟨0, _⟩ => show win1_4.index t (0 : Fin 2) * 1 + 1 * (0 : Fin 1).val = (0 : Fin 1).val; rw [e0]; rfl
  | ⟨1, _⟩ => show win1_4.index t (1 : Fin 2) * 4096 + 1 * q.val = q.val; rw [e1]; omega

/-- Every point's block of the adaptation decay row is the whole row. -/
theorem iblk1_5_at (c : Dev nD) (t : Fin cfg1.N) (q : Fin 4096) :
    (iblk1 V c 5 t : Vec Ideal S1x4096 .f32) (ix2 0 q) = (V c main_v20 : S1x4096.Idx → Elt Ideal .f32) (ix2 0 q) := by
  obtain ⟨e0, e1⟩ := idx1_5 t
  unfold iblk1
  rw [View.read_apply]
  show V c main_v20 _ = V c main_v20 _
  congr 1
  funext a
  apply Fin.ext
  match a with
  | ⟨0, _⟩ => show win1_5.index t (0 : Fin 2) * 1 + 1 * (0 : Fin 1).val = (0 : Fin 1).val; rw [e0]; rfl
  | ⟨1, _⟩ => show win1_5.index t (1 : Fin 2) * 4096 + 1 * q.val = q.val; rw [e1]; omega

/-- Entry `(p, q)` of point `t`'s block of the new membrane array is its entry `(128 t + p, q)`. -/
theorem emb1_6 (t : Fin cfg1.N) (p : Fin 128) (q : Fin 4096) (r : Fin 1024) (hr : r.val = 128 * t.val + p.val) :
    ((cfg1.win 6).blk t).view.emb (ix2 p q : S128x4096.Idx) = (ix2 r q : S1024x4096.Idx) := by
  obtain ⟨e0, e1⟩ := idx1_6 t
  funext a
  apply Fin.ext
  match a with
  | ⟨0, _⟩ => show win1_6.index t (0 : Fin 2) * 128 + 1 * p.val = r.val; rw [e0, hr]; omega
  | ⟨1, _⟩ => show win1_6.index t (1 : Fin 2) * 4096 + 1 * q.val = q.val; rw [e1]; omega

/-- Entry `(p, q)` of point `t`'s block of the new spike array is its entry `(128 t + p, q)`. -/
theorem emb1_7 (t : Fin cfg1.N) (p : Fin 128) (q : Fin 4096) (r : Fin 1024) (hr : r.val = 128 * t.val + p.val) :
    ((cfg1.win 7).blk t).view.emb (ix2 p q : S128x4096.Idx) = (ix2 r q : S1024x4096.Idx) := by
  obtain ⟨e0, e1⟩ := idx1_7 t
  funext a
  apply Fin.ext
  match a with
  | ⟨0, _⟩ => show win1_7.index t (0 : Fin 2) * 128 + 1 * p.val = r.val; rw [e0, hr]; omega
  | ⟨1, _⟩ => show win1_7.index t (1 : Fin 2) * 4096 + 1 * q.val = q.val; rw [e1]; omega

/-- Entry `(p, q)` of point `t`'s block of the new threshold-state array is its entry `(128 t + p, q)`. -/
theorem emb1_8 (t : Fin cfg1.N) (p : Fin 128) (q : Fin 4096) (r : Fin 1024) (hr : r.val = 128 * t.val + p.val) :
    ((cfg1.win 8).blk t).view.emb (ix2 p q : S128x4096.Idx) = (ix2 r q : S1024x4096.Idx) := by
  obtain ⟨e0, e1⟩ := idx1_8 t
  funext a
  apply Fin.ext
  match a with
  | ⟨0, _⟩ => show win1_8.index t (0 : Fin 2) * 128 + 1 * p.val = r.val; rw [e0, hr]; omega
  | ⟨1, _⟩ => show win1_8.index t (1 : Fin 2) * 4096 + 1 * q.val = q.val; rw [e1]; omega

/-! ## The body's results against the specification, entry by entry -/

/-- Where the blocks hold row `r` of the arrays, the body's new threshold state at `(p, q)` is the specification's at `(r, q)`. -/
theorem bNew_blk (A1 A2 : FVec Ideal Cert.KSpec.A1024x4096 .f32) (A5 : FVec Ideal Cert.KSpec.A1x4096 .f32)
    (x1 x2 : Vec Ideal S128x4096 .f32) (x5 : Vec Ideal S1x4096 .f32) (p : Fin 128) (q : Fin 4096) (r : Fin 1024)
    (h1 : x1 (ix2 p q) = A1 (ix2 r q)) (h2 : x2 (ix2 p q) = A2 (ix2 r q)) (h5 : x5 (ix2 0 q) = A5 (ix2 0 q)) :
    k1_pay1 (F := Ideal) x5 x1 x2 (ix2 p q) = Cert.KSpec.bNew A1 A2 A5 (ix2 r q) := by
  rw [pay1_at, h1, h2, h5]
  rfl

/-- The same of the threshold. -/
theorem thr_blk (A1 A2 : FVec Ideal Cert.KSpec.A1024x4096 .f32) (A5 : FVec Ideal Cert.KSpec.A1x4096 .f32)
    (x1 x2 : Vec Ideal S128x4096 .f32) (x5 : Vec Ideal S1x4096 .f32) (p : Fin 128) (q : Fin 4096) (r : Fin 1024)
    (h1 : x1 (ix2 p q) = A1 (ix2 r q)) (h2 : x2 (ix2 p q) = A2 (ix2 r q)) (h5 : x5 (ix2 0 q) = A5 (ix2 0 q)) :
    k1_pay2 (F := Ideal) x5 x1 x2 (ix2 p q) = Cert.KSpec.thr A1 A2 A5 (ix2 r q) := by
  rw [pay2_at, bNew_blk A1 A2 A5 x1 x2 x5 p q r h1 h2 h5]
  rfl

/-- The same of the new membrane value. -/
theorem memNew_blk (A0 A1 A2 A3 : FVec Ideal Cert.KSpec.A1024x4096 .f32) (A4 A5 : FVec Ideal Cert.KSpec.A1x4096 .f32)
    (x0 x1 x2 x3 : Vec Ideal S128x4096 .f32) (x4 x5 : Vec Ideal S1x4096 .f32) (p : Fin 128) (q : Fin 4096) (r : Fin 1024)
    (h0 : x0 (ix2 p q) = A0 (ix2 r q)) (h1 : x1 (ix2 p q) = A1 (ix2 r q)) (h2 : x2 (ix2 p q) = A2 (ix2 r q)) (h3 : x3 (ix2 p q) = A3 (ix2 r q))
    (h4 : x4 (ix2 0 q) = A4 (ix2 0 q)) (h5 : x5 (ix2 0 q) = A5 (ix2 0 q)) :
    k1_pay3 (F := Ideal) x4 x5 x0 x1 x2 x3 (ix2 p q) = Cert.KSpec.memNew A0 A1 A2 A3 A4 A5 (ix2 r q) := by
  rw [pay3_at, thr_blk A1 A2 A5 x1 x2 x5 p q r h1 h2 h5, h0, h1, h3, h4]
  rfl

/-- The same of the new spike. -/
theorem spikeNew_blk (A0 A1 A2 A3 : FVec Ideal Cert.KSpec.A1024x4096 .f32) (A4 A5 : FVec Ideal Cert.KSpec.A1x4096 .f32)
    (x0 x1 x2 x3 : Vec Ideal S128x4096 .f32) (x4 x5 : Vec Ideal S1x4096 .f32) (p : Fin 128) (q : Fin 4096) (r : Fin 1024)
    (h0 : x0 (ix2 p q) = A0 (ix2 r q)) (h1 : x1 (ix2 p q) = A1 (ix2 r q)) (h2 : x2 (ix2 p q) = A2 (ix2 r q)) (h3 : x3 (ix2 p q) = A3 (ix2 r q))
    (h4 : x4 (ix2 0 q) = A4 (ix2 0 q)) (h5 : x5 (ix2 0 q) = A5 (ix2 0 q)) :
    k1_pay4 (F := Ideal) x4 x5 x0 x1 x2 x3 (ix2 p q) = Cert.KSpec.spikeNew A0 A1 A2 A3 A4 A5 (ix2 r q) := by
  rw [pay4_at, memNew_blk A0 A1 A2 A3 A4 A5 x0 x1 x2 x3 x4 x5 p q r h0 h1 h2 h3 h4 h5, thr_blk A1 A2 A5 x1 x2 x5 p q r h1 h2 h5]
  rfl

/-! ## What each point writes back -/

/-- What point `t` writes back to the new membrane array is block `t` of the specification's array. -/
theorem flushed1_6_eq (c : Dev nD) (t : Fin cfg1.N) :
    (dat1 (F := Ideal) V c).flushed 6 t
      = ((cfg1.win 6).blk t).view.read (Elt Ideal) (Cert.KSpec.memNew (V c main_arg1) (V c main_arg2) (V c main_arg3) (V c main_v6) (V c main_v13) (V c main_v20)) := by
  show (cfg1.win 6).cut (grid1.coords t) ((dat1 V c).after 6 t) = _
  rw [after1_6]
  unfold out1_6
  rw [View.canon_unit_zero hz1]
  simp only [View.ld_unit_zero (S := S128x4096) hz1, View.ld_unit_zero (S := S1x4096) hz1]
  refine funext fun (j : S128x4096.Idx) => ?_
  obtain ⟨p, q, rfl⟩ : ∃ (p : Fin 128) (q : Fin 4096), j = ix2 p q := ⟨j 0, j 1, eq_ix2 j⟩
  have ht : t.val < 8 := lt_of_lt_of_eq t.isLt N_1
  obtain ⟨r, hr⟩ : ∃ r : Fin 1024, r.val = 128 * t.val + p.val := ⟨⟨128 * t.val + p.val, by have := p.isLt; omega⟩, rfl⟩
  show k1_pay3 (F := Ideal) (iblk1 V c 4 t) (iblk1 V c 5 t) (iblk1 V c 0 t) (iblk1 V c 1 t) (iblk1 V c 2 t) (iblk1 V c 3 t) (ix2 p q)
    = Cert.KSpec.memNew (V c main_arg1) (V c main_arg2) (V c main_arg3) (V c main_v6) (V c main_v13) (V c main_v20) (((cfg1.win 6).blk t).view.emb (ix2 p q : S128x4096.Idx))
  rw [emb1_6 t p q r hr]
  exact memNew_blk (V c main_arg1) (V c main_arg2) (V c main_arg3) (V c main_v6) (V c main_v13) (V c main_v20) (iblk1 V c 0 t) (iblk1 V c 1 t) (iblk1 V c 2 t) (iblk1 V c 3 t) (iblk1 V c 4 t) (iblk1 V c 5 t) p q r (iblk1_0_at V c t p q r hr) (iblk1_1_at V c t p q r hr) (iblk1_2_at V c t p q r hr) (iblk1_3_at V c t p q r hr) (iblk1_4_at V c t q) (iblk1_5_at V c t q)

/-- What point `t` writes back to the new spike array is block `t` of the specification's array. -/
theorem flushed1_7_eq (c : Dev nD) (t : Fin cfg1.N) :
    (dat1 (F := Ideal) V c).flushed 7 t
      = ((cfg1.win 7).blk t).view.read (Elt Ideal) (Cert.KSpec.spikeNew (V c main_arg1) (V c main_arg2) (V c main_arg3) (V c main_v6) (V c main_v13) (V c main_v20)) := by
  show (cfg1.win 7).cut (grid1.coords t) ((dat1 V c).after 7 t) = _
  rw [after1_7]
  unfold out1_7
  rw [View.canon_unit_zero hz1]
  simp only [View.ld_unit_zero (S := S128x4096) hz1, View.ld_unit_zero (S := S1x4096) hz1]
  refine funext fun (j : S128x4096.Idx) => ?_
  obtain ⟨p, q, rfl⟩ : ∃ (p : Fin 128) (q : Fin 4096), j = ix2 p q := ⟨j 0, j 1, eq_ix2 j⟩
  have ht : t.val < 8 := lt_of_lt_of_eq t.isLt N_1
  obtain ⟨r, hr⟩ : ∃ r : Fin 1024, r.val = 128 * t.val + p.val := ⟨⟨128 * t.val + p.val, by have := p.isLt; omega⟩, rfl⟩
  show k1_pay4 (F := Ideal) (iblk1 V c 4 t) (iblk1 V c 5 t) (iblk1 V c 0 t) (iblk1 V c 1 t) (iblk1 V c 2 t) (iblk1 V c 3 t) (ix2 p q)
    = Cert.KSpec.spikeNew (V c main_arg1) (V c main_arg2) (V c main_arg3) (V c main_v6) (V c main_v13) (V c main_v20) (((cfg1.win 7).blk t).view.emb (ix2 p q : S128x4096.Idx))
  rw [emb1_7 t p q r hr]
  exact spikeNew_blk (V c main_arg1) (V c main_arg2) (V c main_arg3) (V c main_v6) (V c main_v13) (V c main_v20) (iblk1 V c 0 t) (iblk1 V c 1 t) (iblk1 V c 2 t) (iblk1 V c 3 t) (iblk1 V c 4 t) (iblk1 V c 5 t) p q r (iblk1_0_at V c t p q r hr) (iblk1_1_at V c t p q r hr) (iblk1_2_at V c t p q r hr) (iblk1_3_at V c t p q r hr) (iblk1_4_at V c t q) (iblk1_5_at V c t q)

/-- What point `t` writes back to the new threshold-state array is block `t` of the specification's array. -/
theorem flushed1_8_eq (c : Dev nD) (t : Fin cfg1.N) :
    (dat1 (F := Ideal) V c).flushed 8 t
      = ((cfg1.win 8).blk t).view.read (Elt Ideal) (Cert.KSpec.bNew (V c main_arg2) (V c main_arg3) (V c main_v20)) := by
  show (cfg1.win 8).cut (grid1.coords t) ((dat1 V c).after 8 t) = _
  rw [after1_8]
  unfold out1_8
  rw [View.canon_unit_zero hz1]
  simp only [View.ld_unit_zero (S := S128x4096) hz1, View.ld_unit_zero (S := S1x4096) hz1]
  refine funext fun (j : S128x4096.Idx) => ?_
  obtain ⟨p, q, rfl⟩ : ∃ (p : Fin 128) (q : Fin 4096), j = ix2 p q := ⟨j 0, j 1, eq_ix2 j⟩
  have ht : t.val < 8 := lt_of_lt_of_eq t.isLt N_1
  obtain ⟨r, hr⟩ : ∃ r : Fin 1024, r.val = 128 * t.val + p.val := ⟨⟨128 * t.val + p.val, by have := p.isLt; omega⟩, rfl⟩
  show k1_pay1 (F := Ideal) (iblk1 V c 5 t) (iblk1 V c 1 t) (iblk1 V c 2 t) (ix2 p q)
    = Cert.KSpec.bNew (V c main_arg2) (V c main_arg3) (V c main_v20) (((cfg1.win 8).blk t).view.emb (ix2 p q : S128x4096.Idx))
  rw [emb1_8 t p q r hr]
  exact bNew_blk (V c main_arg2) (V c main_arg3) (V c main_v20) (iblk1 V c 1 t) (iblk1 V c 2 t) (iblk1 V c 5 t) p q r (iblk1_1_at V c t p q r hr) (iblk1_2_at V c t p q r hr) (iblk1_5_at V c t q)

/-! ## From blocks to arrays -/

/-- An entry of the array is in point `t`'s block iff each coordinate is in the block's range on its axis. -/
theorem mem_blk1_6 (t : Fin cfg1.N) (i : S1024x4096.Idx) :
    i ∈ ((cfg1.win 6).blk t).view.set ↔ ∀ a : Fin 2, win1_6.index t a * S128x4096.size a ≤ (i a).val ∧ (i a).val < win1_6.index t a * S128x4096.size a + S128x4096.size a := by
  show i ∈ ((View.whole main_v21_0).slice (win1_6.rect t)).set ↔ _
  rw [View.set_slice_whole, Rect.mem_set_unit]
  exact Iff.rfl

/-- Every entry is in some point's block: row `r` in that of point `r / 128`. -/
theorem covered1_6 (i : S1024x4096.Idx) :
    ∃ t : Fin cfg1.N, (cfg1.win 6).flush t = true ∧ i ∈ ((cfg1.win 6).blk t).view.set := by
  have hi0 : (i 0).val < 1024 := (i 0).isLt
  have hi1 : (i 1).val < 4096 := (i 1).isLt
  obtain ⟨t, ht⟩ : ∃ t : Fin cfg1.N, t.val = (i 0).val / 128 :=
    ⟨⟨(i 0).val / 128, lt_of_lt_of_eq (by omega : (i 0).val / 128 < 8) N_1.symm⟩, rfl⟩
  obtain ⟨e0, e1⟩ := idx1_6 t
  refine ⟨t, flush1_6 t, ?_⟩
  rw [mem_blk1_6]
  intro a
  match a with
  | ⟨0, _⟩ => show win1_6.index t (0 : Fin 2) * 128 ≤ (i 0).val ∧ (i 0).val < win1_6.index t (0 : Fin 2) * 128 + 128; rw [e0, ht]; omega
  | ⟨1, _⟩ => show win1_6.index t (1 : Fin 2) * 4096 ≤ (i 1).val ∧ (i 1).val < win1_6.index t (1 : Fin 2) * 4096 + 4096; rw [e1]; omega

/-- The new membrane array after the region is the specification's, of the arrays the region was entered with. -/
theorem final1_6 (c : Dev nD) :
    (dat1 (F := Ideal) V c).arrAt 6 cfg1.N = Cert.KSpec.memNew (V c main_arg1) (V c main_arg2) (V c main_arg3) (V c main_v6) (V c main_v13) (V c main_v20) :=
  (dat1 (F := Ideal) V c).arrAt_eq_of_cover 6 (Cert.KSpec.memNew (V c main_arg1) (V c main_arg2) (V c main_arg3) (V c main_v6) (V c main_v13) (V c main_v20))
    (fun t _ => flushed1_6_eq V c t) covered1_6

/-- An entry of the array is in point `t`'s block iff each coordinate is in the block's range on its axis. -/
theorem mem_blk1_7 (t : Fin cfg1.N) (i : S1024x4096.Idx) :
    i ∈ ((cfg1.win 7).blk t).view.set ↔ ∀ a : Fin 2, win1_7.index t a * S128x4096.size a ≤ (i a).val ∧ (i a).val < win1_7.index t a * S128x4096.size a + S128x4096.size a := by
  show i ∈ ((View.whole main_v21_1).slice (win1_7.rect t)).set ↔ _
  rw [View.set_slice_whole, Rect.mem_set_unit]
  exact Iff.rfl

/-- Every entry is in some point's block: row `r` in that of point `r / 128`. -/
theorem covered1_7 (i : S1024x4096.Idx) :
    ∃ t : Fin cfg1.N, (cfg1.win 7).flush t = true ∧ i ∈ ((cfg1.win 7).blk t).view.set := by
  have hi0 : (i 0).val < 1024 := (i 0).isLt
  have hi1 : (i 1).val < 4096 := (i 1).isLt
  obtain ⟨t, ht⟩ : ∃ t : Fin cfg1.N, t.val = (i 0).val / 128 :=
    ⟨⟨(i 0).val / 128, lt_of_lt_of_eq (by omega : (i 0).val / 128 < 8) N_1.symm⟩, rfl⟩
  obtain ⟨e0, e1⟩ := idx1_7 t
  refine ⟨t, flush1_7 t, ?_⟩
  rw [mem_blk1_7]
  intro a
  match a with
  | ⟨0, _⟩ => show win1_7.index t (0 : Fin 2) * 128 ≤ (i 0).val ∧ (i 0).val < win1_7.index t (0 : Fin 2) * 128 + 128; rw [e0, ht]; omega
  | ⟨1, _⟩ => show win1_7.index t (1 : Fin 2) * 4096 ≤ (i 1).val ∧ (i 1).val < win1_7.index t (1 : Fin 2) * 4096 + 4096; rw [e1]; omega

/-- The new spike array after the region is the specification's, of the arrays the region was entered with. -/
theorem final1_7 (c : Dev nD) :
    (dat1 (F := Ideal) V c).arrAt 7 cfg1.N = Cert.KSpec.spikeNew (V c main_arg1) (V c main_arg2) (V c main_arg3) (V c main_v6) (V c main_v13) (V c main_v20) :=
  (dat1 (F := Ideal) V c).arrAt_eq_of_cover 7 (Cert.KSpec.spikeNew (V c main_arg1) (V c main_arg2) (V c main_arg3) (V c main_v6) (V c main_v13) (V c main_v20))
    (fun t _ => flushed1_7_eq V c t) covered1_7

/-- An entry of the array is in point `t`'s block iff each coordinate is in the block's range on its axis. -/
theorem mem_blk1_8 (t : Fin cfg1.N) (i : S1024x4096.Idx) :
    i ∈ ((cfg1.win 8).blk t).view.set ↔ ∀ a : Fin 2, win1_8.index t a * S128x4096.size a ≤ (i a).val ∧ (i a).val < win1_8.index t a * S128x4096.size a + S128x4096.size a := by
  show i ∈ ((View.whole main_v21_2).slice (win1_8.rect t)).set ↔ _
  rw [View.set_slice_whole, Rect.mem_set_unit]
  exact Iff.rfl

/-- Every entry is in some point's block: row `r` in that of point `r / 128`. -/
theorem covered1_8 (i : S1024x4096.Idx) :
    ∃ t : Fin cfg1.N, (cfg1.win 8).flush t = true ∧ i ∈ ((cfg1.win 8).blk t).view.set := by
  have hi0 : (i 0).val < 1024 := (i 0).isLt
  have hi1 : (i 1).val < 4096 := (i 1).isLt
  obtain ⟨t, ht⟩ : ∃ t : Fin cfg1.N, t.val = (i 0).val / 128 :=
    ⟨⟨(i 0).val / 128, lt_of_lt_of_eq (by omega : (i 0).val / 128 < 8) N_1.symm⟩, rfl⟩
  obtain ⟨e0, e1⟩ := idx1_8 t
  refine ⟨t, flush1_8 t, ?_⟩
  rw [mem_blk1_8]
  intro a
  match a with
  | ⟨0, _⟩ => show win1_8.index t (0 : Fin 2) * 128 ≤ (i 0).val ∧ (i 0).val < win1_8.index t (0 : Fin 2) * 128 + 128; rw [e0, ht]; omega
  | ⟨1, _⟩ => show win1_8.index t (1 : Fin 2) * 4096 ≤ (i 1).val ∧ (i 1).val < win1_8.index t (1 : Fin 2) * 4096 + 4096; rw [e1]; omega

/-- The new threshold-state array after the region is the specification's, of the arrays the region was entered with. -/
theorem final1_8 (c : Dev nD) :
    (dat1 (F := Ideal) V c).arrAt 8 cfg1.N = Cert.KSpec.bNew (V c main_arg2) (V c main_arg3) (V c main_v20) :=
  (dat1 (F := Ideal) V c).arrAt_eq_of_cover 8 (Cert.KSpec.bNew (V c main_arg2) (V c main_arg3) (V c main_v20))
    (fun t _ => flushed1_8_eq V c t) covered1_8

end Cert.KernelIdeal.Hand

end
-- ==== Proof.Reg0ValuePieces.lean ====
/-
  What each case of the first phase's body leaves in the two accumulator buffers, as the body's arithmetic applied to the
  blocks it loaded.  Every store of this body writes a whole [512, 2048] buffer, so a buffer ends with the payload of
  the last store into it; a load that follows a store into the same buffer reads that store's payload.  At the first
  column tile the accumulator that the products are added to is the zero block just stored; at a middle tile it is
  what the buffer held; at the last tile the bias row is added to the sum just stored.
-/
import proofs.«124992_j59777354826392_1_alg».proof.Proof.Reg0Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-buffer rectangle. -/
theorem hz2 : (![0, 0] : Fin 2 → Nat) = fun _ => 0 := funext fun a => by fin_cases a <;> rfl

/-- First tile, first accumulator: the three products of the tile added to the zero block. -/
theorem out_A_10 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : cond0_0 i) (hc1 : ¬cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) :
    out0_A_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 = k0_pay9 x0 x1 x2 x3 x4 x5 (k0_pay4 (F := F)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9)]
  unfold kernelRun0_A
  dsimp only
  sl_unfold_words
  rw [View.canon_cons_unit_zero (S := S512x2048) hz2, View.readCov_unit_zero (S := S512x2048) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x128) hz2, View.ld_unit_zero (S := S2048x128) hz2, View.ld_unit_zero (S := S1x2048) hz2, View.ld_unit_zero (S := S512x2048) hz2]

/-- First tile, second accumulator: the two products of the tile added to the zero block. -/
theorem out_A_11 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : cond0_0 i) (hc1 : ¬cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) :
    out0_A_11 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 = k0_pay1 (k0_pay8 x1 x2 x6 x7) (k0_pay5 (F := F)) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9)]
  unfold kernelRun0_A
  dsimp only
  sl_unfold_words
  rw [View.canon_cons_unit_zero (S := S512x2048) hz2, View.readCov_unit_zero (S := S512x2048) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x128) hz2, View.ld_unit_zero (S := S2048x128) hz2, View.ld_unit_zero (S := S1x2048) hz2, View.ld_unit_zero (S := S512x2048) hz2]

/-- Middle tile, first accumulator: the tile's products added to what the buffer held. -/
theorem out_B_10 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc1 : ¬cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) (xo12 xo13 : Vec F S512x2048 .f32) :
    out0_B_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13 = k0_pay9 x0 x1 x2 x3 x4 x5 xo12 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13)]
  unfold kernelRun0_B
  dsimp only
  sl_unfold_words
  rw [View.canon_unit_zero (S := S512x2048) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x128) hz2, View.ld_unit_zero (S := S2048x128) hz2, View.ld_unit_zero (S := S1x2048) hz2, View.ld_unit_zero (S := S512x2048) hz2]

/-- Middle tile, second accumulator. -/
theorem out_B_11 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc1 : ¬cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) (xo12 xo13 : Vec F S512x2048 .f32) :
    out0_B_11 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13 = k0_pay1 (k0_pay8 x1 x2 x6 x7) xo13 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13)]
  unfold kernelRun0_B
  dsimp only
  sl_unfold_words
  rw [View.canon_unit_zero (S := S512x2048) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x128) hz2, View.ld_unit_zero (S := S2048x128) hz2, View.ld_unit_zero (S := S1x2048) hz2, View.ld_unit_zero (S := S512x2048) hz2]

/-- Last tile, first accumulator: the tile's products added to what the buffer held, then the bias row added to every row. -/
theorem out_C_10 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc1 : cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) (xo12 xo13 : Vec F S512x2048 .f32) :
    out0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13 = k0_pay2 (k0_pay9 x0 x1 x2 x3 x4 x5 xo12) x8 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13)]
  unfold kernelRun0_C
  dsimp only
  sl_unfold_words
  rw [View.canon_cons_unit_zero (S := S512x2048) hz2, View.readCov_unit_zero (S := S512x2048) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x128) hz2, View.ld_unit_zero (S := S2048x128) hz2, View.ld_unit_zero (S := S1x2048) hz2, View.ld_unit_zero (S := S512x2048) hz2]

/-- Last tile, second accumulator. -/
theorem out_C_11 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc1 : cond0_1 i)
    (x0 : Vec F S512x128 .f32) (x1 : Vec F S512x128 .f32) (x2 : Vec F S512x128 .f32) (x3 : Vec F S2048x128 .f32) (x4 : Vec F S2048x128 .f32) (x5 : Vec F S2048x128 .f32) (x6 : Vec F S2048x128 .f32) (x7 : Vec F S2048x128 .f32) (x8 : Vec F S1x2048 .f32) (x9 : Vec F S1x2048 .f32) (xo12 xo13 : Vec F S512x2048 .f32) :
    out0_C_11 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13 = k0_pay3 (k0_pay1 (k0_pay8 x1 x2 x6 x7) xo13) x9 := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13)]
  unfold kernelRun0_C
  dsimp only
  sl_unfold_words
  rw [View.canon_cons_unit_zero (S := S512x2048) hz2, View.readCov_unit_zero (S := S512x2048) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x128) hz2, View.ld_unit_zero (S := S2048x128) hz2, View.ld_unit_zero (S := S1x2048) hz2, View.ld_unit_zero (S := S512x2048) hz2]

end Cert.KernelIdeal.Hand

end
-- ==== Proof.Reg0ValuePay.lean ====
/-
  The arithmetic of the first phase's body read at one entry (p, q) of a [512, 2048] block, over the extended reals.
  Each matrix product of the body contracts the second axis of both operands (128 columns) into a zero accumulator, so
  its entry (p, q) is the sum over the 128 columns of row p of the activations times row q of the weights; the
  roundings of the operands are the identity here.  The accumulate steps add these sums to the block the buffer held,
  and the last step adds entry q of the bias row to every row.
-/
import proofs.«124992_j59777354826392_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

/-! ## One matrix product at an entry -/

theorem lhsRow (j : S512x2048.Idx) (k : dot_S512x128_S2048x128_S512x2048_1_1_0_0_n_n.contr.Idx) : (dot_S512x128_S2048x128_S512x2048_1_1_0_0_n_n.lhsIdx j k 0).val = (j 0).val := by
  unfold DotDims.lhsIdx
  rw [dif_neg (show ¬(0 : Fin S512x128.rank) ∈ dot_S512x128_S2048x128_S512x2048_1_1_0_0_n_n.lhsBatch by decide), dif_pos (show (0 : Fin S512x128.rank) ∈ dot_S512x128_S2048x128_S512x2048_1_1_0_0_n_n.lhsNonContracting by decide)]
  rfl
theorem lhsCol (j : S512x2048.Idx) (k : dot_S512x128_S2048x128_S512x2048_1_1_0_0_n_n.contr.Idx) : (dot_S512x128_S2048x128_S512x2048_1_1_0_0_n_n.lhsIdx j k 1).val = (k ⟨0, by decide⟩).val :=
  dot_S512x128_S2048x128_S512x2048_1_1_0_0_n_n.lhsIdx_val_of_single rfl j k
theorem rhsRow (j : S512x2048.Idx) (k : dot_S512x128_S2048x128_S512x2048_1_1_0_0_n_n.contr.Idx) : (dot_S512x128_S2048x128_S512x2048_1_1_0_0_n_n.rhsIdx j k 0).val = (j 1).val := by
  unfold DotDims.rhsIdx
  rw [dif_neg (show ¬(0 : Fin S2048x128.rank) ∈ dot_S512x128_S2048x128_S512x2048_1_1_0_0_n_n.rhsBatch by decide), dif_pos (show (0 : Fin S2048x128.rank) ∈ dot_S512x128_S2048x128_S512x2048_1_1_0_0_n_n.rhsNonContracting by decide)]
  rfl
theorem rhsCol (j : S512x2048.Idx) (k : dot_S512x128_S2048x128_S512x2048_1_1_0_0_n_n.contr.Idx) : (dot_S512x128_S2048x128_S512x2048_1_1_0_0_n_n.rhsIdx j k 1).val = (k ⟨0, by decide⟩).val :=
  dot_S512x128_S2048x128_S512x2048_1_1_0_0_n_n.rhsIdx_val_of_single rfl j k

/-- A product of a [512, 128] block of activations with a [2048, 128] block of weights, both contracted along their
    128 columns, into the zero block: entry (p, q) is the sum over the columns of row p times row q. -/
theorem mm_apply (a : FVec Ideal S512x128 .bf16) (w : FVec Ideal S2048x128 .bf16) (p : Fin 512) (q : Fin 2048) :
    matmul dot_S512x128_S2048x128_S512x2048_1_1_0_0_n_n none a w (constant (F := Ideal) S512x2048 .f32 0x00000000#32) (ix2 p q) = ∑ kk : Fin 128, a (ix2 p kk) * w (ix2 q kk) := by
  refine (Ideal.matmul_constant_zero_apply dot_S512x128_S2048x128_S512x2048_1_1_0_0_n_n none a w (ix2 p q)).trans ?_
  rw [← Equiv.sum_comp (contrEquiv1 dot_S512x128_S2048x128_S512x2048_1_1_0_0_n_n 128 rfl rfl).symm]
  refine Finset.sum_congr rfl fun k _ => ?_
  have hk := contrEquiv1_symm_val dot_S512x128_S2048x128_S512x2048_1_1_0_0_n_n 128 rfl rfl k
  have el : dot_S512x128_S2048x128_S512x2048_1_1_0_0_n_n.lhsIdx (ix2 p q) ((contrEquiv1 dot_S512x128_S2048x128_S512x2048_1_1_0_0_n_n 128 rfl rfl).symm k) = ix2 p k := funext fun a => Fin.ext (by
    match a with
    | ⟨0, _⟩ => exact lhsRow _ _
    | ⟨1, _⟩ => exact (lhsCol _ _).trans hk)
  have er : dot_S512x128_S2048x128_S512x2048_1_1_0_0_n_n.rhsIdx (ix2 p q) ((contrEquiv1 dot_S512x128_S2048x128_S512x2048_1_1_0_0_n_n 128 rfl rfl).symm k) = ix2 q k := funext fun a => Fin.ext (by
    match a with
    | ⟨0, _⟩ => exact rhsRow _ _
    | ⟨1, _⟩ => exact (rhsCol _ _).trans hk)
  rw [el, er]

/-! ## The payloads at an entry -/

/-- The first accumulator's step: the held block plus (x·Wx + spk_in·Wri) + spk_out·Woi of the tile. -/
theorem pay9_apply (x0 x1 x2 : Vec Ideal S512x128 .f32) (x3 x4 x5 : Vec Ideal S2048x128 .f32) (v27 : Vec Ideal S512x2048 .f32)
    (p : Fin 512) (q : Fin 2048) :
    k0_pay9 (F := Ideal) x0 x1 x2 x3 x4 x5 v27 (ix2 p q)
      = v27 (ix2 p q) + (((∑ kk : Fin 128, x0 (ix2 p kk) * x3 (ix2 q kk)) + (∑ kk : Fin 128, x2 (ix2 p kk) * x4 (ix2 q kk))) + (∑ kk : Fin 128, x1 (ix2 p kk) * x5 (ix2 q kk))) := by
  have e0 : shapeCast S512x2048 v27 shapeCasts_S512x2048_S512x2048 (ix2 p q) = v27 (ix2 p q) := congrFun (shapeCast_self v27 _) _
  have e1 := mm_apply (truncf .bf16 x0 bitsLt_bf16_f32) (truncf .bf16 x3 bitsLt_bf16_f32) p q
  have e2 := mm_apply (truncf .bf16 x2 bitsLt_bf16_f32) (truncf .bf16 x4 bitsLt_bf16_f32) p q
  have e3 := mm_apply (truncf .bf16 x1 bitsLt_bf16_f32) (truncf .bf16 x5 bitsLt_bf16_f32) p q
  show shapeCast S512x2048 v27 shapeCasts_S512x2048_S512x2048 (ix2 p q)
      + ((matmul dot_S512x128_S2048x128_S512x2048_1_1_0_0_n_n none (truncf .bf16 x0 bitsLt_bf16_f32) (truncf .bf16 x3 bitsLt_bf16_f32) (constant (F := Ideal) S512x2048 .f32 0x00000000#32) (ix2 p q) + matmul dot_S512x128_S2048x128_S512x2048_1_1_0_0_n_n none (truncf .bf16 x2 bitsLt_bf16_f32) (truncf .bf16 x4 bitsLt_bf16_f32) (constant (F := Ideal) S512x2048 .f32 0x00000000#32) (ix2 p q)) + matmul dot_S512x128_S2048x128_S512x2048_1_1_0_0_n_n none (truncf .bf16 x1 bitsLt_bf16_f32) (truncf .bf16 x5 bitsLt_bf16_f32) (constant (F := Ideal) S512x2048 .f32 0x00000000#32) (ix2 p q)) = _
  rw [e0, e1, e2, e3]
  rfl

/-- The second accumulator's products: spk_out·Wro + spk_in·Wio of the tile. -/
theorem pay8_apply (x1 x2 : Vec Ideal S512x128 .f32) (x6 x7 : Vec Ideal S2048x128 .f32) (p : Fin 512) (q : Fin 2048) :
    k0_pay8 (F := Ideal) x1 x2 x6 x7 (ix2 p q) = (∑ kk : Fin 128, x1 (ix2 p kk) * x6 (ix2 q kk)) + (∑ kk : Fin 128, x2 (ix2 p kk) * x7 (ix2 q kk)) := by
  have e1 := mm_apply (truncf .bf16 x1 bitsLt_bf16_f32) (truncf .bf16 x6 bitsLt_bf16_f32) p q
  have e2 := mm_apply (truncf .bf16 x2 bitsLt_bf16_f32) (truncf .bf16 x7 bitsLt_bf16_f32) p q
  show matmul dot_S512x128_S2048x128_S512x2048_1_1_0_0_n_n none (truncf .bf16 x1 bitsLt_bf16_f32) (truncf .bf16 x6 bitsLt_bf16_f32) (constant (F := Ideal) S512x2048 .f32 0x00000000#32) (ix2 p q) + matmul dot_S512x128_S2048x128_S512x2048_1_1_0_0_n_n none (truncf .bf16 x2 bitsLt_bf16_f32) (truncf .bf16 x7 bitsLt_bf16_f32) (constant (F := Ideal) S512x2048 .f32 0x00000000#32) (ix2 p q) = _
  rw [e1, e2]
  rfl

/-- The second accumulator's step: the held block plus the tile's products. -/
theorem pay1_apply (v26 : FVec Ideal S512x2048 .f32) (v31 : Vec Ideal S512x2048 .f32) (p : Fin 512) (q : Fin 2048) :
    k0_pay1 (F := Ideal) v26 v31 (ix2 p q) = v31 (ix2 p q) + v26 (ix2 p q) := by
  have e0 : shapeCast S512x2048 v31 shapeCasts_S512x2048_S512x2048 (ix2 p q) = v31 (ix2 p q) := congrFun (shapeCast_self v31 _) _
  show shapeCast S512x2048 v31 shapeCasts_S512x2048_S512x2048 (ix2 p q) + v26 (ix2 p q) = _
  rw [e0]

/-- A [1, 2048] row broadcast over the 512 rows of a block reads entry q of the row at (p, q). -/
theorem rowBroadcast_apply (v : Vec Ideal S1x2048 .f32) (p : Fin 512) (q : Fin 2048) :
    broadcastTo S512x2048 (shapeCast S1x2048 (shapeCast S1x2048 v shapeCasts_S1x2048_S1x2048) shapeCasts_S1x2048_S1x2048)
      broadcasts_S1x2048_S512x2048 (ix2 p q) = v (ix2 0 q) := by
  rw [shapeCast_self, shapeCast_self]
  exact broadcastTo_apply v broadcasts_S1x2048_S512x2048 (ix2 p q) (ix2 0 q) (fun a => match a with
    | ⟨0, _⟩ => by show 0 = if (1 : Nat) = 1 then 0 else p.val; rw [if_pos rfl]
    | ⟨1, _⟩ => by show q.val = if (2048 : Nat) = 1 then 0 else q.val; rw [if_neg (by decide)])

/-- The first accumulator's last step: the bias row added to every row. -/
theorem pay2_apply (v38 : Vec Ideal S512x2048 .f32) (v40 : Vec Ideal S1x2048 .f32) (p : Fin 512) (q : Fin 2048) :
    k0_pay2 (F := Ideal) v38 v40 (ix2 p q) = v38 (ix2 p q) + v40 (ix2 0 q) := by
  have e0 : shapeCast S512x2048 v38 shapeCasts_S512x2048_S512x2048 (ix2 p q) = v38 (ix2 p q) := congrFun (shapeCast_self v38 _) _
  have e1 := rowBroadcast_apply v40 p q
  show shapeCast S512x2048 v38 shapeCasts_S512x2048_S512x2048 (ix2 p q)
      + broadcastTo S512x2048 (shapeCast S1x2048 (shapeCast S1x2048 v40 shapeCasts_S1x2048_S1x2048) shapeCasts_S1x2048_S1x2048)
          broadcasts_S1x2048_S512x2048 (ix2 p q) = _
  rw [e0, e1]

/-- The second accumulator's last step. -/
theorem pay3_apply (v46 : Vec Ideal S512x2048 .f32) (v48 : Vec Ideal S1x2048 .f32) (p : Fin 512) (q : Fin 2048) :
    k0_pay3 (F := Ideal) v46 v48 (ix2 p q) = v46 (ix2 p q) + v48 (ix2 0 q) := by
  have e0 : shapeCast S512x2048 v46 shapeCasts_S512x2048_S512x2048 (ix2 p q) = v46 (ix2 p q) := congrFun (shapeCast_self v46 _) _
  have e1 := rowBroadcast_apply v48 p q
  show shapeCast S512x2048 v46 shapeCasts_S512x2048_S512x2048 (ix2 p q)
      + broadcastTo S512x2048 (shapeCast S1x2048 (shapeCast S1x2048 v48 shapeCasts_S1x2048_S1x2048) shapeCasts_S1x2048_S1x2048)
          broadcasts_S1x2048_S512x2048 (ix2 p q) = _
  rw [e0, e1]

/-- The zero blocks the first tile stores. -/
theorem pay4_apply (j : S512x2048.Idx) : k0_pay4 (F := Ideal) j = 0 := by
  show Ideal.ofBits .f32 0x00000000#32 = 0
  exact Ideal.ofBits_zero_f32
theorem pay5_apply (j : S512x2048.Idx) : k0_pay5 (F := Ideal) j = 0 := by
  show Ideal.ofBits .f32 0x00000000#32 = 0
  exact Ideal.ofBits_zero_f32

end Cert.KernelIdeal.Hand

end
-- ==== Proof.Reg0ValueEntry.lean ====
/-
  What each case of the first phase's body leaves at one entry (p, q) of the two accumulator buffers, over the extended
  reals: the sums of products of the tile's blocks, added to zero at the first tile (so just the sums), to what the
  buffer held at a later tile, and at the last tile the bias row's entry q on top.
-/
import proofs.«124992_j59777354826392_1_alg».proof.Proof.Reg0ValuePieces
import proofs.«124992_j59777354826392_1_alg».proof.Proof.Reg0ValuePay

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Idealize.ShloMosaic.ValueIdx

/-- First tile, first accumulator. -/
theorem entry_A_10 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : cond0_0 i) (hc1 : ¬cond0_1 i)
    (x0 : Vec Ideal S512x128 .f32) (x1 : Vec Ideal S512x128 .f32) (x2 : Vec Ideal S512x128 .f32) (x3 : Vec Ideal S2048x128 .f32) (x4 : Vec Ideal S2048x128 .f32) (x5 : Vec Ideal S2048x128 .f32) (x6 : Vec Ideal S2048x128 .f32) (x7 : Vec Ideal S2048x128 .f32) (x8 : Vec Ideal S1x2048 .f32) (x9 : Vec Ideal S1x2048 .f32) (p : Fin 512) (q : Fin 2048) :
    out0_A_10 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 (ix2 p q)
      = (((∑ kk : Fin 128, x0 (ix2 p kk) * x3 (ix2 q kk)) + (∑ kk : Fin 128, x2 (ix2 p kk) * x4 (ix2 q kk))) + (∑ kk : Fin 128, x1 (ix2 p kk) * x5 (ix2 q kk))) := by
  refine (congrFun (out_A_10 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9) (ix2 p q)).trans ?_
  refine (pay9_apply x0 x1 x2 x3 x4 x5 (k0_pay4 (F := Ideal)) p q).trans ?_
  rw [pay4_apply, zero_add]

/-- First tile, second accumulator. -/
theorem entry_A_11 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : cond0_0 i) (hc1 : ¬cond0_1 i)
    (x0 : Vec Ideal S512x128 .f32) (x1 : Vec Ideal S512x128 .f32) (x2 : Vec Ideal S512x128 .f32) (x3 : Vec Ideal S2048x128 .f32) (x4 : Vec Ideal S2048x128 .f32) (x5 : Vec Ideal S2048x128 .f32) (x6 : Vec Ideal S2048x128 .f32) (x7 : Vec Ideal S2048x128 .f32) (x8 : Vec Ideal S1x2048 .f32) (x9 : Vec Ideal S1x2048 .f32) (p : Fin 512) (q : Fin 2048) :
    out0_A_11 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 (ix2 p q)
      = ((∑ kk : Fin 128, x1 (ix2 p kk) * x6 (ix2 q kk)) + (∑ kk : Fin 128, x2 (ix2 p kk) * x7 (ix2 q kk))) := by
  refine (congrFun (out_A_11 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9) (ix2 p q)).trans ?_
  refine (pay1_apply (k0_pay8 (F := Ideal) x1 x2 x6 x7) (k0_pay5 (F := Ideal)) p q).trans ?_
  rw [pay5_apply, zero_add]
  exact pay8_apply x1 x2 x6 x7 p q

/-- Middle tile, first accumulator. -/
theorem entry_B_10 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc1 : ¬cond0_1 i)
    (x0 : Vec Ideal S512x128 .f32) (x1 : Vec Ideal S512x128 .f32) (x2 : Vec Ideal S512x128 .f32) (x3 : Vec Ideal S2048x128 .f32) (x4 : Vec Ideal S2048x128 .f32) (x5 : Vec Ideal S2048x128 .f32) (x6 : Vec Ideal S2048x128 .f32) (x7 : Vec Ideal S2048x128 .f32) (x8 : Vec Ideal S1x2048 .f32) (x9 : Vec Ideal S1x2048 .f32) (xo12 xo13 : Vec Ideal S512x2048 .f32) (p : Fin 512) (q : Fin 2048) :
    out0_B_10 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13 (ix2 p q)
      = xo12 (ix2 p q) + (((∑ kk : Fin 128, x0 (ix2 p kk) * x3 (ix2 q kk)) + (∑ kk : Fin 128, x2 (ix2 p kk) * x4 (ix2 q kk))) + (∑ kk : Fin 128, x1 (ix2 p kk) * x5 (ix2 q kk))) := by
  refine (congrFun (out_B_10 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13) (ix2 p q)).trans ?_
  exact pay9_apply x0 x1 x2 x3 x4 x5 xo12 p q

/-- Middle tile, second accumulator. -/
theorem entry_B_11 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc1 : ¬cond0_1 i)
    (x0 : Vec Ideal S512x128 .f32) (x1 : Vec Ideal S512x128 .f32) (x2 : Vec Ideal S512x128 .f32) (x3 : Vec Ideal S2048x128 .f32) (x4 : Vec Ideal S2048x128 .f32) (x5 : Vec Ideal S2048x128 .f32) (x6 : Vec Ideal S2048x128 .f32) (x7 : Vec Ideal S2048x128 .f32) (x8 : Vec Ideal S1x2048 .f32) (x9 : Vec Ideal S1x2048 .f32) (xo12 xo13 : Vec Ideal S512x2048 .f32) (p : Fin 512) (q : Fin 2048) :
    out0_B_11 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13 (ix2 p q)
      = xo13 (ix2 p q) + ((∑ kk : Fin 128, x1 (ix2 p kk) * x6 (ix2 q kk)) + (∑ kk : Fin 128, x2 (ix2 p kk) * x7 (ix2 q kk))) := by
  refine (congrFun (out_B_11 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13) (ix2 p q)).trans ?_
  refine (pay1_apply (k0_pay8 (F := Ideal) x1 x2 x6 x7) xo13 p q).trans ?_
  exact congrArg (xo13 (ix2 p q) + ·) (pay8_apply x1 x2 x6 x7 p q)

/-- Last tile, first accumulator. -/
theorem entry_C_10 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc1 : cond0_1 i)
    (x0 : Vec Ideal S512x128 .f32) (x1 : Vec Ideal S512x128 .f32) (x2 : Vec Ideal S512x128 .f32) (x3 : Vec Ideal S2048x128 .f32) (x4 : Vec Ideal S2048x128 .f32) (x5 : Vec Ideal S2048x128 .f32) (x6 : Vec Ideal S2048x128 .f32) (x7 : Vec Ideal S2048x128 .f32) (x8 : Vec Ideal S1x2048 .f32) (x9 : Vec Ideal S1x2048 .f32) (xo12 xo13 : Vec Ideal S512x2048 .f32) (p : Fin 512) (q : Fin 2048) :
    out0_C_10 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13 (ix2 p q)
      = (xo12 (ix2 p q) + (((∑ kk : Fin 128, x0 (ix2 p kk) * x3 (ix2 q kk)) + (∑ kk : Fin 128, x2 (ix2 p kk) * x4 (ix2 q kk))) + (∑ kk : Fin 128, x1 (ix2 p kk) * x5 (ix2 q kk)))) + x8 (ix2 0 q) := by
  refine (congrFun (out_C_10 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13) (ix2 p q)).trans ?_
  refine (pay2_apply (k0_pay9 (F := Ideal) x0 x1 x2 x3 x4 x5 xo12) x8 p q).trans ?_
  exact congrArg (· + x8 (ix2 0 q)) (pay9_apply x0 x1 x2 x3 x4 x5 xo12 p q)

/-- Last tile, second accumulator. -/
theorem entry_C_11 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc1 : cond0_1 i)
    (x0 : Vec Ideal S512x128 .f32) (x1 : Vec Ideal S512x128 .f32) (x2 : Vec Ideal S512x128 .f32) (x3 : Vec Ideal S2048x128 .f32) (x4 : Vec Ideal S2048x128 .f32) (x5 : Vec Ideal S2048x128 .f32) (x6 : Vec Ideal S2048x128 .f32) (x7 : Vec Ideal S2048x128 .f32) (x8 : Vec Ideal S1x2048 .f32) (x9 : Vec Ideal S1x2048 .f32) (xo12 xo13 : Vec Ideal S512x2048 .f32) (p : Fin 512) (q : Fin 2048) :
    out0_C_11 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13 (ix2 p q)
      = (xo13 (ix2 p q) + ((∑ kk : Fin 128, x1 (ix2 p kk) * x6 (ix2 q kk)) + (∑ kk : Fin 128, x2 (ix2 p kk) * x7 (ix2 q kk)))) + x9 (ix2 0 q) := by
  refine (congrFun (out_C_11 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo12 xo13) (ix2 p q)).trans ?_
  refine (pay3_apply (k0_pay1 (F := Ideal) (k0_pay8 (F := Ideal) x1 x2 x6 x7) xo13) x9 p q).trans ?_
  refine congrArg (· + x9 (ix2 0 q)) ?_
  refine (pay1_apply (k0_pay8 (F := Ideal) x1 x2 x6 x7) xo13 p q).trans ?_
  exact congrArg (xo13 (ix2 p q) + ·) (pay8_apply x1 x2 x6 x7 p q)

end Cert.KernelIdeal.Hand

end
-- ==== Proof.Reg0ValueBlk.lean ====
/-
  Each input block of the first phase read at an entry.  Point t = 16·m + k of the grid stages, of the activations and of
  the two column halves of the spike array, the [512, 128] block of rows 512·m … and columns 128·k … (the second half
  2048 columns further); of each weight matrix the [2048, 128] block of all rows and columns 128·k …; of each bias row
  the whole row.  An entry of a block sits in its array at block index × block size + the entry's own coordinate.
-/
import proofs.«124992_j59777354826392_1_alg».proof.Proof.Reg0Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section AtV

variable (V : (c : Dev nD) → (b : Ref sig .tc) → Buf (Elt F) ((c : Thread nD τ).loc b))

/-- Window 0's block index at each point (the activations x: rows of batch half t / 16, columns of tile t % 16). -/
theorem idx0_0 : ∀ t : Fin cfg0.N, win0_0.index t 0 = t.val / 16 ∧ win0_0.index t 1 = t.val % 16 :=
  (by decide +kernel : ∀ t : Fin grid0.N, win0_0.index t 0 = t.val / 16 ∧ win0_0.index t 1 = t.val % 16)

/-- Window 0's block at point t, read at an entry: the array at block index × block size + the entry's coordinate. -/
theorem iblk0_0_apply (c : Dev nD) (t : Fin cfg0.N) (x : S512x128.Idx) (k : S1024x2048.Idx)
    (hk0 : (k 0).val = t.val / 16 * 512 + (x 0).val) (hk1 : (k 1).val = t.val % 16 * 128 + (x 1).val) :
    (iblk0 V c 0 t : Vec F S512x128 .f32) x = (V c main_arg0 : S1024x2048.Idx → Elt F .f32) k := by
  have hi := idx0_0 t
  unfold iblk0
  rw [View.read_apply]
  show (V c main_arg0 : S1024x2048.Idx → Elt F .f32) _ = (V c main_arg0 : S1024x2048.Idx → Elt F .f32) k
  refine congrArg (V c main_arg0 : S1024x2048.Idx → Elt F .f32) (funext fun a => Fin.ext ?_)
  match a with
  | ⟨0, _⟩ => show win0_0.index t 0 * 512 + 1 * (x 0).val = (k 0).val; rw [hi.1, hk0]; omega
  | ⟨1, _⟩ => show win0_0.index t 1 * 128 + 1 * (x 1).val = (k 1).val; rw [hi.2, hk1]; omega

/-- Window 1's block index at each point (the spike array's first column half: rows of batch half t / 16, columns of tile t % 16). -/
theorem idx0_1 : ∀ t : Fin cfg0.N, win0_1.index t 0 = t.val / 16 ∧ win0_1.index t 1 = t.val % 16 :=
  (by decide +kernel : ∀ t : Fin grid0.N, win0_1.index t 0 = t.val / 16 ∧ win0_1.index t 1 = t.val % 16)

/-- Window 1's block at point t, read at an entry: the array at block index × block size + the entry's coordinate. -/
theorem iblk0_1_apply (c : Dev nD) (t : Fin cfg0.N) (x : S512x128.Idx) (k : S1024x4096.Idx)
    (hk0 : (k 0).val = t.val / 16 * 512 + (x 0).val) (hk1 : (k 1).val = t.val % 16 * 128 + (x 1).val) :
    (iblk0 V c 1 t : Vec F S512x128 .f32) x = (V c main_arg2 : S1024x4096.Idx → Elt F .f32) k := by
  have hi := idx0_1 t
  unfold iblk0
  rw [View.read_apply]
  show (V c main_arg2 : S1024x4096.Idx → Elt F .f32) _ = (V c main_arg2 : S1024x4096.Idx → Elt F .f32) k
  refine congrArg (V c main_arg2 : S1024x4096.Idx → Elt F .f32) (funext fun a => Fin.ext ?_)
  match a with
  | ⟨0, _⟩ => show win0_1.index t 0 * 512 + 1 * (x 0).val = (k 0).val; rw [hi.1, hk0]; omega
  | ⟨1, _⟩ => show win0_1.index t 1 * 128 + 1 * (x 1).val = (k 1).val; rw [hi.2, hk1]; omega

/-- Window 2's block index at each point (the spike array's second column half: the same rows, sixteen tiles (2048 columns) further). -/
theorem idx0_2 : ∀ t : Fin cfg0.N, win0_2.index t 0 = t.val / 16 ∧ win0_2.index t 1 = (t.val % 16 + 16) :=
  (by decide +kernel : ∀ t : Fin grid0.N, win0_2.index t 0 = t.val / 16 ∧ win0_2.index t 1 = (t.val % 16 + 16))

/-- Window 2's block at point t, read at an entry: the array at block index × block size + the entry's coordinate. -/
theorem iblk0_2_apply (c : Dev nD) (t : Fin cfg0.N) (x : S512x128.Idx) (k : S1024x4096.Idx)
    (hk0 : (k 0).val = t.val / 16 * 512 + (x 0).val) (hk1 : (k 1).val = (t.val % 16 + 16) * 128 + (x 1).val) :
    (iblk0 V c 2 t : Vec F S512x128 .f32) x = (V c main_arg2 : S1024x4096.Idx → Elt F .f32) k := by
  have hi := idx0_2 t
  unfold iblk0
  rw [View.read_apply]
  show (V c main_arg2 : S1024x4096.Idx → Elt F .f32) _ = (V c main_arg2 : S1024x4096.Idx → Elt F .f32) k
  refine congrArg (V c main_arg2 : S1024x4096.Idx → Elt F .f32) (funext fun a => Fin.ext ?_)
  match a with
  | ⟨0, _⟩ => show win0_2.index t 0 * 512 + 1 * (x 0).val = (k 0).val; rw [hi.1, hk0]; omega
  | ⟨1, _⟩ => show win0_2.index t 1 * 128 + 1 * (x 1).val = (k 1).val; rw [hi.2, hk1]; omega

/-- Window 3's block index at each point (a weight matrix: all rows, columns of tile t % 16). -/
theorem idx0_3 : ∀ t : Fin cfg0.N, win0_3.index t 0 = 0 ∧ win0_3.index t 1 = t.val % 16 :=
  (by decide +kernel : ∀ t : Fin grid0.N, win0_3.index t 0 = 0 ∧ win0_3.index t 1 = t.val % 16)

/-- Window 3's block at point t, read at an entry: the array at block index × block size + the entry's coordinate. -/
theorem iblk0_3_apply (c : Dev nD) (t : Fin cfg0.N) (x : S2048x128.Idx) (k : S2048x2048.Idx)
    (hk0 : (k 0).val = 0 * 2048 + (x 0).val) (hk1 : (k 1).val = t.val % 16 * 128 + (x 1).val) :
    (iblk0 V c 3 t : Vec F S2048x128 .f32) x = (V c main_arg4 : S2048x2048.Idx → Elt F .f32) k := by
  have hi := idx0_3 t
  unfold iblk0
  rw [View.read_apply]
  show (V c main_arg4 : S2048x2048.Idx → Elt F .f32) _ = (V c main_arg4 : S2048x2048.Idx → Elt F .f32) k
  refine congrArg (V c main_arg4 : S2048x2048.Idx → Elt F .f32) (funext fun a => Fin.ext ?_)
  match a with
  | ⟨0, _⟩ => show win0_3.index t 0 * 2048 + 1 * (x 0).val = (k 0).val; rw [hi.1, hk0]; omega
  | ⟨1, _⟩ => show win0_3.index t 1 * 128 + 1 * (x 1).val = (k 1).val; rw [hi.2, hk1]; omega

/-- Window 4's block index at each point (a weight matrix: all rows, columns of tile t % 16). -/
theorem idx0_4 : ∀ t : Fin cfg0.N, win0_4.index t 0 = 0 ∧ win0_4.index t 1 = t.val % 16 :=
  (by decide +kernel : ∀ t : Fin grid0.N, win0_4.index t 0 = 0 ∧ win0_4.index t 1 = t.val % 16)

/-- Window 4's block at point t, read at an entry: the array at block index × block size + the entry's coordinate. -/
theorem iblk0_4_apply (c : Dev nD) (t : Fin cfg0.N) (x : S2048x128.Idx) (k : S2048x2048.Idx)
    (hk0 : (k 0).val = 0 * 2048 + (x 0).val) (hk1 : (k 1).val = t.val % 16 * 128 + (x 1).val) :
    (iblk0 V c 4 t : Vec F S2048x128 .f32) x = (V c main_arg6 : S2048x2048.Idx → Elt F .f32) k := by
  have hi := idx0_4 t
  unfold iblk0
  rw [View.read_apply]
  show (V c main_arg6 : S2048x2048.Idx → Elt F .f32) _ = (V c main_arg6 : S2048x2048.Idx → Elt F .f32) k
  refine congrArg (V c main_arg6 : S2048x2048.Idx → Elt F .f32) (funext fun a => Fin.ext ?_)
  match a with
  | ⟨0, _⟩ => show win0_4.index t 0 * 2048 + 1 * (x 0).val = (k 0).val; rw [hi.1, hk0]; omega
  | ⟨1, _⟩ => show win0_4.index t 1 * 128 + 1 * (x 1).val = (k 1).val; rw [hi.2, hk1]; omega

/-- Window 5's block index at each point (a weight matrix: all rows, columns of tile t % 16). -/
theorem idx0_5 : ∀ t : Fin cfg0.N, win0_5.index t 0 = 0 ∧ win0_5.index t 1 = t.val % 16 :=
  (by decide +kernel : ∀ t : Fin grid0.N, win0_5.index t 0 = 0 ∧ win0_5.index t 1 = t.val % 16)

/-- Window 5's block at point t, read at an entry: the array at block index × block size + the entry's coordinate. -/
theorem iblk0_5_apply (c : Dev nD) (t : Fin cfg0.N) (x : S2048x128.Idx) (k : S2048x2048.Idx)
    (hk0 : (k 0).val = 0 * 2048 + (x 0).val) (hk1 : (k 1).val = t.val % 16 * 128 + (x 1).val) :
    (iblk0 V c 5 t : Vec F S2048x128 .f32) x = (V c main_arg12 : S2048x2048.Idx → Elt F .f32) k := by
  have hi := idx0_5 t
  unfold iblk0
  rw [View.read_apply]
  show (V c main_arg12 : S2048x2048.Idx → Elt F .f32) _ = (V c main_arg12 : S2048x2048.Idx → Elt F .f32) k
  refine congrArg (V c main_arg12 : S2048x2048.Idx → Elt F .f32) (funext fun a => Fin.ext ?_)
  match a with
  | ⟨0, _⟩ => show win0_5.index t 0 * 2048 + 1 * (x 0).val = (k 0).val; rw [hi.1, hk0]; omega
  | ⟨1, _⟩ => show win0_5.index t 1 * 128 + 1 * (x 1).val = (k 1).val; rw [hi.2, hk1]; omega

/-- Window 6's block index at each point (a weight matrix: all rows, columns of tile t % 16). -/
theorem idx0_6 : ∀ t : Fin cfg0.N, win0_6.index t 0 = 0 ∧ win0_6.index t 1 = t.val % 16 :=
  (by decide +kernel : ∀ t : Fin grid0.N, win0_6.index t 0 = 0 ∧ win0_6.index t 1 = t.val % 16)

/-- Window 6's block at point t, read at an entry: the array at block index × block size + the entry's coordinate. -/
theorem iblk0_6_apply (c : Dev nD) (t : Fin cfg0.N) (x : S2048x128.Idx) (k : S2048x2048.Idx)
    (hk0 : (k 0).val = 0 * 2048 + (x 0).val) (hk1 : (k 1).val = t.val % 16 * 128 + (x 1).val) :
    (iblk0 V c 6 t : Vec F S2048x128 .f32) x = (V c main_arg10 : S2048x2048.Idx → Elt F .f32) k := by
  have hi := idx0_6 t
  unfold iblk0
  rw [View.read_apply]
  show (V c main_arg10 : S2048x2048.Idx → Elt F .f32) _ = (V c main_arg10 : S2048x2048.Idx → Elt F .f32) k
  refine congrArg (V c main_arg10 : S2048x2048.Idx → Elt F .f32) (funext fun a => Fin.ext ?_)
  match a with
  | ⟨0, _⟩ => show win0_6.index t 0 * 2048 + 1 * (x 0).val = (k 0).val; rw [hi.1, hk0]; omega
  | ⟨1, _⟩ => show win0_6.index t 1 * 128 + 1 * (x 1).val = (k 1).val; rw [hi.2, hk1]; omega

/-- Window 7's block index at each point (a weight matrix: all rows, columns of tile t % 16). -/
theorem idx0_7 : ∀ t : Fin cfg0.N, win0_7.index t 0 = 0 ∧ win0_7.index t 1 = t.val % 16 :=
  (by decide +kernel : ∀ t : Fin grid0.N, win0_7.index t 0 = 0 ∧ win0_7.index t 1 = t.val % 16)

/-- Window 7's block at point t, read at an entry: the array at block index × block size + the entry's coordinate. -/
theorem iblk0_7_apply (c : Dev nD) (t : Fin cfg0.N) (x : S2048x128.Idx) (k : S2048x2048.Idx)
    (hk0 : (k 0).val = 0 * 2048 + (x 0).val) (hk1 : (k 1).val = t.val % 16 * 128 + (x 1).val) :
    (iblk0 V c 7 t : Vec F S2048x128 .f32) x = (V c main_arg8 : S2048x2048.Idx → Elt F .f32) k := by
  have hi := idx0_7 t
  unfold iblk0
  rw [View.read_apply]
  show (V c main_arg8 : S2048x2048.Idx → Elt F .f32) _ = (V c main_arg8 : S2048x2048.Idx → Elt F .f32) k
  refine congrArg (V c main_arg8 : S2048x2048.Idx → Elt F .f32) (funext fun a => Fin.ext ?_)
  match a with
  | ⟨0, _⟩ => show win0_7.index t 0 * 2048 + 1 * (x 0).val = (k 0).val; rw [hi.1, hk0]; omega
  | ⟨1, _⟩ => show win0_7.index t 1 * 128 + 1 * (x 1).val = (k 1).val; rw [hi.2, hk1]; omega

/-- Window 8's block index at each point (a bias row: the whole row at every point). -/
theorem idx0_8 : ∀ t : Fin cfg0.N, win0_8.index t 0 = 0 ∧ win0_8.index t 1 = 0 :=
  (by decide +kernel : ∀ t : Fin grid0.N, win0_8.index t 0 = 0 ∧ win0_8.index t 1 = 0)

/-- Window 8's block at point t, read at an entry: the array at block index × block size + the entry's coordinate. -/
theorem iblk0_8_apply (c : Dev nD) (t : Fin cfg0.N) (x : S1x2048.Idx) (k : S1x2048.Idx)
    (hk0 : (k 0).val = 0 * 1 + (x 0).val) (hk1 : (k 1).val = 0 * 2048 + (x 1).val) :
    (iblk0 V c 8 t : Vec F S1x2048 .f32) x = (V c main_v2 : S1x2048.Idx → Elt F .f32) k := by
  have hi := idx0_8 t
  unfold iblk0
  rw [View.read_apply]
  show (V c main_v2 : S1x2048.Idx → Elt F .f32) _ = (V c main_v2 : S1x2048.Idx → Elt F .f32) k
  refine congrArg (V c main_v2 : S1x2048.Idx → Elt F .f32) (funext fun a => Fin.ext ?_)
  match a with
  | ⟨0, _⟩ => show win0_8.index t 0 * 1 + 1 * (x 0).val = (k 0).val; rw [hi.1, hk0]; omega
  | ⟨1, _⟩ => show win0_8.index t 1 * 2048 + 1 * (x 1).val = (k 1).val; rw [hi.2, hk1]; omega

/-- Window 9's block index at each point (a bias row: the whole row at every point). -/
theorem idx0_9 : ∀ t : Fin cfg0.N, win0_9.index t 0 = 0 ∧ win0_9.index t 1 = 0 :=
  (by decide +kernel : ∀ t : Fin grid0.N, win0_9.index t 0 = 0 ∧ win0_9.index t 1 = 0)

/-- Window 9's block at point t, read at an entry: the array at block index × block size + the entry's coordinate. -/
theorem iblk0_9_apply (c : Dev nD) (t : Fin cfg0.N) (x : S1x2048.Idx) (k : S1x2048.Idx)
    (hk0 : (k 0).val = 0 * 1 + (x 0).val) (hk1 : (k 1).val = 0 * 2048 + (x 1).val) :
    (iblk0 V c 9 t : Vec F S1x2048 .f32) x = (V c main_v4 : S1x2048.Idx → Elt F .f32) k := by
  have hi := idx0_9 t
  unfold iblk0
  rw [View.read_apply]
  show (V c main_v4 : S1x2048.Idx → Elt F .f32) _ = (V c main_v4 : S1x2048.Idx → Elt F .f32) k
  refine congrArg (V c main_v4 : S1x2048.Idx → Elt F .f32) (funext fun a => Fin.ext ?_)
  match a with
  | ⟨0, _⟩ => show win0_9.index t 0 * 1 + 1 * (x 0).val = (k 0).val; rw [hi.1, hk0]; omega
  | ⟨1, _⟩ => show win0_9.index t 1 * 2048 + 1 * (x 1).val = (k 1).val; rw [hi.2, hk1]; omega

end AtV

end Cert.KernelIdeal.Hand

end
-- ==== Proof.Reg0ValueInv.lean ====
/-
  The running sums.  After the body at grid position n = 16·m + k the first accumulator's buffer holds, at entry (p, q),
  the sum of the first k + 1 tiles' products for row 512·m + p and column q of the first phase-one array, and the
  second accumulator's likewise; at k = 15 the bias row's entry q is added on top.  By induction along the positions
  of one batch half: the first tile adds its products to zero, each later tile adds its products to what the
  position before left, and the blocks a position reads are the rows 512·m … and the columns of tile k of the arrays.
-/
import proofs.«124992_j59777354826392_1_alg».proof.Proof.Reg0ValueEntry
import proofs.«124992_j59777354826392_1_alg».proof.Proof.Reg0ValueBlk
import proofs.«124992_j59777354826392_1_alg».proof.Proof.KSpec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Idealize.ShloMosaic.ValueIdx

/-! ## Partial sums over the tiles -/

theorem accIn_succ (x : FVec Ideal Cert.KSpec.A1024x2048 .f32) (spk : FVec Ideal Cert.KSpec.A1024x4096 .f32)
    (Wx Wri Woi : FVec Ideal Cert.KSpec.A2048x2048 .f32) (i : Fin 1024) (j : Fin 2048) (k : Fin 16) :
    Cert.KSpec.accIn x spk Wx Wri Woi i j (k.val + 1)
      = Cert.KSpec.accIn x spk Wx Wri Woi i j k.val + Cert.KSpec.stepIn x spk Wx Wri Woi i j k := by
  unfold Cert.KSpec.accIn
  rw [Finset.sum_range_succ]
  refine congrArg (_ + ·) ?_
  unfold Cert.KSpec.ext
  rw [dif_pos k.isLt]

theorem accIn_zero (x : FVec Ideal Cert.KSpec.A1024x2048 .f32) (spk : FVec Ideal Cert.KSpec.A1024x4096 .f32)
    (Wx Wri Woi : FVec Ideal Cert.KSpec.A2048x2048 .f32) (i : Fin 1024) (j : Fin 2048) :
    Cert.KSpec.accIn x spk Wx Wri Woi i j 0 = 0 := Finset.sum_range_zero _

theorem accOut_succ (spk : FVec Ideal Cert.KSpec.A1024x4096 .f32) (Wro Wio : FVec Ideal Cert.KSpec.A2048x2048 .f32)
    (i : Fin 1024) (j : Fin 2048) (k : Fin 16) :
    Cert.KSpec.accOut spk Wro Wio i j (k.val + 1)
      = Cert.KSpec.accOut spk Wro Wio i j k.val + Cert.KSpec.stepOut spk Wro Wio i j k := by
  unfold Cert.KSpec.accOut
  rw [Finset.sum_range_succ]
  refine congrArg (_ + ·) ?_
  unfold Cert.KSpec.ext
  rw [dif_pos k.isLt]

theorem accOut_zero (spk : FVec Ideal Cert.KSpec.A1024x4096 .f32) (Wro Wio : FVec Ideal Cert.KSpec.A2048x2048 .f32)
    (i : Fin 1024) (j : Fin 2048) : Cert.KSpec.accOut spk Wro Wio i j 0 = 0 := Finset.sum_range_zero _

/-- The array row that row p of the block at position n is: 512 · (n / 16) + p. -/
def rowOf (n : ℕ) (p : Fin 512) : Fin 1024 := ⟨(512 * (n / 16) + p.val) % 1024, Nat.mod_lt _ (by decide)⟩
/-- The column tile of position n: n mod 16. -/
def tileOf (n : ℕ) : Fin 16 := ⟨n % 16, Nat.mod_lt _ (by decide)⟩

theorem rowOf_pred (n : ℕ) (h : ¬n % 16 = 0) (p : Fin 512) : rowOf (n - 1) p = rowOf n p := by
  have e : (n - 1) / 16 = n / 16 := by omega
  exact Fin.ext (by show (512 * ((n - 1) / 16) + p.val) % 1024 = (512 * (n / 16) + p.val) % 1024; rw [e])
theorem tileOf_pred (n : ℕ) (h : ¬n % 16 = 0) : (tileOf (n - 1)).val + 1 = (tileOf n).val := by
  show (n - 1) % 16 + 1 = n % 16; omega

/-- The components of a pair known by an equation. -/
theorem fst_of_eq {α β : Type} {x : α × β} {a : α} {b : β} (h : x = (a, b)) : x.1 = a := by rw [h]
theorem snd_of_eq {α β : Type} {x : α × β} {a : α} {b : β} (h : x = (a, b)) : x.2 = b := by rw [h]

section AtV

variable (V : (c : Dev nD) → (b : Ref sig .tc) → Buf (Elt Ideal) ((c : Thread nD τ).loc b)) (c : Dev nD)

/-- The eight blocks a position's products read, at their literal shapes. -/
abbrev bk0 (t : Fin cfg0.N) : Vec Ideal S512x128 .f32 := iblk0 V c 0 t
abbrev bk1 (t : Fin cfg0.N) : Vec Ideal S512x128 .f32 := iblk0 V c 1 t
abbrev bk2 (t : Fin cfg0.N) : Vec Ideal S512x128 .f32 := iblk0 V c 2 t
abbrev bk3 (t : Fin cfg0.N) : Vec Ideal S2048x128 .f32 := iblk0 V c 3 t
abbrev bk4 (t : Fin cfg0.N) : Vec Ideal S2048x128 .f32 := iblk0 V c 4 t
abbrev bk5 (t : Fin cfg0.N) : Vec Ideal S2048x128 .f32 := iblk0 V c 5 t
abbrev bk6 (t : Fin cfg0.N) : Vec Ideal S2048x128 .f32 := iblk0 V c 6 t
abbrev bk7 (t : Fin cfg0.N) : Vec Ideal S2048x128 .f32 := iblk0 V c 7 t

/-! ## One tile's products are the specification's step -/

theorem stepIn_at (t : Fin cfg0.N) (p : Fin 512) (q : Fin 2048) :
    ((∑ kk : Fin 128, bk0 V c t (ix2 p kk) * bk3 V c t (ix2 q kk)) + (∑ kk : Fin 128, bk2 V c t (ix2 p kk) * bk4 V c t (ix2 q kk))) + (∑ kk : Fin 128, bk1 V c t (ix2 p kk) * bk5 V c t (ix2 q kk))
      = Cert.KSpec.stepIn (V c main_arg0) (V c main_arg2) (V c main_arg4) (V c main_arg6) (V c main_arg12) (rowOf t.val p) q (tileOf t.val) := by
  have hN : t.val < 32 := lt_of_lt_of_eq t.isLt (show cfg0.N = 32 from N_0)
  unfold Cert.KSpec.stepIn Cert.KSpec.tile
  refine congrArg₂ (· + ·) (congrArg₂ (· + ·) (Finset.sum_congr rfl fun kk _ => ?_) (Finset.sum_congr rfl fun kk _ => ?_)) (Finset.sum_congr rfl fun kk _ => ?_)
  · have e1 : bk0 V c t (ix2 p kk) = (V c main_arg0 : S1024x2048.Idx → Elt Ideal .f32) (ix2 (rowOf t.val p) (Cert.KSpec.col (tileOf t.val) kk)) := (iblk0_0_apply V c t (ix2 p kk) (ix2 (rowOf t.val p) (Cert.KSpec.col (tileOf t.val) kk)) (by show (512 * (t.val / 16) + p.val) % 1024 = t.val / 16 * 512 + p.val; omega) (by show 128 * (t.val % 16) + kk.val = t.val % 16 * 128 + kk.val; omega))
    have e2 : bk3 V c t (ix2 q kk) = (V c main_arg4 : S2048x2048.Idx → Elt Ideal .f32) (ix2 q (Cert.KSpec.col (tileOf t.val) kk)) := (iblk0_3_apply V c t (ix2 q kk) (ix2 q (Cert.KSpec.col (tileOf t.val) kk)) (by show q.val = 0 * 2048 + q.val; omega) (by show 128 * (t.val % 16) + kk.val = t.val % 16 * 128 + kk.val; omega))
    rw [e1, e2]
  · have e1 : bk2 V c t (ix2 p kk) = (V c main_arg2 : S1024x4096.Idx → Elt Ideal .f32) (ix2 (rowOf t.val p) (Cert.KSpec.hi (Cert.KSpec.col (tileOf t.val) kk))) := (iblk0_2_apply V c t (ix2 p kk) (ix2 (rowOf t.val p) (Cert.KSpec.hi (Cert.KSpec.col (tileOf t.val) kk))) (by show (512 * (t.val / 16) + p.val) % 1024 = t.val / 16 * 512 + p.val; omega) (by show 2048 + (128 * (t.val % 16) + kk.val) = (t.val % 16 + 16) * 128 + kk.val; omega))
    have e2 : bk4 V c t (ix2 q kk) = (V c main_arg6 : S2048x2048.Idx → Elt Ideal .f32) (ix2 q (Cert.KSpec.col (tileOf t.val) kk)) := (iblk0_4_apply V c t (ix2 q kk) (ix2 q (Cert.KSpec.col (tileOf t.val) kk)) (by show q.val = 0 * 2048 + q.val; omega) (by show 128 * (t.val % 16) + kk.val = t.val % 16 * 128 + kk.val; omega))
    rw [e1, e2]
  · have e1 : bk1 V c t (ix2 p kk) = (V c main_arg2 : S1024x4096.Idx → Elt Ideal .f32) (ix2 (rowOf t.val p) (Cert.KSpec.lo (Cert.KSpec.col (tileOf t.val) kk))) := (iblk0_1_apply V c t (ix2 p kk) (ix2 (rowOf t.val p) (Cert.KSpec.lo (Cert.KSpec.col (tileOf t.val) kk))) (by show (512 * (t.val / 16) + p.val) % 1024 = t.val / 16 * 512 + p.val; omega) (by show 128 * (t.val % 16) + kk.val = t.val % 16 * 128 + kk.val; omega))
    have e2 : bk5 V c t (ix2 q kk) = (V c main_arg12 : S2048x2048.Idx → Elt Ideal .f32) (ix2 q (Cert.KSpec.col (tileOf t.val) kk)) := (iblk0_5_apply V c t (ix2 q kk) (ix2 q (Cert.KSpec.col (tileOf t.val) kk)) (by show q.val = 0 * 2048 + q.val; omega) (by show 128 * (t.val % 16) + kk.val = t.val % 16 * 128 + kk.val; omega))
    rw [e1, e2]

theorem stepOut_at (t : Fin cfg0.N) (p : Fin 512) (q : Fin 2048) :
    (∑ kk : Fin 128, bk1 V c t (ix2 p kk) * bk6 V c t (ix2 q kk)) + (∑ kk : Fin 128, bk2 V c t (ix2 p kk) * bk7 V c t (ix2 q kk))
      = Cert.KSpec.stepOut (V c main_arg2) (V c main_arg10) (V c main_arg8) (rowOf t.val p) q (tileOf t.val) := by
  have hN : t.val < 32 := lt_of_lt_of_eq t.isLt (show cfg0.N = 32 from N_0)
  unfold Cert.KSpec.stepOut Cert.KSpec.tile
  refine congrArg₂ (· + ·) (Finset.sum_congr rfl fun kk _ => ?_) (Finset.sum_congr rfl fun kk _ => ?_)
  · have e1 : bk1 V c t (ix2 p kk) = (V c main_arg2 : S1024x4096.Idx → Elt Ideal .f32) (ix2 (rowOf t.val p) (Cert.KSpec.lo (Cert.KSpec.col (tileOf t.val) kk))) := (iblk0_1_apply V c t (ix2 p kk) (ix2 (rowOf t.val p) (Cert.KSpec.lo (Cert.KSpec.col (tileOf t.val) kk))) (by show (512 * (t.val / 16) + p.val) % 1024 = t.val / 16 * 512 + p.val; omega) (by show 128 * (t.val % 16) + kk.val = t.val % 16 * 128 + kk.val; omega))
    have e2 : bk6 V c t (ix2 q kk) = (V c main_arg10 : S2048x2048.Idx → Elt Ideal .f32) (ix2 q (Cert.KSpec.col (tileOf t.val) kk)) := (iblk0_6_apply V c t (ix2 q kk) (ix2 q (Cert.KSpec.col (tileOf t.val) kk)) (by show q.val = 0 * 2048 + q.val; omega) (by show 128 * (t.val % 16) + kk.val = t.val % 16 * 128 + kk.val; omega))
    rw [e1, e2]
  · have e1 : bk2 V c t (ix2 p kk) = (V c main_arg2 : S1024x4096.Idx → Elt Ideal .f32) (ix2 (rowOf t.val p) (Cert.KSpec.hi (Cert.KSpec.col (tileOf t.val) kk))) := (iblk0_2_apply V c t (ix2 p kk) (ix2 (rowOf t.val p) (Cert.KSpec.hi (Cert.KSpec.col (tileOf t.val) kk))) (by show (512 * (t.val / 16) + p.val) % 1024 = t.val / 16 * 512 + p.val; omega) (by show 2048 + (128 * (t.val % 16) + kk.val) = (t.val % 16 + 16) * 128 + kk.val; omega))
    have e2 : bk7 V c t (ix2 q kk) = (V c main_arg8 : S2048x2048.Idx → Elt Ideal .f32) (ix2 q (Cert.KSpec.col (tileOf t.val) kk)) := (iblk0_7_apply V c t (ix2 q kk) (ix2 q (Cert.KSpec.col (tileOf t.val) kk)) (by show q.val = 0 * 2048 + q.val; omega) (by show 128 * (t.val % 16) + kk.val = t.val % 16 * 128 + kk.val; omega))
    rw [e1, e2]

/-! ## The three cases at a position -/

/-- First tile of a batch half: the accumulators hold the first tile's products. -/
theorem acc_first (t : Fin cfg0.N) (h0 : t.val % 16 = 0) (p : Fin 512) (q : Fin 2048) :
    (outsAt0 V c t.val t.isLt).1 (ix2 p q) = Cert.KSpec.accIn (V c main_arg0) (V c main_arg2) (V c main_arg4) (V c main_arg6) (V c main_arg12) (rowOf t.val p) q ((tileOf t.val).val + 1)
    ∧ (outsAt0 V c t.val t.isLt).2 (ix2 p q) = Cert.KSpec.accOut (V c main_arg2) (V c main_arg10) (V c main_arg8) (rowOf t.val p) q ((tileOf t.val).val + 1) := by
  have h1' : ¬cond0_1 (grid0.coords t) := fun h => by have := (hcond0_1 t).mp h; omega
  have hz : (tileOf t.val).val = 0 := h0
  have hA := outsAt0_A V c t h0 h1'
  constructor
  · refine (congrFun (fst_of_eq hA) (ix2 p q)).trans ?_
    refine (entry_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) h1' (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p q).trans ?_
    refine (stepIn_at V c t p q).trans ?_
    rw [accIn_succ, hz, accIn_zero, zero_add]
  · refine (congrFun (snd_of_eq hA) (ix2 p q)).trans ?_
    refine (entry_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) h1' (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p q).trans ?_
    refine (stepOut_at V c t p q).trans ?_
    rw [accOut_succ, hz, accOut_zero, zero_add]

/-- A middle tile: the tile's products on top of what the position before left. -/
theorem acc_next (t : Fin cfg0.N) (h0 : ¬t.val % 16 = 0) (h1 : ¬t.val % 16 = 15) (p : Fin 512) (q : Fin 2048)
    (ih1 : (prev0 V c t).1 (ix2 p q) = Cert.KSpec.accIn (V c main_arg0) (V c main_arg2) (V c main_arg4) (V c main_arg6) (V c main_arg12) (rowOf (t.val - 1) p) q ((tileOf (t.val - 1)).val + 1))
    (ih2 : (prev0 V c t).2 (ix2 p q) = Cert.KSpec.accOut (V c main_arg2) (V c main_arg10) (V c main_arg8) (rowOf (t.val - 1) p) q ((tileOf (t.val - 1)).val + 1)) :
    (outsAt0 V c t.val t.isLt).1 (ix2 p q) = Cert.KSpec.accIn (V c main_arg0) (V c main_arg2) (V c main_arg4) (V c main_arg6) (V c main_arg12) (rowOf t.val p) q ((tileOf t.val).val + 1)
    ∧ (outsAt0 V c t.val t.isLt).2 (ix2 p q) = Cert.KSpec.accOut (V c main_arg2) (V c main_arg10) (V c main_arg8) (rowOf t.val p) q ((tileOf t.val).val + 1) := by
  rw [rowOf_pred t.val h0 p, tileOf_pred t.val h0] at ih1 ih2
  have hB := outsAt0_B V c t h0 h1
  constructor
  · refine (congrFun (fst_of_eq hB) (ix2 p q)).trans ?_
    refine (entry_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (prev0 V c t).1 (prev0 V c t).2 p q).trans ?_
    refine (congrArg₂ (· + ·) ih1 (stepIn_at V c t p q)).trans ?_
    exact (accIn_succ _ _ _ _ _ _ _ _).symm
  · refine (congrFun (snd_of_eq hB) (ix2 p q)).trans ?_
    refine (entry_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (prev0 V c t).1 (prev0 V c t).2 p q).trans ?_
    refine (congrArg₂ (· + ·) ih2 (stepOut_at V c t p q)).trans ?_
    exact (accOut_succ _ _ _ _ _ _).symm

/-- The last tile: all sixteen tiles' products, and the bias row's entry on top. -/
theorem acc_last (t : Fin cfg0.N) (h0 : ¬t.val % 16 = 0) (h1 : t.val % 16 = 15) (p : Fin 512) (q : Fin 2048)
    (ih1 : (prev0 V c t).1 (ix2 p q) = Cert.KSpec.accIn (V c main_arg0) (V c main_arg2) (V c main_arg4) (V c main_arg6) (V c main_arg12) (rowOf (t.val - 1) p) q ((tileOf (t.val - 1)).val + 1))
    (ih2 : (prev0 V c t).2 (ix2 p q) = Cert.KSpec.accOut (V c main_arg2) (V c main_arg10) (V c main_arg8) (rowOf (t.val - 1) p) q ((tileOf (t.val - 1)).val + 1)) :
    (outsAt0 V c t.val t.isLt).1 (ix2 p q) = Cert.KSpec.accIn (V c main_arg0) (V c main_arg2) (V c main_arg4) (V c main_arg6) (V c main_arg12) (rowOf t.val p) q 16 + (V c main_v2 : S1x2048.Idx → Elt Ideal .f32) (ix2 0 q)
    ∧ (outsAt0 V c t.val t.isLt).2 (ix2 p q) = Cert.KSpec.accOut (V c main_arg2) (V c main_arg10) (V c main_arg8) (rowOf t.val p) q 16 + (V c main_v4 : S1x2048.Idx → Elt Ideal .f32) (ix2 0 q) := by
  have e16 : (tileOf t.val).val + 1 = 16 := by show t.val % 16 + 1 = 16; omega
  rw [rowOf_pred t.val h0 p, tileOf_pred t.val h0] at ih1 ih2
  have hC := outsAt0_C V c t h0 h1
  have b8 : (iblk0 V c 8 t : Vec Ideal S1x2048 .f32) (ix2 0 q) = (V c main_v2 : S1x2048.Idx → Elt Ideal .f32) (ix2 0 q) :=
    iblk0_8_apply V c t (ix2 0 q) (ix2 0 q) (by show (0 : ℕ) = 0 * 1 + 0; omega) (by show q.val = 0 * 2048 + q.val; omega)
  have b9 : (iblk0 V c 9 t : Vec Ideal S1x2048 .f32) (ix2 0 q) = (V c main_v4 : S1x2048.Idx → Elt Ideal .f32) (ix2 0 q) :=
    iblk0_9_apply V c t (ix2 0 q) (ix2 0 q) (by show (0 : ℕ) = 0 * 1 + 0; omega) (by show q.val = 0 * 2048 + q.val; omega)
  constructor
  · refine (congrFun (fst_of_eq hC) (ix2 p q)).trans ?_
    refine (entry_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (prev0 V c t).1 (prev0 V c t).2 p q).trans ?_
    refine congrArg₂ (· + ·) ?_ b8
    refine (congrArg₂ (· + ·) ih1 (stepIn_at V c t p q)).trans ?_
    exact (accIn_succ _ _ _ _ _ _ _ _).symm.trans (congrArg (Cert.KSpec.accIn (V c main_arg0) (V c main_arg2) (V c main_arg4) (V c main_arg6) (V c main_arg12) (rowOf t.val p) q) e16)
  · refine (congrFun (snd_of_eq hC) (ix2 p q)).trans ?_
    refine (entry_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (prev0 V c t).1 (prev0 V c t).2 p q).trans ?_
    refine congrArg₂ (· + ·) ?_ b9
    refine (congrArg₂ (· + ·) ih2 (stepOut_at V c t p q)).trans ?_
    exact (accOut_succ _ _ _ _ _ _).symm.trans (congrArg (Cert.KSpec.accOut (V c main_arg2) (V c main_arg10) (V c main_arg8) (rowOf t.val p) q) e16)

/-! ## The invariant along the positions -/

/-- Before the last tile of a batch half the accumulators hold the partial sums of the tiles so far. -/
theorem acc_mid : ∀ (n : ℕ) (hn : n < cfg0.N), ¬n % 16 = 15 → ∀ (p : Fin 512) (q : Fin 2048),
    (outsAt0 V c n hn).1 (ix2 p q) = Cert.KSpec.accIn (V c main_arg0) (V c main_arg2) (V c main_arg4) (V c main_arg6) (V c main_arg12) (rowOf n p) q ((tileOf n).val + 1)
    ∧ (outsAt0 V c n hn).2 (ix2 p q) = Cert.KSpec.accOut (V c main_arg2) (V c main_arg10) (V c main_arg8) (rowOf n p) q ((tileOf n).val + 1) := by
  intro n
  induction n with
  | zero => intro hn _ p q; exact acc_first V c ⟨0, hn⟩ (Nat.zero_mod _) p q
  | succ n ih =>
    intro hn h15 p q
    by_cases h0 : (n + 1) % 16 = 0
    · exact acc_first V c ⟨n + 1, hn⟩ h0 p q
    · have hp : ¬n % 16 = 15 := by omega
      have h := ih (Nat.lt_of_succ_lt hn) hp p q
      exact acc_next V c ⟨n + 1, hn⟩ h0 h15 p q h.1 h.2

/-- After the last tile: the full sums and the bias rows. -/
theorem acc_end (n : ℕ) (hn : n < cfg0.N) (h15 : n % 16 = 15) (p : Fin 512) (q : Fin 2048) :
    (outsAt0 V c n hn).1 (ix2 p q) = Cert.KSpec.accIn (V c main_arg0) (V c main_arg2) (V c main_arg4) (V c main_arg6) (V c main_arg12) (rowOf n p) q 16 + (V c main_v2 : S1x2048.Idx → Elt Ideal .f32) (ix2 0 q)
    ∧ (outsAt0 V c n hn).2 (ix2 p q) = Cert.KSpec.accOut (V c main_arg2) (V c main_arg10) (V c main_arg8) (rowOf n p) q 16 + (V c main_v4 : S1x2048.Idx → Elt Ideal .f32) (ix2 0 q) := by
  have h0 : ¬n % 16 = 0 := by omega
  have h := acc_mid V c (n - 1) (Nat.lt_of_le_of_lt (Nat.sub_le _ _) hn) (by omega) p q
  exact acc_last V c ⟨n, hn⟩ h0 h15 p q h.1 h.2

end AtV

end Cert.KernelIdeal.Hand

end
-- ==== Proof.Reg0ValueFinal.lean ====
/-
  What the first phase leaves in its two result arrays.  Each array is written back in two [512, 2048] blocks, one per
  batch half, by the point of that half's last column tile; at that point the accumulator's buffer holds all sixteen
  tiles' sums and the bias row, which is the specification's array on the block's rows.  The two blocks cover the
  array: row r lies in the block of batch half r / 512.
-/
import proofs.«124992_j59777354826392_1_alg».proof.Proof.Reg0ValueInv
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Idealize.ShloMosaic.ValueIdx

section AtV

variable (V : (c : Dev nD) → (b : Ref sig .tc) → Buf (Elt Ideal) ((c : Thread nD τ).loc b))

/-- Accumulator window 10's block index at each point: the batch half, and the one column block. -/
theorem idx0_10 : ∀ t : Fin cfg0.N, win0_10.index t 0 = t.val / 16 ∧ win0_10.index t 1 = 0 :=
  (by decide +kernel : ∀ t : Fin grid0.N, win0_10.index t 0 = t.val / 16 ∧ win0_10.index t 1 = 0)

/-- What a point of the last tile writes back is its batch half's block of the specification's array. -/
theorem flushed0_10_eq (c : Dev nD) (t : Fin cfg0.N) (hf : (cfg0.win 10).flush t = true) :
    (dat0 V c).flushed 10 t = ((cfg0.win 10).blk t).view.read (Elt Ideal) (Cert.KSpec.rIn (V c main_arg0) (V c main_arg2) (V c main_arg4) (V c main_arg6) (V c main_arg12) (V c main_v2)) := by
  have h15 : t.val % 16 = 15 := (flush0_10 t).mp hf
  have hN : t.val < 32 := lt_of_lt_of_eq t.isLt (show cfg0.N = 32 from N_0)
  obtain ⟨e0, e1⟩ := idx0_10 t
  show (cfg0.win 10).cut (grid0.coords t) ((dat0 V c).after 10 t) = _
  rw [after0_10]
  funext (j : S512x2048.Idx)
  obtain ⟨p, q, rfl⟩ : ∃ (p : Fin 512) (q : Fin 2048), j = ix2 p q := ⟨j 0, j 1, eq_ix2 j⟩
  have r0 : (((cfg0.win 10).blk t).view.emb (ix2 p q) : S1024x2048.Idx) 0 = rowOf t.val p :=
    Fin.ext (by show win0_10.index t 0 * 512 + 1 * p.val = (512 * (t.val / 16) + p.val) % 1024; rw [e0]; omega)
  have r1 : (((cfg0.win 10).blk t).view.emb (ix2 p q) : S1024x2048.Idx) 1 = q :=
    Fin.ext (by show win0_10.index t 1 * 2048 + 1 * q.val = q.val; rw [e1]; omega)
  show (outsAt0 V c t.val t.isLt).1 (ix2 p q) = (Cert.KSpec.rIn (V c main_arg0) (V c main_arg2) (V c main_arg4) (V c main_arg6) (V c main_arg12) (V c main_v2)) (((cfg0.win 10).blk t).view.emb (ix2 p q))
  rw [(acc_end V c t.val t.isLt h15 p q).1]
  unfold Cert.KSpec.rIn
  dsimp only
  rw [r0, r1]

/-- An entry of the array is in point t's block iff each coordinate is in the block's range on its axis. -/
theorem mem_blk0_10 (t : Fin cfg0.N) (i : S1024x2048.Idx) :
    i ∈ ((cfg0.win 10).blk t).view.set ↔ ∀ a : Fin 2, win0_10.index t a * S512x2048.size a ≤ (i a).val ∧ (i a).val < win0_10.index t a * S512x2048.size a + S512x2048.size a := by
  show i ∈ ((View.whole main_v5_0).slice (win0_10.rect t)).set ↔ _
  rw [View.set_slice_whole, Rect.mem_set_unit]
  exact Iff.rfl

/-- Row r of the array is written back by the last tile's point of its batch half, 16 · (r / 512) + 15. -/
theorem cover0_10 (i : S1024x2048.Idx) : ∃ t : Fin cfg0.N, (cfg0.win 10).flush t = true ∧ i ∈ ((cfg0.win 10).blk t).view.set := by
  have hi0 : (i 0).val < 1024 := (i 0).isLt
  have hi1 : (i 1).val < 2048 := (i 1).isLt
  have hN : cfg0.N = 32 := N_0
  have hlt : 16 * ((i 0).val / 512) + 15 < cfg0.N := by rw [hN]; omega
  refine ⟨⟨16 * ((i 0).val / 512) + 15, hlt⟩, (flush0_10 _).mpr (by show (16 * ((i 0).val / 512) + 15) % 16 = 15; omega), ?_⟩
  rw [mem_blk0_10]
  obtain ⟨e0, e1⟩ := idx0_10 ⟨16 * ((i 0).val / 512) + 15, hlt⟩
  intro a
  match a with
  | ⟨0, _⟩ =>
    show win0_10.index ⟨16 * ((i 0).val / 512) + 15, hlt⟩ 0 * 512 ≤ (i 0).val ∧ (i 0).val < win0_10.index ⟨16 * ((i 0).val / 512) + 15, hlt⟩ 0 * 512 + 512
    rw [e0]
    show (16 * ((i 0).val / 512) + 15) / 16 * 512 ≤ (i 0).val ∧ (i 0).val < (16 * ((i 0).val / 512) + 15) / 16 * 512 + 512
    omega
  | ⟨1, _⟩ =>
    show win0_10.index ⟨16 * ((i 0).val / 512) + 15, hlt⟩ 1 * 2048 ≤ (i 1).val ∧ (i 1).val < win0_10.index ⟨16 * ((i 0).val / 512) + 15, hlt⟩ 1 * 2048 + 2048
    rw [e1]
    omega

/-- Accumulator window 11's block index at each point: the batch half, and the one column block. -/
theorem idx0_11 : ∀ t : Fin cfg0.N, win0_11.index t 0 = t.val / 16 ∧ win0_11.index t 1 = 0 :=
  (by decide +kernel : ∀ t : Fin grid0.N, win0_11.index t 0 = t.val / 16 ∧ win0_11.index t 1 = 0)

/-- What a point of the last tile writes back is its batch half's block of the specification's array. -/
theorem flushed0_11_eq (c : Dev nD) (t : Fin cfg0.N) (hf : (cfg0.win 11).flush t = true) :
    (dat0 V c).flushed 11 t = ((cfg0.win 11).blk t).view.read (Elt Ideal) (Cert.KSpec.rOut (V c main_arg2) (V c main_arg10) (V c main_arg8) (V c main_v4)) := by
  have h15 : t.val % 16 = 15 := (flush0_11 t).mp hf
  have hN : t.val < 32 := lt_of_lt_of_eq t.isLt (show cfg0.N = 32 from N_0)
  obtain ⟨e0, e1⟩ := idx0_11 t
  show (cfg0.win 11).cut (grid0.coords t) ((dat0 V c).after 11 t) = _
  rw [after0_11]
  funext (j : S512x2048.Idx)
  obtain ⟨p, q, rfl⟩ : ∃ (p : Fin 512) (q : Fin 2048), j = ix2 p q := ⟨j 0, j 1, eq_ix2 j⟩
  have r0 : (((cfg0.win 11).blk t).view.emb (ix2 p q) : S1024x2048.Idx) 0 = rowOf t.val p :=
    Fin.ext (by show win0_11.index t 0 * 512 + 1 * p.val = (512 * (t.val / 16) + p.val) % 1024; rw [e0]; omega)
  have r1 : (((cfg0.win 11).blk t).view.emb (ix2 p q) : S1024x2048.Idx) 1 = q :=
    Fin.ext (by show win0_11.index t 1 * 2048 + 1 * q.val = q.val; rw [e1]; omega)
  show (outsAt0 V c t.val t.isLt).2 (ix2 p q) = (Cert.KSpec.rOut (V c main_arg2) (V c main_arg10) (V c main_arg8) (V c main_v4)) (((cfg0.win 11).blk t).view.emb (ix2 p q))
  rw [(acc_end V c t.val t.isLt h15 p q).2]
  unfold Cert.KSpec.rOut
  dsimp only
  rw [r0, r1]

/-- An entry of the array is in point t's block iff each coordinate is in the block's range on its axis. -/
theorem mem_blk0_11 (t : Fin cfg0.N) (i : S1024x2048.Idx) :
    i ∈ ((cfg0.win 11).blk t).view.set ↔ ∀ a : Fin 2, win0_11.index t a * S512x2048.size a ≤ (i a).val ∧ (i a).val < win0_11.index t a * S512x2048.size a + S512x2048.size a := by
  show i ∈ ((View.whole main_v5_1).slice (win0_11.rect t)).set ↔ _
  rw [View.set_slice_whole, Rect.mem_set_unit]
  exact Iff.rfl

/-- Row r of the array is written back by the last tile's point of its batch half, 16 · (r / 512) + 15. -/
theorem cover0_11 (i : S1024x2048.Idx) : ∃ t : Fin cfg0.N, (cfg0.win 11).flush t = true ∧ i ∈ ((cfg0.win 11).blk t).view.set := by
  have hi0 : (i 0).val < 1024 := (i 0).isLt
  have hi1 : (i 1).val < 2048 := (i 1).isLt
  have hN : cfg0.N = 32 := N_0
  have hlt : 16 * ((i 0).val / 512) + 15 < cfg0.N := by rw [hN]; omega
  refine ⟨⟨16 * ((i 0).val / 512) + 15, hlt⟩, (flush0_11 _).mpr (by show (16 * ((i 0).val / 512) + 15) % 16 = 15; omega), ?_⟩
  rw [mem_blk0_11]
  obtain ⟨e0, e1⟩ := idx0_11 ⟨16 * ((i 0).val / 512) + 15, hlt⟩
  intro a
  match a with
  | ⟨0, _⟩ =>
    show win0_11.index ⟨16 * ((i 0).val / 512) + 15, hlt⟩ 0 * 512 ≤ (i 0).val ∧ (i 0).val < win0_11.index ⟨16 * ((i 0).val / 512) + 15, hlt⟩ 0 * 512 + 512
    rw [e0]
    show (16 * ((i 0).val / 512) + 15) / 16 * 512 ≤ (i 0).val ∧ (i 0).val < (16 * ((i 0).val / 512) + 15) / 16 * 512 + 512
    omega
  | ⟨1, _⟩ =>
    show win0_11.index ⟨16 * ((i 0).val / 512) + 15, hlt⟩ 1 * 2048 ≤ (i 1).val ∧ (i 1).val < win0_11.index ⟨16 * ((i 0).val / 512) + 15, hlt⟩ 1 * 2048 + 2048
    rw [e1]
    omega

/-- The first result array of the first phase is the specification's first array of the phase's inputs. -/
theorem final0_10 (c : Dev nD) :
    (dat0 (F := Ideal) V c).arrAt 10 cfg0.N = Cert.KSpec.rIn (V c main_arg0) (V c main_arg2) (V c main_arg4) (V c main_arg6) (V c main_arg12) (V c main_v2) :=
  (dat0 V c).arrAt_eq_of_cover 10 (Cert.KSpec.rIn (V c main_arg0) (V c main_arg2) (V c main_arg4) (V c main_arg6) (V c main_arg12) (V c main_v2)) (flushed0_10_eq V c) (cover0_10)

/-- The second result array of the first phase is the specification's second array. -/
theorem final0_11 (c : Dev nD) :
    (dat0 (F := Ideal) V c).arrAt 11 cfg0.N = Cert.KSpec.rOut (V c main_arg2) (V c main_arg10) (V c main_arg8) (V c main_v4) :=
  (dat0 V c).arrAt_eq_of_cover 11 (Cert.KSpec.rOut (V c main_arg2) (V c main_arg10) (V c main_arg8) (V c main_v4)) (flushed0_11_eq V c) (cover0_11)

end AtV

end Cert.KernelIdeal.Hand

end
-- ==== Proof.KVal.lean ====
/-
  The three results of the whole program, from the sixteen arguments.

  The second phase leaves the membrane value, the spike and the adaptive threshold state as the specification's
  phase-two functions of the buffers it was entered with: three arguments, the input current and the two rows of time
  constants.  Those buffers are what the host left between the phases: the arguments as launched, the first phase's
  two arrays side by side, the logistic rows.  The first phase's arrays are the specification's phase-one functions
  of the buffers IT was entered with: arguments as launched and the two bias rows.  Composed, the results are the
  specification's functions of the sixteen arguments.
-/
import proofs.«124992_j59777354826392_1_alg».proof.Proof.HostVals
import proofs.«124992_j59777354826392_1_alg».proof.Proof.Reg1Value
import proofs.«124992_j59777354826392_1_alg».proof.Proof.Reg0ValueFinal

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The input current the second phase is entered with, given what the first phase's two arrays are. -/
theorem V3_main_v6_of (c : Dev nD)
    (h10 : (dat0 (F := Ideal) (V1 m) c).arrAt 10 cfg0.N
      = Cert.KSpec.rIn (V1 m c main_arg0) (V1 m c main_arg2) (V1 m c main_arg4) (V1 m c main_arg6) (V1 m c main_arg12) (V1 m c main_v2))
    (h11 : (dat0 (F := Ideal) (V1 m) c).arrAt 11 cfg0.N
      = Cert.KSpec.rOut (V1 m c main_arg2) (V1 m c main_arg10) (V1 m c main_arg8) (V1 m c main_v4)) :
    V3 m c main_v6 = Cert.KSpec.inpAll (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [V3_main_v6, W2_v5_1, W2_v5_0, h11, h10, V1_main_arg0, V1_main_arg2, V1_main_arg4, V1_main_arg6, V1_main_arg8,
    V1_main_arg10, V1_main_arg12, V1_main_v2, V1_main_v4]
  rfl

/-- The membrane value, given what the first phase's two arrays are. -/
theorem W4_main_v21_0_of (c : Dev nD)
    (h10 : (dat0 (F := Ideal) (V1 m) c).arrAt 10 cfg0.N
      = Cert.KSpec.rIn (V1 m c main_arg0) (V1 m c main_arg2) (V1 m c main_arg4) (V1 m c main_arg6) (V1 m c main_arg12) (V1 m c main_v2))
    (h11 : (dat0 (F := Ideal) (V1 m) c).arrAt 11 cfg0.N
      = Cert.KSpec.rOut (V1 m c main_arg2) (V1 m c main_arg10) (V1 m c main_arg8) (V1 m c main_v4)) :
    W4 m c (Proc.devRef .tc main_v21_0) = Cert.KSpec.memAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have h := (W4_arr m c 6).trans (final1_6 (V3 m) c)
  rw [V3_main_arg1, V3_main_arg2, V3_main_arg3, V3_main_v6_of m c h10 h11, V3_main_v13, V3_main_v20] at h
  exact h

/-- The spike, given what the first phase's two arrays are. -/
theorem W4_main_v21_1_of (c : Dev nD)
    (h10 : (dat0 (F := Ideal) (V1 m) c).arrAt 10 cfg0.N
      = Cert.KSpec.rIn (V1 m c main_arg0) (V1 m c main_arg2) (V1 m c main_arg4) (V1 m c main_arg6) (V1 m c main_arg12) (V1 m c main_v2))
    (h11 : (dat0 (F := Ideal) (V1 m) c).arrAt 11 cfg0.N
      = Cert.KSpec.rOut (V1 m c main_arg2) (V1 m c main_arg10) (V1 m c main_arg8) (V1 m c main_v4)) :
    W4 m c (Proc.devRef .tc main_v21_1) = Cert.KSpec.spikeAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have h := (W4_arr m c 7).trans (final1_7 (V3 m) c)
  rw [V3_main_arg1, V3_main_arg2, V3_main_arg3, V3_main_v6_of m c h10 h11, V3_main_v13, V3_main_v20] at h
  exact h

/-- The adaptive threshold state. -/
theorem W4_main_v21_2 (c : Dev nD) :
    W4 m c (Proc.devRef .tc main_v21_2) = Cert.KSpec.bAll (m ((c : Thread nD τ).loc main_arg2)) (m ((c : Thread nD τ).loc main_arg3)) (m ((c : Thread nD τ).loc main_arg14)) := by
  have h := (W4_arr m c 8).trans (final1_8 (V3 m) c)
  rw [V3_main_arg2, V3_main_arg3, V3_main_v20] at h
  exact h

/-- The membrane value. -/
theorem W4_main_v21_0 (c : Dev nD) :
    W4 m c (Proc.devRef .tc main_v21_0) = Cert.KSpec.memAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  W4_main_v21_0_of m c (final0_10 (V1 m) c) (final0_11 (V1 m) c)

/-- The spike. -/
theorem W4_main_v21_1 (c : Dev nD) :
    W4 m c (Proc.devRef .tc main_v21_1) = Cert.KSpec.spikeAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  W4_main_v21_1_of m c (final0_10 (V1 m) c) (final0_11 (V1 m) c)

end Cert.KernelIdeal.Hand

end
-- ==== Proof.RefElem.lean ====
/-
  The reference's elementwise stages, read at an entry (p, r) of the [1024, 4096] arrays.

  The two time constants are the logistic function 1 / (1 + exp (−v)) of a vector of 4096 entries, shared by every row
  of the batch: the entry in column r is read at r alone.  With them the adaptive threshold state is
  tau_adp · b_t + (1 − tau_adp) · spk, the threshold 0.1 + 1.8 · b, the membrane value
  mem_t · tau_m + ((1 − tau_m) · 3) · inputs − (thr · spk) · 1, and the spike the bit of mem − thr > 0 as a float.  The
  input current enters the membrane value as an array read at the same entry, whatever it is.  The spike is the
  comparison's bit converted unsigned; a bit widened to 32 bits and converted signed is the same number (0 or 1).
-/
import proofs.«124992_j59777354826392_1_alg».proof.Proof.Gen.ReferenceIdeal.Read
import proofs.«124992_j59777354826392_1_alg».proof.Proof.KSpec
import proofs.«124992_j59777354826392_1_alg».proof.Proof.RefIdx

noncomputable section

open scoped BigOperators

namespace Cert.RefSide

open Idealize.ShloMosaic Idealize.ShloMosaic.ValueIdx Cert.ReferenceIdeal Cert.ReferenceIdeal.Gen Cert.KSpec

/-- A bit converted unsigned is the bit widened to 32 bits and converted signed. -/
theorem uitofp_bit (b : BitVec 1) :
    FloatOps.uitofp (F := Ideal) .f32 b = FloatOps.sitofp (F := Ideal) .f32 (b.setWidth 32) := by
  have h : ∀ b : BitVec 1, (b.setWidth 32).toInt = (b.toNat : ℤ) := by decide
  show (((b.toNat : ℝ)) : EReal) = ((((b.setWidth 32).toInt : ℝ)) : EReal)
  rw [h]
  norm_cast

/-- tau_m's logistic value at entry j of the vector. -/
theorem sigm_tm (x15 : V4096) (j : S4096.Idx) : Read.val_main_v36 (F := Ideal) x15 j = sigm x15 j := by
  rw [Read.val_main_v36_apply, Read.val_main_v35_apply, Read.val_main_cst_0_apply, Read.val_main_v34_apply,
    Read.val_main_v33_apply, Read.val_main_cst_apply, Read.val_main_v32_apply, Read.val_main_v31_apply]
  rfl

/-- tau_adp's logistic value at entry j of the vector. -/
theorem sigm_tadp (x14 : V4096) (j : S4096.Idx) : Read.val_main_v42 (F := Ideal) x14 j = sigm x14 j := by
  rw [Read.val_main_v42_apply, Read.val_main_v41_apply, Read.val_main_cst_2_apply, Read.val_main_v40_apply,
    Read.val_main_v39_apply, Read.val_main_cst_1_apply, Read.val_main_v38_apply, Read.val_main_v37_apply]
  rfl

/-- tau_m broadcast over the batch, at (p, r): its value in column r. -/
theorem tm_at (x15 : V4096) (p : Fin 1024) (r : Fin 4096) :
    Read.val_main_v57 (F := Ideal) x15 (ix2 p r) = sigm x15 (ix1 r) := by
  rw [Read.val_main_v57_apply, Read.val_main_v56_apply, sigm_tm]
  exact congrArg (sigm x15) (ix1_ext _ r rfl)

/-- tau_adp broadcast over the batch, at (p, r). -/
theorem tadp_at (x14 : V4096) (p : Fin 1024) (r : Fin 4096) :
    Read.val_main_v44 (F := Ideal) x14 (ix2 p r) = sigm x14 (ix1 r) := by
  rw [Read.val_main_v44_apply, Read.val_main_v43_apply, sigm_tadp]
  exact congrArg (sigm x14) (ix1_ext _ r rfl)

/-- 1 − tau_adp broadcast over the batch, at (p, r). -/
theorem one_sub_tadp_at (x14 : V4096) (p : Fin 1024) (r : Fin 4096) :
    Read.val_main_v49 (F := Ideal) x14 (ix2 p r) = one - sigm x14 (ix1 r) := by
  rw [Read.val_main_v49_apply, Read.val_main_v48_apply, Read.val_main_v47_apply, Read.val_main_v46_apply,
    Read.val_main_cst_3_apply, sigm_tadp]
  exact congrArg (fun j => one - sigm x14 j) (ix1_ext _ r rfl)

/-- (1 − tau_m) · 3 broadcast over the batch, at (p, r). -/
theorem gain_at (x15 : V4096) (p : Fin 1024) (r : Fin 4096) :
    Read.val_main_v64 (F := Ideal) x15 (ix2 p r) = (one - sigm x15 (ix1 r)) * c3 := by
  rw [Read.val_main_v64_apply, Read.val_main_v63_apply, Read.val_main_v62_apply, Read.val_main_v60_apply,
    Read.val_main_v59_apply, Read.val_main_cst_6_apply, Read.val_main_v61_apply, Read.val_main_cst_7_apply, sigm_tm]
  exact congrArg (fun j => (one - sigm x15 j) * c3) (ix1_ext _ r rfl)

/-- The adaptive threshold state at (p, r). -/
theorem b_at (x2 x3 : V1024x4096) (x14 : V4096) (p : Fin 1024) (r : Fin 4096) :
    Read.val_main_v51 (F := Ideal) x2 x3 x14 (ix2 p r) = bNew x2 x3 (row (sigm x14)) (ix2 p r) := by
  rw [Read.val_main_v51_apply, Read.val_main_v45_apply, Read.val_main_v50_apply, tadp_at, one_sub_tadp_at]
  rfl

/-- The threshold at (p, r). -/
theorem thr_at (x2 x3 : V1024x4096) (x14 : V4096) (p : Fin 1024) (r : Fin 4096) :
    Read.val_main_v55 (F := Ideal) x2 x3 x14 (ix2 p r) = thr x2 x3 (row (sigm x14)) (ix2 p r) := by
  rw [Read.val_main_v55_apply, Read.val_main_v54_apply, Read.val_main_cst_5_apply, Read.val_main_v53_apply,
    Read.val_main_v52_apply, Read.val_main_cst_4_apply, b_at]
  rfl

/-- The membrane value at (p, r); the input current enters as the reference's own array read at the same entry. -/
theorem mem_at (x0 : V1024x2048) (x1 x2 x3 : V1024x4096) (x4 : V2048x2048) (x5 : V2048) (x6 : V2048x2048) (x7 : V2048)
    (x8 : V2048x2048) (x9 : V2048) (x10 : V2048x2048) (x11 : V2048) (x12 : V2048x2048) (x13 : V2048) (x14 x15 : V4096) (p : Fin 1024) (r : Fin 4096) :
    Read.val_main_v70 (F := Ideal) x0 x1 x2 x3 x4 x5 x6 x7 x8 x9 x10 x11 x12 x13 x14 x15 (ix2 p r)
      = memNew x1 x2 x3 (Read.val_main_v30 (F := Ideal) x0 x2 x4 x5 x6 x7 x8 x9 x10 x11 x12 x13) (row (sigm x15)) (row (sigm x14)) (ix2 p r) := by
  rw [Read.val_main_v70_apply, Read.val_main_v66_apply, Read.val_main_v58_apply, Read.val_main_v65_apply,
    Read.val_main_v69_apply, Read.val_main_v67_apply, Read.val_main_v68_apply, Read.val_main_cst_8_apply,
    tm_at, gain_at, thr_at]
  rfl

/-- The spike at (p, r). -/
theorem spike_at (x0 : V1024x2048) (x1 x2 x3 : V1024x4096) (x4 : V2048x2048) (x5 : V2048) (x6 : V2048x2048) (x7 : V2048)
    (x8 : V2048x2048) (x9 : V2048) (x10 : V2048x2048) (x11 : V2048) (x12 : V2048x2048) (x13 : V2048) (x14 x15 : V4096) (p : Fin 1024) (r : Fin 4096) :
    Read.val_main_v74 (F := Ideal) x0 x1 x2 x3 x4 x5 x6 x7 x8 x9 x10 x11 x12 x13 x14 x15 (ix2 p r)
      = spikeNew x1 x2 x3 (Read.val_main_v30 (F := Ideal) x0 x2 x4 x5 x6 x7 x8 x9 x10 x11 x12 x13) (row (sigm x15)) (row (sigm x14)) (ix2 p r) := by
  rw [Read.val_main_v74_apply, Read.val_main_v73_apply, Read.val_main_v71_apply, Read.val_main_v72_apply,
    Read.val_main_cst_9_apply, mem_at, thr_at, uitofp_bit]
  rfl

/-- The reference's adaptive threshold state, as an array. -/
theorem b_eq (x2 x3 : V1024x4096) (x14 : V4096) :
    Read.val_main_v51 (F := Ideal) x2 x3 x14 = bNew x2 x3 (row (sigm x14)) := by
  funext i
  obtain ⟨p, r, rfl⟩ : ∃ (p : Fin 1024) (r : Fin 4096), i = ix2 p r := ⟨i 0, i 1, eq_ix2 i⟩
  exact b_at x2 x3 x14 p r

/-- The reference's membrane value, as an array. -/
theorem mem_eq (x0 : V1024x2048) (x1 x2 x3 : V1024x4096) (x4 : V2048x2048) (x5 : V2048) (x6 : V2048x2048) (x7 : V2048)
    (x8 : V2048x2048) (x9 : V2048) (x10 : V2048x2048) (x11 : V2048) (x12 : V2048x2048) (x13 : V2048) (x14 x15 : V4096) :
    Read.val_main_v70 (F := Ideal) x0 x1 x2 x3 x4 x5 x6 x7 x8 x9 x10 x11 x12 x13 x14 x15
      = memNew x1 x2 x3 (Read.val_main_v30 (F := Ideal) x0 x2 x4 x5 x6 x7 x8 x9 x10 x11 x12 x13) (row (sigm x15)) (row (sigm x14)) := by
  funext i
  obtain ⟨p, r, rfl⟩ : ∃ (p : Fin 1024) (r : Fin 4096), i = ix2 p r := ⟨i 0, i 1, eq_ix2 i⟩
  exact mem_at x0 x1 x2 x3 x4 x5 x6 x7 x8 x9 x10 x11 x12 x13 x14 x15 p r

/-- The reference's spike, as an array. -/
theorem spike_eq (x0 : V1024x2048) (x1 x2 x3 : V1024x4096) (x4 : V2048x2048) (x5 : V2048) (x6 : V2048x2048) (x7 : V2048)
    (x8 : V2048x2048) (x9 : V2048) (x10 : V2048x2048) (x11 : V2048) (x12 : V2048x2048) (x13 : V2048) (x14 x15 : V4096) :
    Read.val_main_v74 (F := Ideal) x0 x1 x2 x3 x4 x5 x6 x7 x8 x9 x10 x11 x12 x13 x14 x15
      = spikeNew x1 x2 x3 (Read.val_main_v30 (F := Ideal) x0 x2 x4 x5 x6 x7 x8 x9 x10 x11 x12 x13) (row (sigm x15)) (row (sigm x14)) := by
  funext i
  obtain ⟨p, r, rfl⟩ : ∃ (p : Fin 1024) (r : Fin 4096), i = ix2 p r := ⟨i 0, i 1, eq_ix2 i⟩
  exact spike_at x0 x1 x2 x3 x4 x5 x6 x7 x8 x9 x10 x11 x12 x13 x14 x15 p r

end Cert.RefSide

end
-- ==== Proof.RefSide.lean ====
/-
  The reference's run, with its three results stated as the two-phase specification of the sixteen arguments.

  The run ends with each result at the composition of the reference's operations and with the arguments unchanged.
  Entry by entry the membrane value, the spike and the adaptive threshold state are the specification's phase-two
  functions of the input current, and the input current — five matrix products with their biases, added in the
  reference's order and joined along the columns — is the specification's sixteen-tile accumulation.
-/
import proofs.«124992_j59777354826392_1_alg».proof.Proof.Gen.ReferenceIdeal.Read
import proofs.«124992_j59777354826392_1_alg».proof.Proof.RefElem
import proofs.«124992_j59777354826392_1_alg».proof.Proof.RefMat

noncomputable section

namespace Cert.RefSide

open Idealize.ShloMosaic Idealize.ShloMosaic.TcCoe Idealize.SL.Sem Cert.ReferenceIdeal

/-- The reference's membrane value is the specification's, as arrays of the sixteen arguments. -/
theorem mem_all (x0 : V1024x2048) (x1 x2 x3 : V1024x4096) (x4 : V2048x2048) (x5 : V2048) (x6 : V2048x2048) (x7 : V2048)
    (x8 : V2048x2048) (x9 : V2048) (x10 : V2048x2048) (x11 : V2048) (x12 : V2048x2048) (x13 : V2048) (x14 x15 : V4096) :
    Read.val_main_v70 (F := Ideal) x0 x1 x2 x3 x4 x5 x6 x7 x8 x9 x10 x11 x12 x13 x14 x15 = Cert.KSpec.memAll x0 x1 x2 x3 x4 x5 x6 x7 x8 x9 x10 x11 x12 x13 x14 x15 := by
  rw [mem_eq, inp_eq]
  rfl

/-- The reference's spike is the specification's. -/
theorem spike_all (x0 : V1024x2048) (x1 x2 x3 : V1024x4096) (x4 : V2048x2048) (x5 : V2048) (x6 : V2048x2048) (x7 : V2048)
    (x8 : V2048x2048) (x9 : V2048) (x10 : V2048x2048) (x11 : V2048) (x12 : V2048x2048) (x13 : V2048) (x14 x15 : V4096) :
    Read.val_main_v74 (F := Ideal) x0 x1 x2 x3 x4 x5 x6 x7 x8 x9 x10 x11 x12 x13 x14 x15 = Cert.KSpec.spikeAll x0 x1 x2 x3 x4 x5 x6 x7 x8 x9 x10 x11 x12 x13 x14 x15 := by
  rw [spike_eq, inp_eq]
  rfl

/-- The reference's adaptive threshold state is the specification's. -/
theorem b_all (x2 x3 : V1024x4096) (x14 : V4096) :
    Read.val_main_v51 (F := Ideal) x2 x3 x14 = Cert.KSpec.bAll x2 x3 x14 :=
  b_eq x2 x3 x14

/-- From any memory with zero counters the reference terminates with its three results the specification's functions
    of the sixteen arguments, and the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v70) = Cert.KSpec.memAll (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15))
      ∧ r.2.mem ((c.tc : Thread nD τ).loc main_v74) = Cert.KSpec.spikeAll (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15))
      ∧ r.2.mem ((c.tc : Thread nD τ).loc main_v51) = Cert.KSpec.bAll (m' ((c.tc : Thread nD τ).loc main_arg2)) (m' ((c.tc : Thread nD τ).loc main_arg3)) (m' ((c.tc : Thread nD τ).loc main_arg14))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)) :=
  (θ_run defs _ _).mono (fun _ h c =>
      ⟨(h c).1.trans ((Read.val_main_v70_eq m' c).trans (mem_all _ _ _ _ _ _ _ _ _ _ _ _ _ _ _ _)),
       (h c).2.1.trans ((Read.val_main_v74_eq m' c).trans (spike_all _ _ _ _ _ _ _ _ _ _ _ _ _ _ _ _)),
       (h c).2.2.1.trans ((Read.val_main_v51_eq _ _ _).trans (b_all _ _ _)),
       (h c).2.2.2⟩)
    (Value.run (F := Ideal) m' ρ')

end Cert.RefSide

end
-- ==== Proof.lean ====
/-
  The certificate's claims.  The kernel computes, in two launched phases with host operations around them, a spiking
  layer's update: phase one accumulates five matrix products over sixteen column tiles into two arrays and adds their
  bias rows; the host concatenates the two arrays and takes the logistic function of the two time-constant vectors;
  phase two is the elementwise state update.  The reference computes the same three results with whole matrix
  products and the biases added product by product.  At the ideal instance the two agree entry by entry: a sum over
  2048 columns is the sum of its sixteen tiles' sums, and the biases may be added in any grouping, since addition of
  extended reals is commutative and associative; the elementwise part is the same expression on both sides.

  The frames: every program terminates without a fault and leaves its arguments unchanged — for the two kernel
  programs from the run of their segments (host operations folded over the launch memory, each phase's write-backs),
  for the reference from its run.  The idealization rewrote nothing, so its statement is trivial.
-/
import proofs.«124992_j59777354826392_1_alg».proof.Defs
import proofs.«124992_j59777354826392_1_alg».proof.Proof.Gen.Kernel
import proofs.«124992_j59777354826392_1_alg».proof.Proof.Gen.KernelIdeal
import proofs.«124992_j59777354826392_1_alg».proof.Proof.Gen.ReferenceIdeal
import proofs.«124992_j59777354826392_1_alg».proof.Proof.Gen.Pre_finite_inputs
import proofs.«124992_j59777354826392_1_alg».proof.Proof.Gen.ReferenceIdeal.Run
import proofs.«124992_j59777354826392_1_alg».proof.Proof.Gen.ReferenceIdeal.Read
import proofs.«124992_j59777354826392_1_alg».proof.Proof.Frame
import proofs.«124992_j59777354826392_1_alg».proof.Proof.FrameBits
import proofs.«124992_j59777354826392_1_alg».proof.Proof.KVal
import proofs.«124992_j59777354826392_1_alg».proof.Proof.RefSide
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The whole-program functions respect equality of their arguments. -/
theorem memAll_congr (x0 : FVec Ideal Cert.KSpec.A1024x2048 .f32) (x1 : FVec Ideal Cert.KSpec.A1024x4096 .f32) (x2 : FVec Ideal Cert.KSpec.A1024x4096 .f32) (x3 : FVec Ideal Cert.KSpec.A1024x4096 .f32) (x4 : FVec Ideal Cert.KSpec.A2048x2048 .f32) (x5 : FVec Ideal Cert.KSpec.A2048 .f32) (x6 : FVec Ideal Cert.KSpec.A2048x2048 .f32) (x7 : FVec Ideal Cert.KSpec.A2048 .f32) (x8 : FVec Ideal Cert.KSpec.A2048x2048 .f32) (x9 : FVec Ideal Cert.KSpec.A2048 .f32) (x10 : FVec Ideal Cert.KSpec.A2048x2048 .f32) (x11 : FVec Ideal Cert.KSpec.A2048 .f32) (x12 : FVec Ideal Cert.KSpec.A2048x2048 .f32) (x13 : FVec Ideal Cert.KSpec.A2048 .f32) (x14 : FVec Ideal Cert.KSpec.A4096 .f32) (x15 : FVec Ideal Cert.KSpec.A4096 .f32) (y0 : FVec Ideal Cert.KSpec.A1024x2048 .f32) (y1 : FVec Ideal Cert.KSpec.A1024x4096 .f32) (y2 : FVec Ideal Cert.KSpec.A1024x4096 .f32) (y3 : FVec Ideal Cert.KSpec.A1024x4096 .f32) (y4 : FVec Ideal Cert.KSpec.A2048x2048 .f32) (y5 : FVec Ideal Cert.KSpec.A2048 .f32) (y6 : FVec Ideal Cert.KSpec.A2048x2048 .f32) (y7 : FVec Ideal Cert.KSpec.A2048 .f32) (y8 : FVec Ideal Cert.KSpec.A2048x2048 .f32) (y9 : FVec Ideal Cert.KSpec.A2048 .f32) (y10 : FVec Ideal Cert.KSpec.A2048x2048 .f32) (y11 : FVec Ideal Cert.KSpec.A2048 .f32) (y12 : FVec Ideal Cert.KSpec.A2048x2048 .f32) (y13 : FVec Ideal Cert.KSpec.A2048 .f32) (y14 : FVec Ideal Cert.KSpec.A4096 .f32) (y15 : FVec Ideal Cert.KSpec.A4096 .f32)
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e13 : x13 = y13) (e14 : x14 = y14) (e15 : x15 = y15) :
    Cert.KSpec.memAll x0 x1 x2 x3 x4 x5 x6 x7 x8 x9 x10 x11 x12 x13 x14 x15 = Cert.KSpec.memAll y0 y1 y2 y3 y4 y5 y6 y7 y8 y9 y10 y11 y12 y13 y14 y15 := by
  subst e0 e1 e2 e3 e4 e5 e6 e7 e8 e9 e10 e11 e12 e13 e14 e15; rfl
theorem spikeAll_congr (x0 : FVec Ideal Cert.KSpec.A1024x2048 .f32) (x1 : FVec Ideal Cert.KSpec.A1024x4096 .f32) (x2 : FVec Ideal Cert.KSpec.A1024x4096 .f32) (x3 : FVec Ideal Cert.KSpec.A1024x4096 .f32) (x4 : FVec Ideal Cert.KSpec.A2048x2048 .f32) (x5 : FVec Ideal Cert.KSpec.A2048 .f32) (x6 : FVec Ideal Cert.KSpec.A2048x2048 .f32) (x7 : FVec Ideal Cert.KSpec.A2048 .f32) (x8 : FVec Ideal Cert.KSpec.A2048x2048 .f32) (x9 : FVec Ideal Cert.KSpec.A2048 .f32) (x10 : FVec Ideal Cert.KSpec.A2048x2048 .f32) (x11 : FVec Ideal Cert.KSpec.A2048 .f32) (x12 : FVec Ideal Cert.KSpec.A2048x2048 .f32) (x13 : FVec Ideal Cert.KSpec.A2048 .f32) (x14 : FVec Ideal Cert.KSpec.A4096 .f32) (x15 : FVec Ideal Cert.KSpec.A4096 .f32) (y0 : FVec Ideal Cert.KSpec.A1024x2048 .f32) (y1 : FVec Ideal Cert.KSpec.A1024x4096 .f32) (y2 : FVec Ideal Cert.KSpec.A1024x4096 .f32) (y3 : FVec Ideal Cert.KSpec.A1024x4096 .f32) (y4 : FVec Ideal Cert.KSpec.A2048x2048 .f32) (y5 : FVec Ideal Cert.KSpec.A2048 .f32) (y6 : FVec Ideal Cert.KSpec.A2048x2048 .f32) (y7 : FVec Ideal Cert.KSpec.A2048 .f32) (y8 : FVec Ideal Cert.KSpec.A2048x2048 .f32) (y9 : FVec Ideal Cert.KSpec.A2048 .f32) (y10 : FVec Ideal Cert.KSpec.A2048x2048 .f32) (y11 : FVec Ideal Cert.KSpec.A2048 .f32) (y12 : FVec Ideal Cert.KSpec.A2048x2048 .f32) (y13 : FVec Ideal Cert.KSpec.A2048 .f32) (y14 : FVec Ideal Cert.KSpec.A4096 .f32) (y15 : FVec Ideal Cert.KSpec.A4096 .f32)
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e13 : x13 = y13) (e14 : x14 = y14) (e15 : x15 = y15) :
    Cert.KSpec.spikeAll x0 x1 x2 x3 x4 x5 x6 x7 x8 x9 x10 x11 x12 x13 x14 x15 = Cert.KSpec.spikeAll y0 y1 y2 y3 y4 y5 y6 y7 y8 y9 y10 y11 y12 y13 y14 y15 := by
  subst e0 e1 e2 e3 e4 e5 e6 e7 e8 e9 e10 e11 e12 e13 e14 e15; rfl
theorem bAll_congr (x2 x3 : FVec Ideal Cert.KSpec.A1024x4096 .f32) (x14 : FVec Ideal Cert.KSpec.A4096 .f32) (y2 y3 : FVec Ideal Cert.KSpec.A1024x4096 .f32) (y14 : FVec Ideal Cert.KSpec.A4096 .f32)
    (e2 : x2 = y2) (e3 : x3 = y3) (e14 : x14 = y14) : Cert.KSpec.bAll x2 x3 x14 = Cert.KSpec.bAll y2 y3 y14 := by
  subst e2 e3 e14; rfl

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2.2) (Cert.RefSide.ref_run m ρ)

/-- Both programs end with the three results at the same functions of the arguments: the kernel's from the run of
    its segments, the last valuation read at the second phase's output arrays; the reference's from its run. -/
theorem algebraic : Cert.algebraic_KernelIdeal_ReferenceIdeal := by
  intro m ρ m' ρ' _ hagree
  refine ⟨fun c => Cert.KSpec.memAll (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Cert.KSpec.spikeAll (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Cert.KSpec.bAll (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg14)), ?_, ?_⟩
  · exact (θ_run Cert.KernelIdeal.defs _ _).mono (fun r h c =>
      ⟨(h c _ (Cert.KernelIdeal.Hand.mem_uc Cert.KernelIdeal.main_v21_0 (by decide))).trans (Cert.KernelIdeal.Hand.W4_main_v21_0 m c),
       (h c _ (Cert.KernelIdeal.Hand.mem_uc Cert.KernelIdeal.main_v21_1 (by decide))).trans (Cert.KernelIdeal.Hand.W4_main_v21_1 m c),
       (h c _ (Cert.KernelIdeal.Hand.mem_uc Cert.KernelIdeal.main_v21_2 (by decide))).trans (Cert.KernelIdeal.Hand.W4_main_v21_2 m c),
       (h c _ (Cert.KernelIdeal.Hand.mem_uc Cert.KernelIdeal.main_arg0 (by decide))).trans (Cert.KernelIdeal.Hand.W4_main_arg0 m c),
       (h c _ (Cert.KernelIdeal.Hand.mem_uc Cert.KernelIdeal.main_arg1 (by decide))).trans (Cert.KernelIdeal.Hand.W4_main_arg1 m c),
       (h c _ (Cert.KernelIdeal.Hand.mem_uc Cert.KernelIdeal.main_arg2 (by decide))).trans (Cert.KernelIdeal.Hand.W4_main_arg2 m c),
       (h c _ (Cert.KernelIdeal.Hand.mem_uc Cert.KernelIdeal.main_arg3 (by decide))).trans (Cert.KernelIdeal.Hand.W4_main_arg3 m c),
       (h c _ (Cert.KernelIdeal.Hand.mem_uc Cert.KernelIdeal.main_arg4 (by decide))).trans (Cert.KernelIdeal.Hand.W4_main_arg4 m c),
       (h c _ (Cert.KernelIdeal.Hand.mem_uc Cert.KernelIdeal.main_arg5 (by decide))).trans (Cert.KernelIdeal.Hand.W4_main_arg5 m c),
       (h c _ (Cert.KernelIdeal.Hand.mem_uc Cert.KernelIdeal.main_arg6 (by decide))).trans (Cert.KernelIdeal.Hand.W4_main_arg6 m c),
       (h c _ (Cert.KernelIdeal.Hand.mem_uc Cert.KernelIdeal.main_arg7 (by decide))).trans (Cert.KernelIdeal.Hand.W4_main_arg7 m c),
       (h c _ (Cert.KernelIdeal.Hand.mem_uc Cert.KernelIdeal.main_arg8 (by decide))).trans (Cert.KernelIdeal.Hand.W4_main_arg8 m c),
       (h c _ (Cert.KernelIdeal.Hand.mem_uc Cert.KernelIdeal.main_arg9 (by decide))).trans (Cert.KernelIdeal.Hand.W4_main_arg9 m c),
       (h c _ (Cert.KernelIdeal.Hand.mem_uc Cert.KernelIdeal.main_arg10 (by decide))).trans (Cert.KernelIdeal.Hand.W4_main_arg10 m c),
       (h c _ (Cert.KernelIdeal.Hand.mem_uc Cert.KernelIdeal.main_arg11 (by decide))).trans (Cert.KernelIdeal.Hand.W4_main_arg11 m c),
       (h c _ (Cert.KernelIdeal.Hand.mem_uc Cert.KernelIdeal.main_arg12 (by decide))).trans (Cert.KernelIdeal.Hand.W4_main_arg12 m c),
       (h c _ (Cert.KernelIdeal.Hand.mem_uc Cert.KernelIdeal.main_arg13 (by decide))).trans (Cert.KernelIdeal.Hand.W4_main_arg13 m c),
       (h c _ (Cert.KernelIdeal.Hand.mem_uc Cert.KernelIdeal.main_arg14 (by decide))).trans (Cert.KernelIdeal.Hand.W4_main_arg14 m c),
       (h c _ (Cert.KernelIdeal.Hand.mem_uc Cert.KernelIdeal.main_arg15 (by decide))).trans (Cert.KernelIdeal.Hand.W4_main_arg15 m c)⟩)
      (Cert.KernelIdeal.Hand.run_all m ρ)
  · refine (θ_run Cert.ReferenceIdeal.defs _ _).mono (fun r h c => ?_) (Cert.RefSide.ref_run m' ρ')
    beta_reduce
    obtain ⟨a0, a1, a2, a3, a4, a5, a6, a7, a8, a9, a10, a11, a12, a13, a14, a15⟩ := hagree c
    obtain ⟨h0, h1, h2, hargs⟩ := h c
    refine ⟨h0.trans ?_, h1.trans ?_, h2.trans ?_, hargs⟩
    · exact memAll_congr _ _ _ _ _ _ _ _ _ _ _ _ _ _ _ _ _ _ _ _ _ _ _ _ _ _ _ _ _ _ _ _ a0 a1 a2 a3 a4 a5 a6 a7 a8 a9 a10 a11 a12 a13 a14 a15
    · exact spikeAll_congr _ _ _ _ _ _ _ _ _ _ _ _ _ _ _ _ _ _ _ _ _ _ _ _ _ _ _ _ _ _ _ _ a0 a1 a2 a3 a4 a5 a6 a7 a8 a9 a10 a11 a12 a13 a14 a15
    · exact bAll_congr _ _ _ _ _ _ a2 a3 a14

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
